-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S240000x3 : Shape := ⟨2, ![240000, 3]⟩
abbrev S240000x64 : Shape := ⟨2, ![240000, 64]⟩
abbrev S67x128 : Shape := ⟨2, ![67, 128]⟩
abbrev S128 : Shape := ⟨1, ![128]⟩
abbrev S60000 : Shape := ⟨1, ![60000]⟩
abbrev S60000x16 : Shape := ⟨2, ![60000, 16]⟩
abbrev S_ : Shape := ⟨0, ![]⟩

class Facts : Prop where
  bcast_S_S240000x3 : S_.BroadcastsInDim S240000x3 (![] : Fin 0 → Fin S240000x3.rank)
  reducesTo_S240000x3_S_d0_1 : S240000x3.ReducesTo [0, 1] S_
  h_S_ : 0 < S_.numel
  bcast_S_S240000x64 : S_.BroadcastsInDim S240000x64 (![] : Fin 0 → Fin S240000x64.rank)
  reducesTo_S240000x64_S_d0_1 : S240000x64.ReducesTo [0, 1] S_
  bcast_S_S67x128 : S_.BroadcastsInDim S67x128 (![] : Fin 0 → Fin S67x128.rank)
  reducesTo_S67x128_S_d0_1 : S67x128.ReducesTo [0, 1] S_
  bcast_S_S128 : S_.BroadcastsInDim S128 (![] : Fin 0 → Fin S128.rank)
  reducesTo_S128_S_d0 : S128.ReducesTo [0] S_
  bcast_S_S60000 : S_.BroadcastsInDim S60000 (![] : Fin 0 → Fin S60000.rank)
  reducesTo_S60000_S_d0 : S60000.ReducesTo [0] S_
  bcast_S_S60000x16 : S_.BroadcastsInDim S60000x16 (![] : Fin 0 → Fin S60000x16.rank)
  reducesTo_S60000x16_S_d0_1 : S60000x16.ReducesTo [0, 1] S_

variable [Facts]

def fn_part2 {F : FTy → Type} [FloatOps F] (main_arg6 : IVec S60000x16 32) (main_v30 : IVec S_ 1) (main_v32 : IVec S60000x16 1) (main_c_12 : IVec S_ 32) : IVec S_ 1 :=
  let main_v33 : IVec S60000x16 32 := broadcastInDim S60000x16 ![] bcast_S_S60000x16 main_c_12
  let main_v34 : IVec S60000x16 1 := cmpi .slt main_arg6 main_v33
  let main_v35 : IVec S60000x16 1 := andi main_v32 main_v34
  let main_c_13 : IVec S_ 1 := constantI S_ 1 1#1
  let main_v36 : IVec S_ 1 := (fun x v => Host.reduce IntOp.andi x v reducesTo_S60000x16_S_d0_1 h_S_) main_v35 main_c_13
  let main_v37 : IVec S_ 1 := andi main_v30 main_v36
  main_v37

def fn_part1 {F : FTy → Type} [FloatOps F] (main_arg4 : FVec F S128 .f32) (main_arg5 : IVec S60000 32) (main_arg6 : IVec S60000x16 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S60000 32 := broadcastInDim S60000 ![] bcast_S_S60000 main_c_8
  let main_v25 : IVec S60000 1 := cmpi .sge main_arg5 main_v24
  let main_c_9 : IVec S_ 32 := constantI S_ 32 240000#32
  let main_v26 : IVec S60000 32 := broadcastInDim S60000 ![] bcast_S_S60000 main_c_9
  let main_v27 : IVec S60000 1 := cmpi .slt main_arg5 main_v26
  let main_v28 : IVec S60000 1 := andi main_v25 main_v27
  let main_c_10 : IVec S_ 1 := constantI S_ 1 1#1
  let main_v29 : IVec S_ 1 := (fun x v => Host.reduce IntOp.andi x v reducesTo_S60000_S_d0 h_S_) main_v28 main_c_10
  let main_v30 : IVec S_ 1 := andi main_v23 main_v29
  let main_c_11 : IVec S_ 32 := constantI S_ 32 0#32
  let main_v31 : IVec S60000x16 32 := broadcastInDim S60000x16 ![] bcast_S_S60000x16 main_c_11
  let main_v32 : IVec S60000x16 1 := cmpi .sge main_arg6 main_v31
  let main_c_12 : IVec S_ 32 := constantI S_ 32 240000#32
  fn_part2 (F := F) main_arg6 main_v30 main_v32 main_c_12

def fn {F : FTy → Type} [FloatOps F] (main_arg0 : FVec F S240000x3 .f32) (main_arg1 : FVec F S240000x64 .f32) (main_arg2 : FVec F S67x128 .f32) (main_arg3 : FVec F S128 .f32) (main_arg4 : FVec F S128 .f32) (main_arg5 : IVec S60000 32) (main_arg6 : IVec S60000x16 32) : IVec S_ 1 :=
  let main_v0 : FVec F S240000x3 .f32 := Host.absf main_arg0
  let main_cst : FVec F S_ .f32 := constant S_ .f32 0x7F800000#32
  let main_v1 : FVec F S240000x3 .f32 := broadcastInDim S240000x3 ![] bcast_S_S240000x3 main_cst
  let main_v2 : IVec S240000x3 1 := cmpf .olt main_v0 main_v1
  let main_c : IVec S_ 1 := constantI S_ 1 1#1
  let main_v3 : IVec S_ 1 := (fun x v => Host.reduce IntOp.andi x v reducesTo_S240000x3_S_d0_1 h_S_) main_v2 main_c
  let main_v4 : FVec F S240000x64 .f32 := Host.absf main_arg1
  let main_cst_0 : FVec F S_ .f32 := constant S_ .f32 0x7F800000#32
  let main_v5 : FVec F S240000x64 .f32 := broadcastInDim S240000x64 ![] bcast_S_S240000x64 main_cst_0
  let main_v6 : IVec S240000x64 1 := cmpf .olt main_v4 main_v5
  let main_c_1 : IVec S_ 1 := constantI S_ 1 1#1
  let main_v7 : IVec S_ 1 := (fun x v => Host.reduce IntOp.andi x v reducesTo_S240000x64_S_d0_1 h_S_) main_v6 main_c_1
  let main_v8 : IVec S_ 1 := andi main_v3 main_v7
  let main_v9 : FVec F S67x128 .f32 := Host.absf main_arg2
  let main_cst_2 : FVec F S_ .f32 := constant S_ .f32 0x7F800000#32
  let main_v10 : FVec F S67x128 .f32 := broadcastInDim S67x128 ![] bcast_S_S67x128 main_cst_2
  let main_v11 : IVec S67x128 1 := cmpf .olt main_v9 main_v10
  let main_c_3 : IVec S_ 1 := constantI S_ 1 1#1
  let main_v12 : IVec S_ 1 := (fun x v => Host.reduce IntOp.andi x v reducesTo_S67x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S240000x3 : Shape := ⟨2, ![240000, 3]⟩
abbrev S240000x64 : Shape := ⟨2, ![240000, 64]⟩
abbrev S67x128 : Shape := ⟨2, ![67, 128]⟩
abbrev S128 : Shape := ⟨1, ![128]⟩
abbrev S60000 : Shape := ⟨1, ![60000]⟩
abbrev S60000x16 : Shape := ⟨2, ![60000, 16]⟩
abbrev S_ : Shape := ⟨0, ![]⟩
abbrev S60000x1 : Shape := ⟨2, ![60000, 1]⟩
abbrev S1 : Shape := ⟨1, ![1]⟩
abbrev S1x1 : Shape := ⟨2, ![1, 1]⟩
abbrev S60000x3 : Shape := ⟨2, ![60000, 3]⟩
abbrev S60000x16x1 : Shape := ⟨3, ![60000, 16, 1]⟩
abbrev S1x1x1 : Shape := ⟨3, ![1, 1, 1]⟩
abbrev S60000x16x3 : Shape := ⟨3, ![60000, 16, 3]⟩
abbrev S60000x1x3 : Shape := ⟨3, ![60000, 1, 3]⟩
abbrev S60000x16x64 : Shape := ⟨3, ![60000, 16, 64]⟩
abbrev S3x128 : Shape := ⟨2, ![3, 128]⟩
abbrev S64x128 : Shape := ⟨2, ![64, 128]⟩
abbrev S2x1x128 : Shape := ⟨3, ![2, 1, 128]⟩
abbrev S600x16x3 : Shape := ⟨3, ![600, 16, 3]⟩
abbrev S600x16x64 : Shape := ⟨3, ![600, 16, 64]⟩
abbrev S1x1x128 : Shape := ⟨3, ![1, 1, 128]⟩
abbrev S9600x3 : Shape := ⟨2, ![9600, 3]⟩
abbrev S9600x64 : Shape := ⟨2, ![9600, 64]⟩
abbrev S9600x128 : Shape := ⟨2, ![9600, 128]⟩
abbrev S1x128 : Shape := ⟨2, ![1, 128]⟩
abbrev S2x128 : Shape := ⟨2, ![2, 128]⟩
abbrev S60000x128 : Shape := ⟨2, ![60000, 128]⟩
abbrev S600x128 : Shape := ⟨2, ![600, 128]⟩
abbrev S600x16x128 : Shape := ⟨3, ![600, 16, 128]⟩

abbrev nBuf : Space → Nat
  | .hbm => 111
  | .vmem => 20
  | .smem => 0
  | _ => 0

abbrev bufTy : (tb : Table) → Fin (tcTables nBuf tb) → BufTy
  | .hbm, ⟨0, _⟩ => ⟨S240000x3, .f32⟩
  | .hbm, ⟨1, _⟩ => ⟨S240000x64, .f32⟩
  | .hbm, ⟨2, _⟩ => ⟨S67x128, .f32⟩
  | .hbm, ⟨3, _⟩ => ⟨S128, .f32⟩
  | .hbm, ⟨4, _⟩ => ⟨S128, .f32⟩
  | .hbm, ⟨5, _⟩ => ⟨S60000, .i32⟩
  | .hbm, ⟨6, _⟩ => ⟨S60000x16, .i32⟩
  | .hbm, ⟨7, _⟩ => ⟨S_, .i32⟩
  | .hbm, ⟨8, _⟩ => ⟨S60000, .i32⟩
  | .hbm, ⟨9, _⟩ => ⟨S60000, .i1⟩
  | .hbm, ⟨10, _⟩ => ⟨S_, .i32⟩
  | .hbm, ⟨11, _⟩ => ⟨S60000, .i32⟩
  | .hbm, ⟨12, _⟩ => ⟨S60000, .i32⟩
  | .hbm, ⟨13, _⟩ => ⟨S60000, .i32⟩
  | .hbm, ⟨14, _⟩ => ⟨S60000x1, .i32⟩
  | .hbm, ⟨15, _⟩ => ⟨S1, .i32⟩
  | .hbm, ⟨16, _⟩ => ⟨S_, .i32⟩
  | .hbm, ⟨17, _⟩ => ⟨S60000x1, .i32⟩
  | .hbm, ⟨18, _⟩ => ⟨S60000x1, .i1⟩
  | .hbm, ⟨19, _⟩ => ⟨S1x1, .i32⟩
  | .hbm, ⟨20, _⟩ => ⟨S60000x1, .i32⟩
  | .hbm, ⟨21, _⟩ => ⟨S60000x1, .i1⟩
  | .hbm, ⟨22, _⟩ => ⟨S60000x1, .i1⟩
  | .hbm, ⟨23, _⟩ => ⟨S_, .i1⟩
  | .hbm, ⟨24, _⟩ => ⟨S60000, .i1⟩
  | .hbm, ⟨25, _⟩ => ⟨S60000x3, .f32⟩
  | .hbm, ⟨26, _⟩ => ⟨S60000x3, .i1⟩
  | .hbm, ⟨27, _⟩ => ⟨S_, .f32⟩
  | .hbm, ⟨28, _⟩ => ⟨S60000x3, .f32⟩
  | .hbm, ⟨29, _⟩ => ⟨S60000x3, .f32⟩
  | .hbm, ⟨30, _⟩ => ⟨S_, .i32⟩
  | .hbm, ⟨31, _⟩ => ⟨S60000x16, .i32⟩
  | .hbm, ⟨32, _⟩ => ⟨S60000x16, .i1⟩
  | .hbm, ⟨33, _⟩ => ⟨S_, .i32⟩
  | .hbm, ⟨34, _⟩ => ⟨S60000x16, .i32⟩
  | .hbm, ⟨35, _⟩ => ⟨S60000x16, .i32⟩
  | .hbm, ⟨36, _⟩ => ⟨S60000x16, .i32⟩
  | .hbm, ⟨37, _⟩ => ⟨S60000x16x1, .i32⟩
  | .hbm, ⟨38, _⟩ => ⟨S1, .i32⟩
  | .hbm, ⟨39, _⟩ => ⟨S_, .i32⟩
  | .hbm, ⟨40, _⟩ => ⟨S60000x16x1, .i32⟩
  | .hbm, ⟨41, _⟩ => ⟨S60000x16x1, .i1⟩
  | .hbm, ⟨42, _⟩ => ⟨S1x1x1, .i32⟩
  | .hbm, ⟨43, _⟩ => ⟨S60000x16x1, .i32⟩
  | .hbm, ⟨44, _⟩ => ⟨S60000x16x1, .i1⟩
  | .hbm, ⟨45, _⟩ => ⟨S60000x16x1, .i1⟩
  | .hbm, ⟨46, _⟩ => ⟨S_, .i1⟩
  | .hbm, ⟨47, _⟩ => ⟨S60000x16, .i1⟩
  | .hbm, ⟨48, _⟩ => ⟨S60000x16x3, .f32⟩
  | .hbm, ⟨49, _⟩ => ⟨S60000x16x3, .i1⟩
  | .hbm, ⟨50, _⟩ => ⟨S_, .f32⟩
  | .hbm, ⟨51, _⟩ => ⟨S60000x16x3, .f32⟩
  | .hbm, ⟨52, _⟩ => ⟨S60000x16x3, .f32⟩
  | .hbm, ⟨53, _⟩ => ⟨S60000x1x3, .f32⟩
  | .hbm, ⟨54, _⟩ => ⟨S60000x16x3, .f32⟩
  | .hbm, ⟨55, _⟩ => ⟨S60000x16x3, .f32⟩
  | .hbm, ⟨56, _⟩ => ⟨S_, .i32⟩
  | .hbm, ⟨57, _⟩ => ⟨S60000x16, .i32⟩
  | .hbm, ⟨58, _⟩ => ⟨S60000x16, .i1⟩
  | .hbm, ⟨59, _⟩ => ⟨S_, .i32⟩
  | .hbm, ⟨60, _⟩ => ⟨S60000x16, .i32⟩
  | .hbm, ⟨61, _⟩ => ⟨S60000x16, .i32⟩
  | .hbm, ⟨62, _⟩ => ⟨S60000x16, .i32⟩
  | .hbm, ⟨63, _⟩ => ⟨S60000x16x1, .i32⟩
  | .hbm, ⟨64, _⟩ => ⟨S1, .i32⟩
  | .hbm, ⟨65, _⟩ => ⟨S_, .i32⟩
  | .hbm, ⟨66, _⟩ => ⟨S60000x16x1, .i32⟩
  | .hbm, ⟨67, _⟩ => ⟨S60000x16x1, .i1⟩
  | .hbm, ⟨68, _⟩ => ⟨S1x1x1, .i32⟩
  | .hbm, ⟨69, _⟩ => ⟨S60000x16x1, .i32⟩
  | .hbm, ⟨70, _⟩ => ⟨S60000x16x1, .i1⟩
  | .hbm, ⟨71, _⟩ => ⟨S60000x16x1, .i1⟩
  | .hbm, ⟨72, _⟩ => ⟨S_, .i1⟩
  | .hbm, ⟨73, _⟩ => ⟨S60000x16, .i1⟩
  | .hbm, ⟨74, _⟩ => ⟨S60000x16x64, .f32⟩
  | .hbm, ⟨75, _⟩ => ⟨S60000x16x64, .i1⟩
  | .hbm, ⟨76, _⟩ => ⟨S_, .f32⟩
  | .hbm, ⟨77, _⟩ => ⟨S60000x16x64, .f32⟩
  | .hbm, ⟨78, _⟩ => ⟨S60000x16x64, .f32⟩
  | .hbm, ⟨79, _⟩ => ⟨S3x128, .f32⟩
  | .hbm, ⟨80, _⟩ => ⟨S64x128, .f32⟩
  | .hbm, ⟨81, _⟩ => ⟨S2x1x128, .f32⟩
  | .hbm, ⟨82, _⟩ => ⟨S2x1x128, .f32⟩
  | .hbm, ⟨83, _⟩ => ⟨S2x128, .f32⟩
  | .hbm, ⟨84, _⟩ => ⟨S_, .f32⟩
  | .hbm, ⟨85, _⟩ => ⟨S128, .f32⟩
  | .hbm, ⟨86, _⟩ => ⟨S2x128, .f32⟩
  | .hbm, ⟨87, _⟩ => ⟨S_, .f32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S60000x128, .f32⟩
  | .local _ .vmem, ⟨0, _⟩ => ⟨S600x16x3, .f32⟩
  | .local _ .vmem, ⟨1, _⟩ => ⟨S600x16x3, .f32⟩
  | .local _ .vmem, ⟨2, _⟩ => ⟨S600x16x64, .f32⟩
  | .local _ .vmem, ⟨3, _⟩ => ⟨S600x16x64, .f32⟩
  | .local _ .vmem, ⟨4, _⟩ => ⟨S3x128, .f32⟩
  | .local _ .vmem, ⟨5, _⟩ => ⟨S64x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S600x16x3, .f32⟩
  | .local _ .vmem, ⟨11, _⟩ => ⟨S600x16x3, .f32⟩
  | .local _ .vmem, ⟨12, _⟩ => ⟨S600x16x64, .f32⟩
  | .local _ .vmem, ⟨13, _⟩ => ⟨S600x16x64, .f32⟩
  | .local _ .vmem, ⟨14, _⟩ => ⟨S3x128, .f32⟩
  | .local _ .vmem, ⟨15, _⟩ => ⟨S64x128, .f32⟩
  | .local _ .vmem, ⟨16, _⟩ => ⟨S1x128, .f32⟩
  | .local _ .vmem, ⟨17, _⟩ => ⟨S1x128, .f32⟩
  | .local _ .vmem, ⟨18, _⟩ => ⟨S600x128, .f32⟩
  | .local _ .vmem, ⟨19, _⟩ => ⟨S600x128, .f32⟩
  | _, _ => ⟨S240000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_v8_0 : Ref sig .tc := ⟨.hbm, 81, rfl⟩
abbrev main_v8_1 : Ref sig .tc := ⟨.hbm, 82, rfl⟩
abbrev main_v9 : Ref sig .tc := ⟨.hbm, 83, rfl⟩
abbrev main_cst : Ref sig .tc := ⟨.hbm, 84, rfl⟩
abbrev main_v10 : Ref sig .tc := ⟨.hbm, 85, rfl⟩
abbrev main_v11 : Ref sig .tc := ⟨.hbm, 86, rfl⟩
abbrev main_cst_0 : Ref sig .tc := ⟨.hbm, 87, rfl⟩
abbrev main_v12 : Ref sig .tc := ⟨.hbm, 88, rfl⟩
abbrev main_cst_1 : Ref sig .tc := ⟨.hbm, 89, rfl⟩
abbrev main_v13 : Ref sig .tc := ⟨.hbm, 90, rfl⟩
abbrev main_v14 : Ref sig .tc := ⟨.hbm, 91, rfl⟩
abbrev main_cst_2 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_cst_3 : Ref sig .tc := ⟨.hbm, 97, rfl⟩
abbrev main_v19 : Ref sig .tc := ⟨.hbm, 98, rfl⟩
abbrev main_v20 : Ref sig .tc := ⟨.hbm, 99, rfl⟩
abbrev main_cst_4 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 50], ![false, false]⟩

def cc0_transform_0 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S600x16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S600x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![100], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S600x16x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S600x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S600x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S60000 : S_.BroadcastsInDim S60000 (![] : Fin 0 → Fin S60000.rank)
  bcast_S60000_S60000x1_0 : S60000.BroadcastsInDim S60000x1 (![0] : Fin 1 → Fin S60000x1.rank)
  bcast_S_S60000x1 : S_.BroadcastsInDim S60000x1 (![] : Fin 0 → Fin S60000x1.rank)
  bcast_S1_S1x1_1 : S1.BroadcastsInDim S1x1 (![1] : Fin 1 → Fin S1x1.rank)
  bcast_S1x1_S60000x1_0_1 : S1x1.BroadcastsInDim S60000x1 (![0, 1] : Fin 2 → Fin S60000x1.rank)
  reducesTo_S60000x1_S60000_d1 : S60000x1.ReducesTo [1] S60000
  h_S_ : 0 < S_.numel
  bcast_S60000_S60000x3_0 : S60000.BroadcastsInDim S60000x3 (![0] : Fin 1 → Fin S60000x3.rank)
  bcast_S_S60000x3 : S_.BroadcastsInDim S60000x3 (![] : Fin 0 → Fin S60000x3.rank)
  bcast_S_S60000x16 : S_.BroadcastsInDim S60000x16 (![] : Fin 0 → Fin S60000x16.rank)
  bcast_S60000x16_S60000x16x1_0_1 : S60000x16.BroadcastsInDim S60000x16x1 (![0, 1] : Fin 2 → Fin S60000x16x1.rank)
  bcast_S_S60000x16x1 : S_.BroadcastsInDim S60000x16x1 (![] : Fin 0 → Fin S60000x16x1.rank)
  bcast_S1_S1x1x1_2 : S1.BroadcastsInDim S1x1x1 (![2] : Fin 1 → Fin S1x1x1.rank)
  bcast_S1x1x1_S60000x16x1_0_1_2 : S1x1x1.BroadcastsInDim S60000x16x1 (![0, 1, 2] : Fin 3 → Fin S60000x16x1.rank)
  reducesTo_S60000x16x1_S60000x16_d2 : S60000x16x1.ReducesTo [2] S60000x16
  bcast_S60000x16_S60000x16x3_0_1 : S60000x16.BroadcastsInDim S60000x16x3 (![0, 1] : Fin 2 → Fin S60000x16x3.rank)
  bcast_S_S60000x16x3 : S_.BroadcastsInDim S60000x16x3 (![] : Fin 0 → Fin S60000x16x3.rank)
  bcast_S60000x3_S60000x1x3_0_2 : S60000x3.BroadcastsInDim S60000x1x3 (![0, 2] : Fin 2 → Fin S60000x1x3.rank)
  bcast_S60000x1x3_S60000x16x3_0_1_2 : S60000x1x3.BroadcastsInDim S60000x16x3 (![0, 1, 2] : Fin 3 → Fin S60000x16x3.rank)
  bcast_S60000x16_S60000x16x64_0_1 : S60000x16.BroadcastsInDim S60000x16x64 (![0, 1] : Fin 2 → Fin S60000x16x64.rank)
  bcast_S_S60000x16x64 : S_.BroadcastsInDim S60000x16x64 (![] : Fin 0 → Fin S60000x16x64.rank)
  slices_S67x128_S3x128_0_0 : S67x128.Slices ![0, 0] S3x128
  slices_S67x128_S64x128_3_0 : S67x128.Slices ![3, 0] S64x128
  inb_S1x1x128_S1x1x128_0_0_0 : ∀ a, (![0, 0, 0] : Fin 3 → Nat) a + S1x1x128.size a ≤ S1x1x128.size a
  h_S1x1x128 : 0 < S1x1x128.numel
  inb_S600x16x3_S600x16x3_0_0_0 : ∀ a, (![0, 0, 0] : Fin 3 → Nat) a + S600x16x3.size a ≤ S600x16x3.size a
  h_S600x16x3 : 0 < S600x16x3.numel
  shapeCasts_S600x16x3_S600x16x3 : S600x16x3.ShapeCasts S600x16x3
  inb_S600x16x64_S600x16x64_0_0_0 : ∀ a, (![0, 0, 0] : Fin 3 → Nat) a + S600x16x64.size a ≤ S600x16x64.size a
  h_S600x16x64 : 0 < S600x16x64.numel
  shapeCasts_S600x16x64_S600x16x64 : S600x16x64.ShapeCasts S600x16x64
  shapeCasts_S600x16x3_S9600x3 : S600x16x3.ShapeCasts S9600x3
  bitsLt_bf16_f32 : FTy.bits .bf16 < FTy.bits .f32
  shapeCasts_S600x16x64_S9600x64 : S600x16x64.ShapeCasts S9600x64
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S1x1x128_S1x1x128 : S1x1x128.ShapeCasts S1x1x128
  reduces_S9600x128_S128 : S9600x128.Reduces [0] S128
  shapeCasts_S128_S1x128 : S128.ShapeCasts S1x128
  shapeCasts_S1x128_S1x1x128 : S1x128.ShapeCasts S1x1x128
  shapeCasts_S2x1x128_S2x128 : S2x1x128.ShapeCasts S2x128
  reducesTo_S2x128_S128_d0 : S2x128.ReducesTo [0] S128
  bcast_S_S128 : S_.BroadcastsInDim S128 (![] : Fin 0 → Fin S128.rank)
  shapeCasts_S9600x128_S600x16x128 : S9600x128.ShapeCasts S600x16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x1x128_S600x16x128 : S1x1x128.Broadcasts S600x16x128
  reduces_S600x16x128_S600x128 : S600x16x128.Reduces [1] S600x128
  inb_S600x128_S600x128_0_0 : ∀ a, (![0, 0] : Fin 2 → Nat) a + S600x128.size a ≤ S600x128.size a
  h_S600x128 : 0 < S600x128.numel
  gather_S240000x3_S60000x1_S60000x3_1_0_n_n_0_1_13_wf : GatherDims.WF S240000x3 S60000x1 S60000x3 [1] [0] [] [0] [] 1 ![1, 3]
  gather_S240000x3_S60000x16x1_S60000x16x3_2_0_n_n_0_2_13_wf : GatherDims.WF S240000x3 S60000x16x1 S60000x16x3 [2] [0] [] [0] [] 2 ![1, 3]
  gather_S240000x64_S60000x16x1_S60000x16x64_2_0_n_n_0_2_164_wf : GatherDims.WF S240000x64 S60000x16x1 S60000x16x64 [2] [0] [] [0] [] 2 ![1, 64]
  dot_S9600x3_S3x128_S9600x128_1_0_0_1_n_n_wf : DotDims.WF S9600x3 S3x128 S9600x128 [1] [0] [0] [1] [] []
  dot_S9600x64_S64x128_S9600x128_1_0_0_1_n_n_wf : DotDims.WF S9600x64 S64x128 S9600x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S600x16x3.size a ≤ S60000x16x3.size a
  hwx0_0 : ∀ i : grid0.Coords, EltTy.bits .f32 = 32 ∨ (Rect.block (s := S60000x16x3) S600x16x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S600x16x64.size a ≤ S60000x16x64.size a
  hwx0_1 : ∀ i : grid0.Coords, EltTy.bits .f32 = 32 ∨ (Rect.block (s := S60000x16x64) S600x16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S600x16x3.size a ≤ S60000x16x3.size a
  hwx1_0 : ∀ i : grid1.Coords, EltTy.bits .f32 = 32 ∨ (Rect.block (s := S60000x16x3) S600x16x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S600x16x64.size a ≤ S60000x16x64.size a
  hwx1_1 : ∀ i : grid1.Coords, EltTy.bits .f32 = 32 ∨ (Rect.block (s := S60000x16x64) S600x16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x128.size a ≤ S3x128.size a
  hwx1_2 : ∀ i : grid1.Coords, EltTy.bits .f32 = 32 ∨ (Rect.block (s := S3x128) S3x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S600x128.size a ≤ S60000x128.size a
  hwx1_6 : ∀ i : grid1.Coords, EltTy.bits .f32 = 32 ∨ (Rect.block (s := S60000x128) S600x128.size (cc1_transform_6 i) (hinb1_6 i)).WholeWords (EltTy.packing .f32)

variable [Facts₀]

def gather_S240000x3_S60000x1_S60000x3_1_0_n_n_0_1_13 : GatherDims S240000x3 S60000x1 S60000x3 where
  offsetDims := [1]
  collapsedSliceDims := [0]
  operandBatchingDims := []
  startIndicesBatchingDims := []
  startIndexMap := [0]
  indexVectorDim := 1
  sliceSizes := ![1, 3]
  wf := gather_S240000x3_S60000x1_S60000x3_1_0_n_n_0_1_13_wf
def gather_S240000x3_S60000x16x1_S60000x16x3_2_0_n_n_0_2_13 : GatherDims S240000x3 S60000x16x1 S60000x16x3 where
  offsetDims := [2]
  collapsedSliceDims := [0]
  operandBatchingDims := []
  startIndicesBatchingDims := []
  startIndexMap := [0]
  indexVectorDim := 2
  sliceSizes := ![1, 3]
  wf := gather_S240000x3_S60000x16x1_S60000x16x3_2_0_n_n_0_2_13_wf
def gather_S240000x64_S60000x16x1_S60000x16x64_2_0_n_n_0_2_164 : GatherDims S240000x64 S60000x16x1 S60000x16x64 where
  offsetDims := [2]
  collapsedSliceDims := [0]
  operandBatchingDims := []
  startIndicesBatchingDims := []
  startIndexMap := [0]
  indexVectorDim := 2
  sliceSizes := ![1, 64]
  wf := gather_S240000x64_S60000x16x1_S60000x16x64_2_0_n_n_0_2_164_wf
def dot_S9600x3_S3x128_S9600x128_1_0_0_1_n_n : DotDims S9600x3 S3x128 S9600x128 where
  lhsContracting := [1]
  rhsContracting := [0]
  lhsNonContracting := [0]
  rhsNonContracting := [1]
  lhsBatch := []
  rhsBatch := []
  wf := dot_S9600x3_S3x128_S9600x128_1_0_0_1_n_n_wf
def dot_S9600x64_S64x128_S9600x128_1_0_0_1_n_n : DotDims S9600x64 S64x128 S9600x128 where
  lhsContracting := [1]
  rhsContracting := [0]
  lhsNonContracting := [0]
  rhsNonContracting := [1]
  lhsBatch := []
  rhsBatch := []
  wf := dot_S9600x64_S64x128_S9600x128_1_0_0_1_n_n_wf

abbrev win0_0 : Pipeline.Window sig grid0 :=
  Pipeline.Window.ofSpec (Memref.whole main_v4) S600x16x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S600x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S600x16x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S600x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S3x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S600x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S240000x3 : Shape := ⟨2, ![240000, 3]⟩
abbrev S240000x64 : Shape := ⟨2, ![240000, 64]⟩
abbrev S67x128 : Shape := ⟨2, ![67, 128]⟩
abbrev S128 : Shape := ⟨1, ![128]⟩
abbrev S60000 : Shape := ⟨1, ![60000]⟩
abbrev S60000x16 : Shape := ⟨2, ![60000, 16]⟩
abbrev S_ : Shape := ⟨0, ![]⟩
abbrev S60000x1 : Shape := ⟨2, ![60000, 1]⟩
abbrev S1 : Shape := ⟨1, ![1]⟩
abbrev S1x1 : Shape := ⟨2, ![1, 1]⟩
abbrev S60000x3 : Shape := ⟨2, ![60000, 3]⟩
abbrev S60000x16x1 : Shape := ⟨3, ![60000, 16, 1]⟩
abbrev S1x1x1 : Shape := ⟨3, ![1, 1, 1]⟩
abbrev S60000x16x3 : Shape := ⟨3, ![60000, 16, 3]⟩
abbrev S60000x1x3 : Shape := ⟨3, ![60000, 1, 3]⟩
abbrev S60000x16x64 : Shape := ⟨3, ![60000, 16, 64]⟩
abbrev S60000x16x67 : Shape := ⟨3, ![60000, 16, 67]⟩
abbrev S60000x16x128 : Shape := ⟨3, ![60000, 16, 128]⟩
abbrev S1x1x128 : Shape := ⟨3, ![1, 1, 128]⟩
abbrev S60000x128 : Shape := ⟨2, ![60000, 128]⟩

abbrev nBuf : Space → Nat
  | .hbm => 130
  | .vmem => 0
  | .smem => 0
  | _ => 0

abbrev hbmTy0_0 (i : Nat) : BufTy := match i % 128 with
  | 0 => ⟨S240000x3, .f32⟩
  | 1 => ⟨S240000x64, .f32⟩
  | 2 => ⟨S67x128, .f32⟩
  | 3 => ⟨S128, .f32⟩
  | 4 => ⟨S128, .f32⟩
  | 5 => ⟨S60000, .i32⟩
  | 6 => ⟨S60000x16, .i32⟩
  | 7 => ⟨S_, .i32⟩
  | 8 => ⟨S60000, .i32⟩
  | 9 => ⟨S60000, .i1⟩
  | 10 => ⟨S_, .i32⟩
  | 11 => ⟨S60000, .i32⟩
  | 12 => ⟨S60000, .i32⟩
  | 13 => ⟨S60000, .i32⟩
  | 14 => ⟨S60000x1, .i32⟩
  | 15 => ⟨S1, .i32⟩
  | 16 => ⟨S_, .i32⟩
  | 17 => ⟨S60000x1, .i32⟩
  | 18 => ⟨S60000x1, .i1⟩
  | 19 => ⟨S1x1, .i32⟩
  | 20 => ⟨S60000x1, .i32⟩
  | 21 => ⟨S60000x1, .i1⟩
  | 22 => ⟨S60000x1, .i1⟩
  | 23 => ⟨S_, .i1⟩
  | 24 => ⟨S60000, .i1⟩
  | 25 => ⟨S60000x3, .f32⟩
  | 26 => ⟨S60000x3, .i1⟩
  | 27 => ⟨S_, .f32⟩
  | 28 => ⟨S60000x3, .f32⟩
  | 29 => ⟨S60000x3, .f32⟩
  | 30 => ⟨S_, .i32⟩
  | 31 => ⟨S60000x16, .i32⟩
  | 32 => ⟨S60000x16, .i1⟩
  | 33 => ⟨S_, .i32⟩
  | 34 => ⟨S60000x16, .i32⟩
  | 35 => ⟨S60000x16, .i32⟩
  | 36 => ⟨S60000x16, .i32⟩
  | 37 => ⟨S60000x16x1, .i32⟩
  | 38 => ⟨S1, .i32⟩
  | 39 => ⟨S_, .i32⟩
  | 40 => ⟨S60000x16x1, .i32⟩
  | 41 => ⟨S60000x16x1, .i1⟩
  | 42 => ⟨S1x1x1, .i32⟩
  | 43 => ⟨S60000x16x1, .i32⟩
  | 44 => ⟨S60000x16x1, .i1⟩
  | 45 => ⟨S60000x16x1, .i1⟩
  | 46 => ⟨S_, .i1⟩
  | 47 => ⟨S60000x16, .i1⟩
  | 48 => ⟨S60000x16x3, .f32⟩
  | 49 => ⟨S60000x16x3, .i1⟩
  | 50 => ⟨S_, .f32⟩
  | 51 => ⟨S60000x16x3, .f32⟩
  | 52 => ⟨S60000x16x3, .f32⟩
  | 53 => ⟨S60000x1x3, .f32⟩
  | 54 => ⟨S60000x16x3, .f32⟩
  | 55 => ⟨S60000x16x3, .f32⟩
  | 56 => ⟨S_, .i32⟩
  | 57 => ⟨S60000x16, .i32⟩
  | 58 => ⟨S60000x16, .i1⟩
  | 59 => ⟨S_, .i32⟩
  | 60 => ⟨S60000x16, .i32⟩
  | 61 => ⟨S60000x16, .i32⟩
  | 62 => ⟨S60000x16, .i32⟩
  | 63 => ⟨S60000x16x1, .i32⟩
  | 64 => ⟨S1, .i32⟩
  | 65 => ⟨S_, .i32⟩
  | 66 => ⟨S60000x16x1, .i32⟩
  | 67 => ⟨S60000x16x1, .i1⟩
  | 68 => ⟨S1x1x1, .i32⟩
  | 69 => ⟨S60000x16x1, .i32⟩
  | 70 => ⟨S60000x16x1, .i1⟩
  | 71 => ⟨S60000x16x1, .i1⟩
  | 72 => ⟨S_, .i1⟩
  | 73 => ⟨S60000x16, .i1⟩
  | 74 => ⟨S60000x16x64, .f32⟩
  | 75 => ⟨S60000x16x64, .i1⟩
  | 76 => ⟨S_, .f32⟩
  | 77 => ⟨S60000x16x64, .f32⟩
  | 78 => ⟨S60000x16x64, .f32⟩
  | 79 => ⟨S60000x16x67, .f32⟩
  | 80 => ⟨S60000x16x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x1x128, .f32⟩
  | 90 => ⟨S_, .f32⟩
  | 91 => ⟨S1x1x128, .f32⟩
  | 92 => ⟨S1x1x128, .f32⟩
  | 93 => ⟨S60000x16x128, .f32⟩
  | 94 => ⟨S60000x16x128, .f32⟩
  | 95 => ⟨S60000x16x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x1x128, .f32⟩
  | 110 => ⟨S60000x16x128, .f32⟩
  | 111 => ⟨S60000x16x128, .f32⟩
  | 112 => ⟨S_, .f32⟩
  | 113 => ⟨S128, .f32⟩
  | 114 => ⟨S128, .f32⟩
  | 115 => ⟨S128, .f32⟩
  | 116 => ⟨S1x1x128, .f32⟩
  | 117 => ⟨S60000x16x128, .f32⟩
  | 118 => ⟨S60000x16x128, .f32⟩
  | 119 => ⟨S1x1x128, .f32⟩
  | 120 => ⟨S60000x16x128, .f32⟩
  | 121 => ⟨S60000x16x128, .f32⟩
  | 122 => ⟨S1x1x128, .f32⟩
  | 123 => ⟨S60000x16x128, .f32⟩
  | 124 => ⟨S60000x16x128, .f32⟩
  | 125 => ⟨S_, .f32⟩
  | 126 => ⟨S60000x16x128, .f32⟩
  | 127 => ⟨S60000x16x128, .f32⟩
  | _ => ⟨S240000x3, .f32⟩

abbrev hbmTy0_1 (i : Nat) : BufTy := match i % 128 with
  | 0 => ⟨S_, .f32⟩
  | 1 => ⟨S60000x128, .f32⟩
  | _ => ⟨S240000x3, .f32⟩

abbrev hbmTy (i : Nat) : BufTy := match i / 128 with
  | 0 => hbmTy0_0 i
  | 1 => hbmTy0_1 i
  | _ => ⟨S240000x3, .f32⟩

abbrev bufTy : (tb : Table) → Fin (tcTables nBuf tb) → BufTy
  | .hbm, ⟨i, _⟩ => hbmTy i
  | _, _ => ⟨S240000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_cst_0 : Ref sig .tc := ⟨.hbm, 83, rfl⟩
abbrev main_v9 : Ref sig .tc := ⟨.hbm, 84, rfl⟩
abbrev main_v10 : Ref sig .tc := ⟨.hbm, 85, rfl⟩
abbrev main_c : Ref sig .tc := ⟨.hbm, 86, rfl⟩
abbrev main_call3_cst : Ref sig .tc := ⟨.hbm, 87, rfl⟩
abbrev main_call3_v0 : Ref sig .tc := ⟨.hbm, 88, rfl⟩
abbrev main_call3_v1 : Ref sig .tc := ⟨.hbm, 89, rfl⟩
abbrev main_call3_cst_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_v6 : Ref sig .tc := ⟨.hbm, 95, rfl⟩
abbrev main_call3_v7 : Ref sig .tc := ⟨.hbm, 96, rfl⟩
abbrev main_call3_cst_1 : Ref sig .tc := ⟨.hbm, 97, rfl⟩
abbrev main_call3_v8 : Ref sig .tc := ⟨.hbm, 98, rfl⟩
abbrev main_call3_cst_2 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_cst_3 : Ref sig .tc := ⟨.hbm, 103, rfl⟩
abbrev main_call3_v12 : Ref sig .tc := ⟨.hbm, 104, rfl⟩
abbrev main_call3_cst_4 : Ref sig .tc := ⟨.hbm, 105, rfl⟩
abbrev main_call3_call0_v0 : Ref sig .tc := ⟨.hbm, 106, rfl⟩
abbrev main_call3_call0_v1 : Ref sig .tc := ⟨.hbm, 107, rfl⟩
abbrev main_v11 : Ref sig .tc := ⟨.hbm, 108, rfl⟩
abbrev main_v12 : Ref sig .tc := ⟨.hbm, 109, rfl⟩
abbrev main_v13 : Ref sig .tc := ⟨.hbm, 110, rfl⟩
abbrev main_v14 : Ref sig .tc := ⟨.hbm, 111, rfl⟩
abbrev main_cst_1 : Ref sig .tc := ⟨.hbm, 112, rfl⟩
abbrev main_v15 : Ref sig .tc := ⟨.hbm, 113, rfl⟩
abbrev main_v16 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_call4_cst : Ref sig .tc := ⟨.hbm, 125, rfl⟩
abbrev main_call4_v0 : Ref sig .tc := ⟨.hbm, 126, rfl⟩
abbrev main_v27 : Ref sig .tc := ⟨.hbm, 127, rfl⟩
abbrev main_cst_2 : Ref sig .tc := ⟨.hbm, 128, rfl⟩
abbrev main_v28 : Ref sig .tc := ⟨.hbm, 129, rfl⟩

abbrev nD : Nat := 1
abbrev τ : Topo := Topo.v7x

variable {F : FTy → Type} [FloatOps F]

class Facts₀ : Prop where
  bcast_S_S60000 : S_.BroadcastsInDim S60000 (![] : Fin 0 → Fin S60000.rank)
  bcast_S60000_S60000x1_0 : S60000.BroadcastsInDim S60000x1 (![0] : Fin 1 → Fin S60000x1.rank)
  bcast_S_S60000x1 : S_.BroadcastsInDim S60000x1 (![] : Fin 0 → Fin S60000x1.rank)
  bcast_S1_S1x1_1 : S1.BroadcastsInDim S1x1 (![1] : Fin 1 → Fin S1x1.rank)
  bcast_S1x1_S60000x1_0_1 : S1x1.BroadcastsInDim S60000x1 (![0, 1] : Fin 2 → Fin S60000x1.rank)
  reducesTo_S60000x1_S60000_d1 : S60000x1.ReducesTo [1] S60000
  h_S_ : 0 < S_.numel
  bcast_S60000_S60000x3_0 : S60000.BroadcastsInDim S60000x3 (![0] : Fin 1 → Fin S60000x3.rank)
  bcast_S_S60000x3 : S_.BroadcastsInDim S60000x3 (![] : Fin 0 → Fin S60000x3.rank)
  bcast_S_S60000x16 : S_.BroadcastsInDim S60000x16 (![] : Fin 0 → Fin S60000x16.rank)
  bcast_S60000x16_S60000x16x1_0_1 : S60000x16.BroadcastsInDim S60000x16x1 (![0, 1] : Fin 2 → Fin S60000x16x1.rank)
  bcast_S_S60000x16x1 : S_.BroadcastsInDim S60000x16x1 (![] : Fin 0 → Fin S60000x16x1.rank)
  bcast_S1_S1x1x1_2 : S1.BroadcastsInDim S1x1x1 (![2] : Fin 1 → Fin S1x1x1.rank)
  bcast_S1x1x1_S60000x16x1_0_1_2 : S1x1x1.BroadcastsInDim S60000x16x1 (![0, 1, 2] : Fin 3 → Fin S60000x16x1.rank)
  reducesTo_S60000x16x1_S60000x16_d2 : S60000x16x1.ReducesTo [2] S60000x16
  bcast_S60000x16_S60000x16x3_0_1 : S60000x16.BroadcastsInDim S60000x16x3 (![0, 1] : Fin 2 → Fin S60000x16x3.rank)
  bcast_S_S60000x16x3 : S_.BroadcastsInDim S60000x16x3 (![] : Fin 0 → Fin S60000x16x3.rank)
  bcast_S60000x3_S60000x1x3_0_2 : S60000x3.BroadcastsInDim S60000x1x3 (![0, 2] : Fin 2 → Fin S60000x1x3.rank)
  bcast_S60000x1x3_S60000x16x3_0_1_2 : S60000x1x3.BroadcastsInDim S60000x16x3 (![0, 1, 2] : Fin 3 → Fin S60000x16x3.rank)
  bcast_S60000x16_S60000x16x64_0_1 : S60000x16.BroadcastsInDim S60000x16x64 (![0, 1] : Fin 2 → Fin S60000x16x64.rank)
  bcast_S_S60000x16x64 : S_.BroadcastsInDim S60000x16x64 (![] : Fin 0 → Fin S60000x16x64.rank)
  concatenates_S60000x16x3_S60000x16x64_S60000x16x67_d2 : Shape.Concatenates [S60000x16x3, S60000x16x64] S60000x16x67 2
  reducesTo_S60000x16x128_S128_d0_1 : S60000x16x128.ReducesTo [0, 1] S128
  bcast_S_S128 : S_.BroadcastsInDim S128 (![] : Fin 0 → Fin S128.rank)
  bcast_S128_S1x1x128_2 : S128.BroadcastsInDim S1x1x128 (![2] : Fin 1 → Fin S1x1x128.rank)
  bcast_S_S1x1x128 : S_.BroadcastsInDim S1x1x128 (![] : Fin 0 → Fin S1x1x128.rank)
  bcast_S1x1x128_S60000x16x128_0_1_2 : S1x1x128.BroadcastsInDim S60000x16x128 (![0, 1, 2] : Fin 3 → Fin S60000x16x128.rank)
  bcast_S_S60000x16x128 : S_.BroadcastsInDim S60000x16x128 (![] : Fin 0 → Fin S60000x16x128.rank)
  reducesTo_S60000x16x128_S60000x128_d1 : S60000x16x128.ReducesTo [1] S60000x128
  gather_S240000x3_S60000x1_S60000x3_1_0_n_n_0_1_13_wf : GatherDims.WF S240000x3 S60000x1 S60000x3 [1] [0] [] [0] [] 1 ![1, 3]
  gather_S240000x3_S60000x16x1_S60000x16x3_2_0_n_n_0_2_13_wf : GatherDims.WF S240000x3 S60000x16x1 S60000x16x3 [2] [0] [] [0] [] 2 ![1, 3]
  gather_S240000x64_S60000x16x1_S60000x16x64_2_0_n_n_0_2_164_wf : GatherDims.WF S240000x64 S60000x16x1 S60000x16x64 [2] [0] [] [0] [] 2 ![1, 64]
  dot_S60000x16x67_S67x128_S60000x16x128_2_0_01_1_n_n_wf : DotDims.WF S60000x16x67 S67x128 S60000x16x128 [2] [0] [0, 1] [1] [] []

variable [Facts₀]

def gather_S240000x3_S60000x1_S60000x3_1_0_n_n_0_1_13 : GatherDims S240000x3 S60000x1 S60000x3 where
  offsetDims := [1]
  collapsedSliceDims := [0]
  operandBatchingDims := []
  startIndicesBatchingDims := []
  startIndexMap := [0]
  indexVectorDim := 1
  sliceSizes := ![1, 3]
  wf := gather_S240000x3_S60000x1_S60000x3_1_0_n_n_0_1_13_wf
def gather_S240000x3_S60000x16x1_S60000x16x3_2_0_n_n_0_2_13 : GatherDims S240000x3 S60000x16x1 S60000x16x3 where
  offsetDims := [2]
  collapsedSliceDims := [0]
  operandBatchingDims := []
  startIndicesBatchingDims := []
  startIndexMap := [0]
  indexVectorDim := 2
  sliceSizes := ![1, 3]
  wf := gather_S240000x3_S60000x16x1_S60000x16x3_2_0_n_n_0_2_13_wf
def gather_S240000x64_S60000x16x1_S60000x16x64_2_0_n_n_0_2_164 : GatherDims S240000x64 S60000x16x1 S60000x16x64 where
  offsetDims := [2]
  collapsedSliceDims := [0]
  operandBatchingDims := []
  startIndicesBatchingDims := []
  startIndexMap := [0]
  indexVectorDim := 2
  sliceSizes := ![1, 64]
  wf := gather_S240000x64_S60000x16x1_S60000x16x64_2_0_n_n_0_2_164_wf
def dot_S60000x16x67_S67x128_S60000x16x128_2_0_01_1_n_n : DotDims S60000x16x67 S67x128 S60000x16x128 where
  lhsContracting := [2]
  rhsContracting := [0]
  lhsNonContracting := [0, 1]
  rhsNonContracting := [1]
  lhsBatch := []
  rhsBatch := []
  wf := dot_S60000x16x67_S67x128_S60000x16x128_2_0_01_1_n_n_wf

class Facts : Prop extends Facts₀ where

variable [Facts]
-- ==== Proof.KernelRun.lean ====
/-
  The idealized kernel's run with its two results named. Every weakly fair execution of @main terminates without a fault,
  the argument arrays end as launched, and each result buffer ends at the contents the chain of segments leaves there:
  the fold of the host stretches and the two regions' write-backs from the launch memory (`Gen.W8`). The argument is the
  frame's own, with the final thread state read at two more buffers.
-/
import proofs.«107821_j74440373174612_2_alg».proof.Proof.Gen.KernelIdeal.Frame

set_option maxRecDepth 16384

noncomputable section

namespace Cert.KernelIdeal.RunValues

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments as launched. -/
theorem run : θ_run defs (onTc (τ := τ) (main (F := F))) ⟨m, fun _ => 0, ρ⟩ (fun r => ∀ c : Dev nD,
      r.2.mem ((c.tc : Thread nD τ).loc main_v0) = W8 m ρ c (Proc.devRef .tc main_v0)
      ∧ r.2.mem ((c.tc : Thread nD τ).loc main_v30) = W8 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0 (by decide)),
       h c _ (mem_uc main_v30 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValues

end
-- ==== Proof.KernelTerm.lean ====
/-
  The host operations of the two-pass program as pure functions of the argument arrays.

  Gathering rows: a start index `i` is first normalised (`i + 240000` when negative), a row is "in range" when the
  normalised index lies in `[0, 239999]`, the gather reads the row at the normalised index and a row out of range is
  replaced by the NaN word. The relative positions are the neighbours' positions minus the sample's own, the sample's
  row spread over its 16 neighbours. The weight matrix is cut into its first 3 and last 64 rows.
  After the first pass: the two halves' sums are added, divided by the row count 960000 (mean, mean of squares), the
  variance is the mean of squares minus the squared mean clamped at zero, and scale and shift are
  `γ · rsqrt(var + ε)` and `β − mean · γ · rsqrt(var + ε)`, each stood up as a row.
-/
import proofs.«107821_j74440373174612_2_alg».proof.Proof.Gen.KernelIdeal

noncomputable section

namespace Cert.KernelIdeal.HostTerm

open Idealize.ShloMosaic Cert.KernelIdeal Cert.KernelIdeal.Facts₀ Cert.KernelIdeal.Facts

variable {F : FTy → Type} [FloatOps F]

/-- The sample indices normalised and stood up as a column. -/
def sampleIdx (sidx : IVec S60000 32) : IVec S60000x1 32 :=
  broadcastInDim S60000x1 ![0] bcast_S60000_S60000x1_0
    (select (cmpi .slt sidx (broadcastInDim S60000 ![] bcast_S_S60000 (constantI S_ 32 0#32)))
      (addi sidx (broadcastInDim S60000 ![] bcast_S_S60000 (constantI S_ 32 240000#32))) sidx)

/-- Which samples' normalised index lies in `[0, 239999]`. -/
def sampleOk (i5 : IVec S60000x1 32) : IVec S60000 1 :=
  (fun x v => Host.reduce IntOp.andi x v reducesTo_S60000x1_S60000_d1 h_S_)
    (andi (cmpi .sge i5 (broadcastInDim S60000x1 ![] bcast_S_S60000x1 (constantI S_ 32 0#32)))
      (cmpi .sle i5 (broadcastInDim S60000x1 ![0, 1] bcast_S1x1_S60000x1_0_1
        (broadcastInDim S1x1 ![1] bcast_S1_S1x1_1 (constantI S1 32 239999#32)))))
    (constantI S_ 1 1#1)

/-- The samples' own positions: rows of `point` at the sample indices. -/
def takeRows (point : FVec F S240000x3 .f32) (sidx : IVec S60000 32) : FVec F S60000x3 .f32 :=
  select (broadcastInDim S60000x3 ![0] bcast_S60000_S60000x3_0 (sampleOk (sampleIdx sidx)))
    ((fun x i => Host.gather gather_S240000x3_S60000x1_S60000x3_1_0_n_n_0_1_13 x i) point (sampleIdx sidx))
    (broadcastInDim S60000x3 ![] bcast_S_S60000x3 (constant S_ .f32 0x7FC00000#32))

/-- The neighbour indices normalised, with a unit last axis. -/
def nbrIdx (kidx : IVec S60000x16 32) : IVec S60000x16x1 32 :=
  broadcastInDim S60000x16x1 ![0, 1] bcast_S60000x16_S60000x16x1_0_1
    (select (cmpi .slt kidx (broadcastInDim S60000x16 ![] bcast_S_S60000x16 (constantI S_ 32 0#32)))
      (addi kidx (broadcastInDim S60000x16 ![] bcast_S_S60000x16 (constantI S_ 32 240000#32))) kidx)

/-- Which neighbours' normalised index lies in `[0, 239999]`. -/
def nbrOk (i5 : IVec S60000x16x1 32) : IVec S60000x16 1 :=
  (fun x v => Host.reduce IntOp.andi x v reducesTo_S60000x16x1_S60000x16_d2 h_S_)
    (andi (cmpi .sge i5 (broadcastInDim S60000x16x1 ![] bcast_S_S60000x16x1 (constantI S_ 32 0#32)))
      (cmpi .sle i5 (broadcastInDim S60000x16x1 ![0, 1, 2] bcast_S1x1x1_S60000x16x1_0_1_2
        (broadcastInDim S1x1x1 ![2] bcast_S1_S1x1x1_2 (constantI S1 32 239999#32)))))
    (constantI S_ 1 1#1)

/-- The neighbours' positions: rows of `point` at the neighbour indices. -/
def takeNbrPos (point : FVec F S240000x3 .f32) (kidx : IVec S60000x16 32) : FVec F S60000x16x3 .f32 :=
  select (broadcastInDim S60000x16x3 ![0, 1] bcast_S60000x16_S60000x16x3_0_1 (nbrOk (nbrIdx kidx)))
    ((fun x i => Host.gather gather_S240000x3_S60000x16x1_S60000x16x3_2_0_n_n_0_2_13 x i) point (nbrIdx kidx))
    (broadcastInDim S60000x16x3 ![] bcast_S_S60000x16x3 (constant S_ .f32 0x7FC00000#32))

/-- The neighbours' positions relative to their sample. -/
def relPos (point : FVec F S240000x3 .f32) (sidx : IVec S60000 32) (kidx : IVec S60000x16 32) : FVec F S60000x16x3 .f32 :=
  subf (takeNbrPos point kidx)
    (broadcastInDim S60000x16x3 ![0, 1, 2] bcast_S60000x1x3_S60000x16x3_0_1_2
      (broadcastInDim S60000x1x3 ![0, 2] bcast_S60000x3_S60000x1x3_0_2 (takeRows point sidx)))

/-- The neighbours' features: rows of `feat` at the neighbour indices. -/
def nbrFeat (feat : FVec F S240000x64 .f32) (kidx : IVec S60000x16 32) : FVec F S60000x16x64 .f32 :=
  select (broadcastInDim S60000x16x64 ![0, 1] bcast_S60000x16_S60000x16x64_0_1 (nbrOk (nbrIdx kidx)))
    ((fun x i => Host.gather gather_S240000x64_S60000x16x1_S60000x16x64_2_0_n_n_0_2_164 x i) feat (nbrIdx kidx))
    (broadcastInDim S60000x16x64 ![] bcast_S_S60000x16x64 (constant S_ .f32 0x7FC00000#32))

/-- The first three rows of the weight matrix. -/
def wPos (W : FVec F S67x128 .f32) : FVec F S3x128 .f32 := extractStridedSlice S3x128 ![0, 0] W slices_S67x128_S3x128_0_0
/-- Its last 64 rows. -/
def wFeat (W : FVec F S67x128 .f32) : FVec F S64x128 .f32 := extractStridedSlice S64x128 ![3, 0] W slices_S67x128_S64x128_3_0

/-- A per-half accumulator summed over the two halves and divided by the row count. -/
def meanOf (acc : FVec F S2x1x128 .f32) : FVec F S128 .f32 :=
  Host.divf ((fun x v => Host.reduceAdd x v reducesTo_S2x128_S128_d0 h_S_) (shapeCast S2x128 acc shapeCasts_S2x1x128_S2x128) (constant S_ .f32 0x00000000#32))
    (broadcastInDim S128 ![] bcast_S_S128 (constant S_ .f32 0x496A6000#32))

/-- The reciprocal standard deviation from the two accumulators. -/
def invStd (s1 s2 : FVec F S2x1x128 .f32) : FVec F S128 .f32 :=
  Host.rsqrt (addf (maximumf (subf (meanOf s2) (mulf (meanOf s1) (meanOf s1))) (broadcastInDim S128 ![] bcast_S_S128 (constant S_ .f32 0x00000000#32)))
    (broadcastInDim S128 ![] bcast_S_S128 (constant S_ .f32 0x3727C5AC#32)))

/-- The scale row. -/
def scaleRow (s1 s2 : FVec F S2x1x128 .f32) (gamma : FVec F S128 .f32) : FVec F S1x128 .f32 :=
  shapeCast S1x128 (mulf gamma (invStd s1 s2)) shapeCasts_S128_S1x128

/-- The shift row. -/
def shiftRow (s1 s2 : FVec F S2x1x128 .f32) (gamma beta : FVec F S128 .f32) : FVec F S1x128 .f32 :=
  shapeCast S1x128 (subf beta (mulf (mulf (meanOf s1) gamma) (invStd s1 s2))) shapeCasts_S128_S1x128

end Cert.KernelIdeal.HostTerm

end
-- ==== Proof.KernelHostA.lean ====
/-
  The first three host stretches of the two-pass program, each read at an arbitrary valuation `V` of the buffers it
  starts from: the first gathers the samples' rows out of `point`, the second gathers the neighbours' rows (read in its own module), the third subtracts
  the sample's row, spread over its neighbours, from the neighbours' rows. A buffer a stretch does not write keeps its
  contents.
-/
import proofs.«107821_j74440373174612_2_alg».proof.Proof.Gen.KernelIdeal.Launch
import proofs.«107821_j74440373174612_2_alg».proof.Proof.KernelTerm
import Idealize.ShloMosaic.Lib.StableHlo.Run

-- reading a buffer back through a stretch of two dozen operations recurses once per operation and per reference compared
set_option maxRecDepth 200000

noncomputable section

namespace Cert.KernelIdeal.HostReadA

open Idealize.ShloMosaic Idealize.ShloMosaic.TcCoe Idealize.ShloMosaic.StableHlo Idealize.SL.Sem
open Cert.KernelIdeal Cert.KernelIdeal.Gen Cert.KernelIdeal.HostTerm

variable {F : FTy → Type} [FloatOps F]
variable (V : Valuation τ sig (Elt F))

/-- A buffer no operation of a stretch writes keeps its contents through the stretch. -/
macro "keeps" : tactic => `(tactic| (
  refine StableHlo.after_of_forall_not_mem _ _ (List.forall_iff_forall_mem.mp ?_)
  simp only [hostOps0, hostOps0_1, hostOps0_2, hostOps0_3, hostOps0_4, hostOps1, List.Forall, StableHlo.nullary_writes,
    StableHlo.unary_writes, StableHlo.binary_writes, StableHlo.ternary_writes, StableHlo.reshape_writes, Finset.mem_singleton]
  repeat' apply And.intro
  all_goals exact StableHlo.devRef_ne_of_ne (by decide)))

/-- The samples' rows after the first stretch. -/
theorem rows_after :
    (StableHlo.after hostOps0 V (Proc.devRef .tc main_v0) : S60000x3.Idx → F .f32)
      = takeRows (V (Proc.devRef .tc main_arg0)) (V (Proc.devRef .tc main_arg5)) := by
  after_results_simp
  rfl

theorem keep0_arg0 : StableHlo.after hostOps0 V (Proc.devRef .tc main_arg0) = V (Proc.devRef .tc main_arg0) := by keeps
theorem keep0_arg1 : StableHlo.after hostOps0 V (Proc.devRef .tc main_arg1) = V (Proc.devRef .tc main_arg1) := by keeps
theorem keep0_arg2 : StableHlo.after hostOps0 V (Proc.devRef .tc main_arg2) = V (Proc.devRef .tc main_arg2) := by keeps
theorem keep0_arg3 : StableHlo.after hostOps0 V (Proc.devRef .tc main_arg3) = V (Proc.devRef .tc main_arg3) := by keeps
theorem keep0_arg4 : StableHlo.after hostOps0 V (Proc.devRef .tc main_arg4) = V (Proc.devRef .tc main_arg4) := by keeps
theorem keep0_arg6 : StableHlo.after hostOps0 V (Proc.devRef .tc main_arg6) = V (Proc.devRef .tc main_arg6) := by keeps

theorem keep1_v0 : StableHlo.after hostOps0_1 V (Proc.devRef .tc main_v0) = V (Proc.devRef .tc main_v0) := by keeps
theorem keep1_arg1 : StableHlo.after hostOps0_1 V (Proc.devRef .tc main_arg1) = V (Proc.devRef .tc main_arg1) := by keeps
theorem keep1_arg2 : StableHlo.after hostOps0_1 V (Proc.devRef .tc main_arg2) = V (Proc.devRef .tc main_arg2) := by keeps
theorem keep1_arg3 : StableHlo.after hostOps0_1 V (Proc.devRef .tc main_arg3) = V (Proc.devRef .tc main_arg3) := by keeps
theorem keep1_arg4 : StableHlo.after hostOps0_1 V (Proc.devRef .tc main_arg4) = V (Proc.devRef .tc main_arg4) := by keeps
theorem keep1_arg6 : StableHlo.after hostOps0_1 V (Proc.devRef .tc main_arg6) = V (Proc.devRef .tc main_arg6) := by keeps

/-- The relative positions after the third stretch. -/
theorem relPos_after :
    (StableHlo.after hostOps0_2 V (Proc.devRef .tc main_v4) : S60000x16x3.Idx → F .f32)
      = subf (V (Proc.devRef .tc main_v1))
          (broadcastInDim S60000x16x3 ![0, 1, 2] bcast_S60000x1x3_S60000x16x3_0_1_2
            (broadcastInDim S60000x1x3 ![0, 2] bcast_S60000x3_S60000x1x3_0_2 (V (Proc.devRef .tc main_v0)))) := by
  after_results_simp

theorem keep2_v0 : StableHlo.after hostOps0_2 V (Proc.devRef .tc main_v0) = V (Proc.devRef .tc main_v0) := by keeps
theorem keep2_arg1 : StableHlo.after hostOps0_2 V (Proc.devRef .tc main_arg1) = V (Proc.devRef .tc main_arg1) := by keeps
theorem keep2_arg2 : StableHlo.after hostOps0_2 V (Proc.devRef .tc main_arg2) = V (Proc.devRef .tc main_arg2) := by keeps
theorem keep2_arg3 : StableHlo.after hostOps0_2 V (Proc.devRef .tc main_arg3) = V (Proc.devRef .tc main_arg3) := by keeps
theorem keep2_arg4 : StableHlo.after hostOps0_2 V (Proc.devRef .tc main_arg4) = V (Proc.devRef .tc main_arg4) := by keeps
theorem keep2_arg6 : StableHlo.after hostOps0_2 V (Proc.devRef .tc main_arg6) = V (Proc.devRef .tc main_arg6) := by keeps

end Cert.KernelIdeal.HostReadA

end
-- ==== Proof.KernelHostB.lean ====
/-
  The remaining host stretches of the two-pass program, each read at an arbitrary valuation `V` of the buffers it starts
  from: the fourth gathers the neighbours' features out of `feat`, the fifth cuts the weight matrix into its first 3 and
  last 64 rows, and the stretch between the two regions turns the two accumulators into the scale and shift rows. A
  buffer a stretch does not write keeps its contents.
-/
import proofs.«107821_j74440373174612_2_alg».proof.Proof.Gen.KernelIdeal.Launch
import proofs.«107821_j74440373174612_2_alg».proof.Proof.KernelTerm
import Idealize.ShloMosaic.Lib.StableHlo.Run

-- reading a buffer back through a stretch of two dozen operations recurses once per operation and per reference compared
set_option maxRecDepth 200000

noncomputable section

namespace Cert.KernelIdeal.HostReadB

open Idealize.ShloMosaic Idealize.ShloMosaic.TcCoe Idealize.ShloMosaic.StableHlo Idealize.SL.Sem
open Cert.KernelIdeal Cert.KernelIdeal.Gen Cert.KernelIdeal.HostTerm

variable {F : FTy → Type} [FloatOps F]
variable (V : Valuation τ sig (Elt F))

/-- A buffer no operation of a stretch writes keeps its contents through the stretch. -/
macro "keeps" : tactic => `(tactic| (
  refine StableHlo.after_of_forall_not_mem _ _ (List.forall_iff_forall_mem.mp ?_)
  simp only [hostOps0, hostOps0_1, hostOps0_2, hostOps0_3, hostOps0_4, hostOps1, List.Forall, StableHlo.nullary_writes,
    StableHlo.unary_writes, StableHlo.binary_writes, StableHlo.ternary_writes, StableHlo.reshape_writes, Finset.mem_singleton]
  repeat' apply And.intro
  all_goals exact StableHlo.devRef_ne_of_ne (by decide)))

theorem keep3_v0 : StableHlo.after hostOps0_3 V (Proc.devRef .tc main_v0) = V (Proc.devRef .tc main_v0) := by keeps
theorem keep3_v4 : StableHlo.after hostOps0_3 V (Proc.devRef .tc main_v4) = V (Proc.devRef .tc main_v4) := by keeps
theorem keep3_arg2 : StableHlo.after hostOps0_3 V (Proc.devRef .tc main_arg2) = V (Proc.devRef .tc main_arg2) := by keeps
theorem keep3_arg3 : StableHlo.after hostOps0_3 V (Proc.devRef .tc main_arg3) = V (Proc.devRef .tc main_arg3) := by keeps
theorem keep3_arg4 : StableHlo.after hostOps0_3 V (Proc.devRef .tc main_arg4) = V (Proc.devRef .tc main_arg4) := by keeps

/-- The two cuts of the weight matrix after the fifth stretch. -/
theorem wPos_after :
    (StableHlo.after hostOps0_4 V (Proc.devRef .tc main_v6) : S3x128.Idx → F .f32) = wPos (V (Proc.devRef .tc main_arg2)) := by
  after_results_simp
  rfl
theorem wFeat_after :
    (StableHlo.after hostOps0_4 V (Proc.devRef .tc main_v7) : S64x128.Idx → F .f32) = wFeat (V (Proc.devRef .tc main_arg2)) := by
  after_results_simp
  rfl

theorem keep4_v0 : StableHlo.after hostOps0_4 V (Proc.devRef .tc main_v0) = V (Proc.devRef .tc main_v0) := by keeps
theorem keep4_v4 : StableHlo.after hostOps0_4 V (Proc.devRef .tc main_v4) = V (Proc.devRef .tc main_v4) := by keeps
theorem keep4_v5 : StableHlo.after hostOps0_4 V (Proc.devRef .tc main_v5) = V (Proc.devRef .tc main_v5) := by keeps
theorem keep4_arg3 : StableHlo.after hostOps0_4 V (Proc.devRef .tc main_arg3) = V (Proc.devRef .tc main_arg3) := by keeps
theorem keep4_arg4 : StableHlo.after hostOps0_4 V (Proc.devRef .tc main_arg4) = V (Proc.devRef .tc main_arg4) := by keeps

/-- The scale row after the stretch between the regions. -/
theorem scale_after :
    (StableHlo.after hostOps1 V (Proc.devRef .tc main_v25) : S1x128.Idx → F .f32)
      = scaleRow (V (Proc.devRef .tc main_v8_0)) (V (Proc.devRef .tc main_v8_1)) (V (Proc.devRef .tc main_arg3)) := by
  after_results_simp
  rfl
/-- The shift row after the stretch between the regions. -/
theorem shift_after :
    (StableHlo.after hostOps1 V (Proc.devRef .tc main_v29) : S1x128.Idx → F .f32)
      = shiftRow (V (Proc.devRef .tc main_v8_0)) (V (Proc.devRef .tc main_v8_1)) (V (Proc.devRef .tc main_arg3)) (V (Proc.devRef .tc main_arg4)) := by
  after_results_simp
  rfl

theorem keep5_v0 : StableHlo.after hostOps1 V (Proc.devRef .tc main_v0) = V (Proc.devRef .tc main_v0) := by keeps
theorem keep5_v4 : StableHlo.after hostOps1 V (Proc.devRef .tc main_v4) = V (Proc.devRef .tc main_v4) := by keeps
theorem keep5_v5 : StableHlo.after hostOps1 V (Proc.devRef .tc main_v5) = V (Proc.devRef .tc main_v5) := by keeps
theorem keep5_v6 : StableHlo.after hostOps1 V (Proc.devRef .tc main_v6) = V (Proc.devRef .tc main_v6) := by keeps
theorem keep5_v7 : StableHlo.after hostOps1 V (Proc.devRef .tc main_v7) = V (Proc.devRef .tc main_v7) := by keeps

end Cert.KernelIdeal.HostReadB

end
-- ==== Proof.KernelGather.lean ====
/-
  The two host stretches that gather the neighbours' rows, each read at an arbitrary valuation `V` of the buffers it
  starts from.

  Each stretch normalises the neighbour indices (a negative index has 240000 added), marks a neighbour as in range when its
  normalised index lies in [0, 239999] — the conjunction, over the index's one coordinate, of the two comparisons —, reads
  the row of the table at the normalised index, and replaces the rows of neighbours out of range by the NaN word. The first
  does this for the positions (rows of 3), the second for the features (rows of 64).

  A value written to a buffer and read back by a later operation is the value itself, and so is a value read from, or
  written to, a buffer whose type is the value's: with these identities applied, what the stretch leaves in its result
  buffer is, term for term, the gathered array.
-/
import proofs.«107821_j74440373174612_2_alg».proof.Proof.Gen.KernelIdeal.Launch
import proofs.«107821_j74440373174612_2_alg».proof.Proof.KernelTerm
import Idealize.ShloMosaic.Lib.StableHlo.Run

noncomputable section

namespace Cert.KernelIdeal.HostReadG

open Idealize.ShloMosaic Idealize.ShloMosaic.TcCoe Idealize.ShloMosaic.StableHlo Idealize.SL.Sem
open Cert.KernelIdeal Cert.KernelIdeal.Gen Cert.KernelIdeal.HostTerm

/-- Contents moved to a typed reference's buffer and read back are the contents. -/
theorem ofBuf_toBuf {Val : EltTy → Type} {sig : RefSig} {T : BufTy} (x : StableHlo.TRef sig T) (v : T.Contents Val) :
    x.ofBuf (x.toBuf v) = v := by
  obtain ⟨r, rfl, _, _⟩ := x
  rfl

variable {F : FTy → Type} [FloatOps F]
variable (V : Valuation τ sig (Elt F))

/-- The neighbours' positions after the second stretch: rows of the position table at the neighbour indices. -/
theorem nbrPos_after :
    (StableHlo.after hostOps0_1 V (Proc.devRef .tc main_v1) : S60000x16x3.Idx → F .f32)
      = takeNbrPos (V (Proc.devRef .tc main_arg0)) (V (Proc.devRef .tc main_arg6)) := by
  -- the neighbour indices and the position table are read at their own types, the result written at its own
  have idx_read : ∀ p1 p2 p3, (TRef.of main_arg6 p1 p2 p3 : TRef sig ⟨S60000x16, .i32⟩).ofBuf (V (Proc.devRef .tc main_arg6))
      = V (Proc.devRef .tc main_arg6) := fun _ _ _ => rfl
  have table_read : ∀ p1 p2 p3, (TRef.of main_arg0 p1 p2 p3 : TRef sig ⟨S240000x3, .f32⟩).ofBuf (V (Proc.devRef .tc main_arg0))
      = V (Proc.devRef .tc main_arg0) := fun _ _ _ => rfl
  have result_written : ∀ p1 p2 p3 (z : S60000x16x3.Idx → F .f32),
      (TRef.of main_v1 p1 p2 p3 : TRef sig ⟨S60000x16x3, .f32⟩).toBuf (Val := Elt F) z = z := fun _ _ _ _ => rfl
  after_results_simp
  simp only [ofBuf_toBuf, idx_read, table_read, result_written]
  unfold takeNbrPos nbrOk nbrIdx
  rfl

/-- The neighbours' features after the fourth stretch: rows of the feature table at the neighbour indices. -/
theorem nbrFeat_after :
    (StableHlo.after hostOps0_3 V (Proc.devRef .tc main_v5) : S60000x16x64.Idx → F .f32)
      = nbrFeat (V (Proc.devRef .tc main_arg1)) (V (Proc.devRef .tc main_arg6)) := by
  have idx_read : ∀ p1 p2 p3, (TRef.of main_arg6 p1 p2 p3 : TRef sig ⟨S60000x16, .i32⟩).ofBuf (V (Proc.devRef .tc main_arg6))
      = V (Proc.devRef .tc main_arg6) := fun _ _ _ => rfl
  have table_read : ∀ p1 p2 p3, (TRef.of main_arg1 p1 p2 p3 : TRef sig ⟨S240000x64, .f32⟩).ofBuf (V (Proc.devRef .tc main_arg1))
      = V (Proc.devRef .tc main_arg1) := fun _ _ _ => rfl
  have result_written : ∀ p1 p2 p3 (z : S60000x16x64.Idx → F .f32),
      (TRef.of main_v5 p1 p2 p3 : TRef sig ⟨S60000x16x64, .f32⟩).toBuf (Val := Elt F) z = z := fun _ _ _ _ => rfl
  after_results_simp
  simp only [ofBuf_toBuf, idx_read, table_read, result_written]
  unfold nbrFeat nbrOk nbrIdx
  rfl

end Cert.KernelIdeal.HostReadG

end
-- ==== Proof.DenseSpec.lean ====
/-
  The mathematics both programs compute, over literal shapes and index by index, on the extended reals.

  A sample `p` (of 60000) has 16 neighbours `k`; neighbour `k` carries a 3-vector `X p k ·` (relative position) and a
  64-vector `Fe p k ·` (features). The dense layer maps the concatenated 67-vector to 128 channels; splitting the weight
  matrix into its first 3 rows `Wx` and its last 64 rows `Wf` splits the product into two sums: `pre`.
  Batch normalisation needs, per channel, the sum and the sum of squares of `pre` over all 960000 = 60000·16 rows; the
  two-pass program accumulates them per half of the samples (`partSum`, `partSumSq`: half `h` owns sample blocks
  `50 h … 50 h + 49` of 600 samples each, every block flattened to 9600 = 600·16 rows). The second pass applies a
  per-channel affine map, clamps at zero and takes the maximum over the 16 neighbours (`pooled`).
-/
import Idealize.ShloMosaic.PureOps.Ideal
import Idealize.ShloMosaic.Lib.ValueIdx

noncomputable section

namespace Cert.Dense

open Idealize.ShloMosaic Idealize.ShloMosaic.ValueIdx
open scoped BigOperators

abbrev SX : Shape := ⟨3, ![60000, 16, 3]⟩
abbrev SFe : Shape := ⟨3, ![60000, 16, 64]⟩
abbrev SWx : Shape := ⟨2, ![3, 128]⟩
abbrev SWf : Shape := ⟨2, ![64, 128]⟩
abbrev SRow : Shape := ⟨2, ![1, 128]⟩
abbrev SAcc : Shape := ⟨3, ![2, 1, 128]⟩
abbrev SOut : Shape := ⟨2, ![60000, 128]⟩

/-- The dense layer's value at sample `p`, neighbour `k`, channel `d`: the 3 position coordinates against the first
    three weight rows plus the 64 features against the remaining ones. -/
def pre (X : FVec Ideal SX .f32) (Fe : FVec Ideal SFe .f32) (Wx : FVec Ideal SWx .f32) (Wf : FVec Ideal SWf .f32)
    (p : Fin 60000) (k : Fin 16) (d : Fin 128) : EReal :=
  (∑ c : Fin 3, X (ix3 p k c) * Wx (ix2 c d)) + ∑ c : Fin 64, Fe (ix3 p k c) * Wf (ix2 c d)

/-- Sample block `b` (600 samples) flattened to 9600 rows: row `r` is sample `600 b + r / 16`. -/
def rowOf (b : Fin 100) (r : Fin 9600) : Fin 60000 := ⟨b.val * 600 + r.val / 16, by omega⟩
/-- … and neighbour `r % 16`. -/
def nbrOf (r : Fin 9600) : Fin 16 := ⟨r.val % 16, by omega⟩
/-- Half `h` of the samples owns blocks `50 h + i`. -/
def blkOf (h : Fin 2) (i : Fin 50) : Fin 100 := ⟨h.val * 50 + i.val, by omega⟩

/-- The dense layer's value at flattened row `r` of block `b`. -/
def preRow (X : FVec Ideal SX .f32) (Fe : FVec Ideal SFe .f32) (Wx : FVec Ideal SWx .f32) (Wf : FVec Ideal SWf .f32)
    (b : Fin 100) (r : Fin 9600) (d : Fin 128) : EReal :=
  pre X Fe Wx Wf (rowOf b r) (nbrOf r) d

/-- Channel `d`'s sum of the dense layer over half `h` of the samples, block by block. -/
def partSum (X : FVec Ideal SX .f32) (Fe : FVec Ideal SFe .f32) (Wx : FVec Ideal SWx .f32) (Wf : FVec Ideal SWf .f32)
    (h : Fin 2) (d : Fin 128) : EReal :=
  ∑ i : Fin 50, ∑ r : Fin 9600, preRow X Fe Wx Wf (blkOf h i) r d

/-- Channel `d`'s sum of squares of the dense layer over half `h` of the samples, block by block. -/
def partSumSq (X : FVec Ideal SX .f32) (Fe : FVec Ideal SFe .f32) (Wx : FVec Ideal SWx .f32) (Wf : FVec Ideal SWf .f32)
    (h : Fin 2) (d : Fin 128) : EReal :=
  ∑ i : Fin 50, ∑ r : Fin 9600, preRow X Fe Wx Wf (blkOf h i) r d * preRow X Fe Wx Wf (blkOf h i) r d

/-- The maximum over the 16 neighbours, started from −∞ (the word 0xFF800000). -/
def maxNbr (f : Fin 16 → EReal) : EReal :=
  (Finset.univ : Finset (Fin 16)).fold max (Ideal.ofBits .f32 0xFF800000#32) f

/-- The second pass: scale and shift per channel, clamp at zero (the word 0), maximum over the neighbours. -/
def pooled (X : FVec Ideal SX .f32) (Fe : FVec Ideal SFe .f32) (Wx : FVec Ideal SWx .f32) (Wf : FVec Ideal SWf .f32)
    (sc sh : FVec Ideal SRow .f32) (p : Fin 60000) (d : Fin 128) : EReal :=
  maxNbr fun k => max (pre X Fe Wx Wf p k d * sc (ix2 0 d) + sh (ix2 0 d)) (Ideal.ofBits .f32 0x00000000#32)

end Cert.Dense

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.PoolLayout.lean ====
/-
  Arrays of samples × neighbours × channels read at an entry, for any extents.

  An [a, b, c] array flattened to a matrix of a·b rows keeps each (sample, neighbour) pair as one row: the row of
  (p, k) is b·p + k, and the same correspondence read backwards unflattens the matrix. A row [1, c] stood up as a
  [1, 1, c] array and laid over [a, b, c] is constant along the first two coordinates. The maximum over the middle
  coordinate of an [a, b, c] array, started from −∞, is at (p, d) the fold of max over k of the entries (p, k, d).
-/
import Idealize.ShloMosaic.Lib.Pipeline.Value
import Idealize.ShloMosaic.Lib.ValueIdx
import Idealize.ShloMosaic.PureOps.Ideal.Laws

noncomputable section

open scoped BigOperators

namespace Cert.KernelIdeal.PoolLayout

open Idealize.ShloMosaic Idealize.ShloMosaic.ValueIdx

variable {α : Type}

/-- Flattening: row r = b·p + k of the [n, c] matrix is the entries (p, k, ·) of the [a, b, c] array. -/
theorem flatten_apply {a b c n : Nat} (h : (⟨3, ![a, b, c]⟩ : Shape).ShapeCasts ⟨2, ![n, c]⟩)
    (x : (⟨3, ![a, b, c]⟩ : Shape).Idx → α) (p : Fin a) (k : Fin b) (r : Fin n) (d : Fin c)
    (hr : r.val = p.val * b + k.val) :
    shapeCast ⟨2, ![n, c]⟩ x h (ix2 r d) = x (ix3 p k d) :=
  shapeCast_apply x h _ _ (by
    rw [Shape.rowMajor_val_three, Shape.rowMajor_val_two]
    show (p.val * b + k.val) * c + d.val = r.val * c + d.val
    rw [hr])

/-- Unflattening: entry (p, k, d) of the [a, b, c] array is entry (b·p + k, d) of the [n, c] matrix. -/
theorem unflatten_apply {a b c n : Nat} (h : (⟨2, ![n, c]⟩ : Shape).ShapeCasts ⟨3, ![a, b, c]⟩)
    (x : (⟨2, ![n, c]⟩ : Shape).Idx → α) (p : Fin a) (k : Fin b) (r : Fin n) (d : Fin c)
    (hr : r.val = p.val * b + k.val) :
    shapeCast ⟨3, ![a, b, c]⟩ x h (ix3 p k d) = x (ix2 r d) :=
  shapeCast_apply x h _ _ (by
    rw [Shape.rowMajor_val_three, Shape.rowMajor_val_two]
    show r.val * c + d.val = (p.val * b + k.val) * c + d.val
    rw [hr])

/-- A row [1, c] stood up as [1, 1, c]: entry (0, 0, d) is entry (0, d). -/
theorem row_up_apply {c : Nat} (h : (⟨2, ![1, c]⟩ : Shape).ShapeCasts ⟨3, ![1, 1, c]⟩)
    (x : (⟨2, ![1, c]⟩ : Shape).Idx → α) (u v : Fin 1) (d : Fin c) :
    shapeCast ⟨3, ![1, 1, c]⟩ x h (ix3 u v d) = x (ix2 (0 : Fin 1) d) :=
  shapeCast_apply x h _ _ (by
    have hu : u.val = 0 := by omega
    have hv : v.val = 0 := by omega
    rw [Shape.rowMajor_val_three, Shape.rowMajor_val_two]
    show 0 * c + d.val = (u.val * 1 + v.val) * c + d.val
    rw [hu, hv])

/-- A [1, 1, c] array laid over [a, b, c]: entry (p, k, d) is entry (0, 0, d). -/
theorem over_cube_apply {a b c : Nat} (h : (⟨3, ![1, 1, c]⟩ : Shape).Broadcasts ⟨3, ![a, b, c]⟩)
    (x : (⟨3, ![1, 1, c]⟩ : Shape).Idx → α) (p : Fin a) (k : Fin b) (d : Fin c) :
    broadcastTo ⟨3, ![a, b, c]⟩ x h (ix3 p k d) = x (ix3 (0 : Fin 1) (0 : Fin 1) d) := by
  refine broadcastTo_apply x h (ix3 p k d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- The index over (p, d) with the middle coordinate k inserted. -/
theorem lift_mid {a b c : Nat} (h : (⟨3, ![a, b, c]⟩ : Shape).Reduces [1] ⟨2, ![a, c]⟩) (p : Fin a) (d : Fin c) (k : Fin b) :
    h.lift (ix2 p d) k = ix3 p k d :=
  funext fun ax => match ax with
    | ⟨0, _⟩ => Fin.ext rfl
    | ⟨1, _⟩ => Fin.ext rfl
    | ⟨2, _⟩ => Fin.ext rfl

/-- The maxima over the middle coordinate, from −∞: entry (p, d) is the fold of max over k of entry (p, k, d). -/
theorem midmax_apply {a b c : Nat} (v : FVec Ideal ⟨3, ![a, b, c]⟩ .f32) (h : (⟨3, ![a, b, c]⟩ : Shape).Reduces [1] ⟨2, ![a, c]⟩)
    (hφ : FKind.Formats .f32) (hacc : (0xFF800000#32 : BitVec 32) = 0xFF800000#32) (p : Fin a) (d : Fin c) :
    multiReduction .maximumf [1] ⟨2, ![a, c]⟩ v 0xFF800000#32 h hφ hacc (ix2 p d)
      = (Finset.univ : Finset (Fin b)).fold max (Ideal.ofBits .f32 0xFF800000#32) (fun k => v (ix3 p k d)) := by
  refine (Ideal.multiReduction_maximumf_single v 0xFF800000#32 h hφ hacc (ix2 p d)).trans ?_
  exact congrArg (fun f => (Finset.univ : Finset (Fin b)).fold max (Ideal.ofBits .f32 0xFF800000#32) f)
    (funext fun k => congrArg v (lift_mid h p d k))

end Cert.KernelIdeal.PoolLayout

end
-- ==== Proof.PoolPayload.lean ====
/-
  The second pass's block of 600 samples, read at an entry.

  The block's 600 × 16 (sample, neighbour) pairs are flattened to 9600 rows — pair (q, k) is row 16·q + k —, each row is
  multiplied into the 128 channels by the two weight matrices and the two products are added: entry (16·q + k, d) is the
  dense layer's value of pair (q, k) at channel d, a sum over the 3 position coordinates plus a sum over the 64 features.
  Unflattened, every entry is scaled and shifted by its channel's two numbers, clamped below at zero, and the maximum over
  the 16 neighbours, started from −∞, is taken. Changing the number format of an operand does nothing on the extended reals.
-/
import proofs.«107821_j74440373174612_2_alg».proof.Proof.Gen.KernelIdeal.Skeleton
import proofs.«107821_j74440373174612_2_alg».proof.Proof.DenseSpec
import proofs.«107821_j74440373174612_2_alg».proof.Proof.LibRowOps
import proofs.«107821_j74440373174612_2_alg».proof.Proof.PoolLayout

noncomputable section

open scoped BigOperators

namespace Cert.KernelIdeal.PoolValue

open Idealize.ShloMosaic Idealize.ShloMosaic.ValueIdx
open Cert.KernelIdeal Cert.KernelIdeal.Gen Cert.KernelIdeal.PoolLayout

/-- The flattened row of sample q's neighbour k. -/
def pairRow (q : Fin 600) (k : Fin 16) : Fin 9600 := ⟨q.val * 16 + k.val, by omega⟩

/-- The dense layer on the block: the two matrix products of the flattened rows, added and unflattened, at (q, k, d) are
    the 3-term sum against the position weights plus the 64-term sum against the feature weights. -/
theorem dense_entry (x0 : FVec Ideal S600x16x3 .f32) (x1 : FVec Ideal S600x16x64 .f32) (x2 : FVec Ideal S3x128 .f32)
    (x3 : FVec Ideal S64x128 .f32) (q : Fin 600) (k : Fin 16) (d : Fin 128) :
    shapeCast S600x16x128
        (addf
          (matmul dot_S9600x3_S3x128_S9600x128_1_0_0_1_n_n none
            (truncf .bf16 (shapeCast S9600x3 (shapeCast S600x16x3 x0 shapeCasts_S600x16x3_S600x16x3) shapeCasts_S600x16x3_S9600x3) bitsLt_bf16_f32)
            (truncf .bf16 (shapeCast S3x128 x2 shapeCasts_S3x128_S3x128) bitsLt_bf16_f32)
            (constant S9600x128 .f32 0x00000000#32))
          (matmul dot_S9600x64_S64x128_S9600x128_1_0_0_1_n_n none
            (truncf .bf16 (shapeCast S9600x64 (shapeCast S600x16x64 x1 shapeCasts_S600x16x64_S600x16x64) shapeCasts_S600x16x64_S9600x64) bitsLt_bf16_f32)
            (truncf .bf16 (shapeCast S64x128 x3 shapeCasts_S64x128_S64x128) bitsLt_bf16_f32)
            (constant S9600x128 .f32 0x00000000#32)))
        shapeCasts_S9600x128_S600x16x128 (ix3 q k d)
      = (∑ c : Fin 3, x0 (ix3 q k c) * x2 (ix2 c d)) + ∑ c : Fin 64, x1 (ix3 q k c) * x3 (ix2 c d) := by
  rw [unflatten_apply shapeCasts_S9600x128_S600x16x128 _ q k (pairRow q k) d rfl, addf_apply,
    RowOps.matmul_apply dot_S9600x3_S3x128_S9600x128_1_0_0_1_n_n rfl,
    RowOps.matmul_apply dot_S9600x64_S64x128_S9600x128_1_0_0_1_n_n rfl]
  simp only [truncf_apply, shapeCast_self]
  refine congrArg₂ (· + ·) (Finset.sum_congr rfl fun c _ => ?_) (Finset.sum_congr rfl fun c _ => ?_)
  · rw [flatten_apply shapeCasts_S600x16x3_S9600x3 x0 q k (pairRow q k) c rfl]
  · rw [flatten_apply shapeCasts_S600x16x64_S9600x64 x1 q k (pairRow q k) c rfl]

/-- Scale, shift, clamp at zero and take the neighbours' maximum: for any [600, 16, 128] array z and rows sc, sh, entry
    (q, d) is the maximum over k, from −∞, of max (z(q, k, d) · sc(0, d) + sh(0, d)) 0. -/
theorem pool_entry (z : FVec Ideal S600x16x128 .f32) (sc sh : FVec Ideal S1x128 .f32) (q : Fin 600) (d : Fin 128) :
    multiReduction .maximumf [1] S600x128
        (maximumf
          (addf
            (mulf z (broadcastTo S600x16x128 (shapeCast S1x1x128 (shapeCast S1x128 sc shapeCasts_S1x128_S1x128) shapeCasts_S1x128_S1x1x128) broadcasts_S1x1x128_S600x16x128))
            (broadcastTo S600x16x128 (shapeCast S1x1x128 (shapeCast S1x128 sh shapeCasts_S1x128_S1x128) shapeCasts_S1x128_S1x1x128) broadcasts_S1x1x128_S600x16x128))
          (broadcast S600x16x128 (Scalar.ofBits (F := Ideal) .f32 0x00000000#32)))
        0xFF800000#32 reduces_S600x16x128_S600x128 (.inl rfl) rfl (ix2 q d)
      = Cert.Dense.maxNbr fun k => max (z (ix3 q k d) * sc (ix2 0 d) + sh (ix2 0 d)) (Ideal.ofBits .f32 0x00000000#32) := by
  refine (midmax_apply _ reduces_S600x16x128_S600x128 (.inl rfl) rfl q d).trans ?_
  refine congrArg Cert.Dense.maxNbr (funext fun k => ?_)
  rw [maximumf_apply, addf_apply, mulf_apply, broadcast_apply,
    over_cube_apply broadcasts_S1x1x128_S600x16x128 _ q k d, over_cube_apply broadcasts_S1x1x128_S600x16x128 _ q k d,
    row_up_apply shapeCasts_S1x128_S1x1x128 _ 0 0 d, row_up_apply shapeCasts_S1x128_S1x1x128 _ 0 0 d,
    shapeCast_self, shapeCast_self]
  rfl

/-- The block the second pass stores, at (q, d): the pooled value of the block's sample q at channel d. -/
theorem pay_entry (x0 : FVec Ideal S600x16x3 .f32) (x1 : FVec Ideal S600x16x64 .f32) (x2 : FVec Ideal S3x128 .f32)
    (x3 : FVec Ideal S64x128 .f32) (x4 x5 : FVec Ideal S1x128 .f32) (q : Fin 600) (d : Fin 128) :
    k1_pay1 (F := Ideal) x0 x1 x2 x3 x4 x5 (ix2 q d)
      = Cert.Dense.maxNbr fun k =>
          max (((∑ c : Fin 3, x0 (ix3 q k c) * x2 (ix2 c d)) + ∑ c : Fin 64, x1 (ix3 q k c) * x3 (ix2 c d)) * x4 (ix2 0 d) + x5 (ix2 0 d))
            (Ideal.ofBits .f32 0x00000000#32) := by
  unfold k1_pay1
  dsimp only
  refine (pool_entry _ x4 x5 q d).trans ?_
  refine congrArg Cert.Dense.maxNbr (funext fun k => ?_)
  exact congrArg (fun z => max (z * x4 (ix2 0 d) + x5 (ix2 0 d)) (Ideal.ofBits .f32 0x00000000#32)) (dense_entry x0 x1 x2 x3 q k d)

end Cert.KernelIdeal.PoolValue

end
-- ==== Proof.PoolBlocks.lean ====
/-
  The second pass's input blocks as reads of the arrays the pass finds.

  The pass runs over 100 points; point t works on samples 600·t … 600·t + 599. A block coordinate is the block's index
  times the block's size plus the coordinate inside the block, and the block indices are decided once over the 100 points:
  the positions' and the features' blocks move with the point along the sample axis only, so sample q of point t's block is
  sample 600·t + q of the array; the two weight matrices and the scale and shift rows sit at block 0 on both axes, so their
  block at every point is the whole array.
-/
import proofs.«107821_j74440373174612_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.PoolValue

open Cert.KernelIdeal Cert.KernelIdeal.Gen

variable (V : (c : Dev nD) → (b : Ref sig .tc) → Buf (Elt Ideal) ((c : Thread nD τ).loc b))

/-- The windows' block indices, decided over the 100 points: the block inputs and the output move with the point along the
    sample axis only; the four small inputs stay at block 0. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The positions' block at point t: sample q of the block is sample 600·t + q of the array. -/
theorem pos_blk_apply (c : Dev nD) (t : Fin cfg1.N) (q : Fin 600) (k : Fin 16) (cc : Fin 3) (p : Fin 60000)
    (hp : p.val = t.val * 600 + q.val) :
    (iblk1 (F := Ideal) V c 0 t : FVec Ideal S600x16x3 .f32) (ix3 q k cc)
      = (V c (Pipeline.arrRef spec1 0) : FVec Ideal S60000x16x3 .f32) (ix3 p k cc) := by
  obtain ⟨e0, e1, e2, -⟩ := idx_facts t
  unfold iblk1
  show (V c (Pipeline.arrRef spec1 0) : FVec Ideal S60000x16x3 .f32) (((cfg1.win 0).blk t).view.emb (ix3 q k cc)) = _
  refine congrArg (V c (Pipeline.arrRef spec1 0) : FVec Ideal S60000x16x3 .f32) (funext fun a => Fin.ext ?_)
  match a with
  | ⟨0, _⟩ => show win1_0.index t (0 : Fin 3) * 600 + 1 * q.val = p.val; rw [e0, hp]; omega
  | ⟨1, _⟩ => show win1_0.index t (1 : Fin 3) * 16 + 1 * k.val = k.val; rw [e1]; omega
  | ⟨2, _⟩ => show win1_0.index t (2 : Fin 3) * 3 + 1 * cc.val = cc.val; rw [e2]; omega

/-- The features' block at point t, likewise. -/
theorem feat_blk_apply (c : Dev nD) (t : Fin cfg1.N) (q : Fin 600) (k : Fin 16) (cc : Fin 64) (p : Fin 60000)
    (hp : p.val = t.val * 600 + q.val) :
    (iblk1 (F := Ideal) V c 1 t : FVec Ideal S600x16x64 .f32) (ix3 q k cc)
      = (V c (Pipeline.arrRef spec1 1) : FVec Ideal S60000x16x64 .f32) (ix3 p k cc) := by
  obtain ⟨-, -, -, e0, e1, e2, -⟩ := idx_facts t
  unfold iblk1
  show (V c (Pipeline.arrRef spec1 1) : FVec Ideal S60000x16x64 .f32) (((cfg1.win 1).blk t).view.emb (ix3 q k cc)) = _
  refine congrArg (V c (Pipeline.arrRef spec1 1) : FVec Ideal S60000x16x64 .f32) (funext fun a => Fin.ext ?_)
  match a with
  | ⟨0, _⟩ => show win1_1.index t (0 : Fin 3) * 600 + 1 * q.val = p.val; rw [e0, hp]; omega
  | ⟨1, _⟩ => show win1_1.index t (1 : Fin 3) * 16 + 1 * k.val = k.val; rw [e1]; omega
  | ⟨2, _⟩ => show win1_1.index t (2 : Fin 3) * 64 + 1 * cc.val = cc.val; rw [e2]; omega

/-- The position weights are read whole at every point. -/
theorem wpos_blk_eq (c : Dev nD) (t : Fin cfg1.N) :
    (iblk1 (F := Ideal) V c 2 t : FVec Ideal S3x128 .f32) = (V c (Pipeline.arrRef spec1 2) : FVec Ideal S3x128 .f32) := by
  obtain ⟨-, -, -, -, -, -, e0, e1, -⟩ := idx_facts t
  funext x
  unfold iblk1
  show (V c (Pipeline.arrRef spec1 2) : FVec Ideal S3x128 .f32) (((cfg1.win 2).blk t).view.emb x) = _
  refine congrArg (V c (Pipeline.arrRef spec1 2) : FVec Ideal S3x128 .f32) (funext fun a => Fin.ext ?_)
  match a with
  | ⟨0, _⟩ => show win1_2.index t (0 : Fin 2) * 3 + 1 * (x 0).val = (x 0).val; rw [e0]; omega
  | ⟨1, _⟩ => show win1_2.index t (1 : Fin 2) * 128 + 1 * (x 1).val = (x 1).val; rw [e1]; omega

/-- The feature weights are read whole at every point. -/
theorem wfeat_blk_eq (c : Dev nD) (t : Fin cfg1.N) :
    (iblk1 (F := Ideal) V c 3 t : FVec Ideal S64x128 .f32) = (V c (Pipeline.arrRef spec1 3) : FVec Ideal S64x128 .f32) := by
  obtain ⟨-, -, -, -, -, -, -, -, e0, e1, -⟩ := idx_facts t
  funext x
  unfold iblk1
  show (V c (Pipeline.arrRef spec1 3) : FVec Ideal S64x128 .f32) (((cfg1.win 3).blk t).view.emb x) = _
  refine congrArg (V c (Pipeline.arrRef spec1 3) : FVec Ideal S64x128 .f32) (funext fun a => Fin.ext ?_)
  match a with
  | ⟨0, _⟩ => show win1_3.index t (0 : Fin 2) * 64 + 1 * (x 0).val = (x 0).val; rw [e0]; omega
  | ⟨1, _⟩ => show win1_3.index t (1 : Fin 2) * 128 + 1 * (x 1).val = (x 1).val; rw [e1]; omega

/-- The scale row is read whole at every point. -/
theorem scale_blk_eq (c : Dev nD) (t : Fin cfg1.N) :
    (iblk1 (F := Ideal) V c 4 t : FVec Ideal S1x128 .f32) = (V c (Pipeline.arrRef spec1 4) : FVec Ideal S1x128 .f32) := by
  obtain ⟨-, -, -, -, -, -, -, -, -, -, e0, e1, -⟩ := idx_facts t
  funext x
  unfold iblk1
  show (V c (Pipeline.arrRef spec1 4) : FVec Ideal S1x128 .f32) (((cfg1.win 4).blk t).view.emb x) = _
  refine congrArg (V c (Pipeline.arrRef spec1 4) : FVec Ideal S1x128 .f32) (funext fun a => Fin.ext ?_)
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- The shift row is read whole at every point. -/
theorem shift_blk_eq (c : Dev nD) (t : Fin cfg1.N) :
    (iblk1 (F := Ideal) V c 5 t : FVec Ideal S1x128 .f32) = (V c (Pipeline.arrRef spec1 5) : FVec Ideal S1x128 .f32) := by
  obtain ⟨-, -, -, -, -, -, -, -, -, -, -, -, e0, e1, -⟩ := idx_facts t
  funext x
  unfold iblk1
  show (V c (Pipeline.arrRef spec1 5) : FVec Ideal S1x128 .f32) (((cfg1.win 5).blk t).view.emb x) = _
  refine congrArg (V c (Pipeline.arrRef spec1 5) : FVec Ideal S1x128 .f32) (funext fun a => Fin.ext ?_)
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

end Cert.KernelIdeal.PoolValue

end
-- ==== Proof.PoolValue.lean ====
/-
  The second pass's output array as one function of the arrays the pass finds.

  Point t of the 100 works on samples 600·t … 600·t + 599: its two block inputs are those samples' positions and features,
  its four small inputs are the whole weight matrices and the whole scale and shift rows, and the block it writes back is
  rows 600·t … 600·t + 599 of the [60000, 128] output. So the block point t writes is the block of ONE function of the
  whole arrays — sample p, channel d ↦ the pooled value — and since every sample p lies in the block of point p / 600, the
  output array ends holding that function everywhere.
-/
import proofs.«107821_j74440373174612_2_alg».proof.Proof.Gen.KernelIdeal.Frame
import proofs.«107821_j74440373174612_2_alg».proof.Proof.DenseSpec
import proofs.«107821_j74440373174612_2_alg».proof.Proof.PoolPayload
import proofs.«107821_j74440373174612_2_alg».proof.Proof.PoolBlocks
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- The pooled value of every sample at every channel, from the six arrays as the pass finds them. -/
def pooledArr (c : Dev nD) : S60000x128.Idx → EReal := fun i =>
  Cert.Dense.pooled (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (i 0) (i 1)

/-- If a block's positions and features are those of sample p, and its four small inputs are the whole weight matrices and
    rows, what the pass stores at (q, d) is the pooled value of sample p at channel d. -/
theorem stored_eq_pooled (x0 : FVec Ideal S600x16x3 .f32) (x1 : FVec Ideal S600x16x64 .f32) (x2 : FVec Ideal S3x128 .f32)
    (x3 : FVec Ideal S64x128 .f32) (x4 x5 : FVec Ideal S1x128 .f32)
    (X : FVec Ideal Cert.Dense.SX .f32) (Fe : FVec Ideal Cert.Dense.SFe .f32) (Wx : FVec Ideal Cert.Dense.SWx .f32)
    (Wf : FVec Ideal Cert.Dense.SWf .f32) (sc sh : FVec Ideal Cert.Dense.SRow .f32)
    (q : Fin 600) (p : Fin 60000) (d : Fin 128)
    (h0 : ∀ (k : Fin 16) (cc : Fin 3), x0 (ix3 q k cc) = X (ix3 p k cc))
    (h1 : ∀ (k : Fin 16) (cc : Fin 64), x1 (ix3 q k cc) = Fe (ix3 p k cc))
    (h2 : x2 = Wx) (h3 : x3 = Wf) (h4 : x4 = sc) (h5 : x5 = sh) :
    k1_pay1 (F := Ideal) x0 x1 x2 x3 x4 x5 (ix2 q d) = Cert.Dense.pooled X Fe Wx Wf sc sh p d := by
  subst h2 h3 h4 h5
  rw [pay_entry]
  unfold Cert.Dense.pooled Cert.Dense.pre
  simp only [h0, h1]

/-- What the pass stores at entry j of point t's block is the pooled array at row 600·t + j₀, channel j₁. -/
theorem stored_entry (c : Dev nD) (t : Fin cfg1.N) (j : S600x128.Idx) (i : S60000x128.Idx)
    (hi0 : (i 0).val = t.val * 600 + (j 0).val) (hi1 : (i 1).val = (j 1).val) :
    k1_pay1 (F := Ideal) (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) j
      = pooledArr V c i := by
  obtain ⟨q, d, rfl⟩ : ∃ (q : Fin 600) (d : Fin 128), j = ix2 q d := ⟨j 0, j 1, eq_ix2 j⟩
  obtain ⟨p, d', rfl⟩ : ∃ (p : Fin 60000) (d' : Fin 128), i = ix2 p d' := ⟨i 0, i 1, eq_ix2 i⟩
  have hp : p.val = t.val * 600 + q.val := hi0
  obtain rfl : d' = d := Fin.ext hi1
  exact stored_eq_pooled (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) q p d'
    (fun k cc => pos_blk_apply V c t q k cc p hp) (fun k cc => feat_blk_apply V c t q k cc p hp)
    (wpos_blk_eq V c t) (wfeat_blk_eq V c t) (scale_blk_eq V c t) (shift_blk_eq V c t)

/-- The block point t writes back is point t's block of the pooled array. -/
theorem flushed_eq (c : Dev nD) (t : Fin cfg1.N) :
    (dat1 (F := Ideal) V c).flushed 6 t = ((cfg1.win 6).blk t).view.read (Elt Ideal) (pooledArr V c) := by
  obtain ⟨-, -, -, -, -, -, -, -, -, -, -, -, -, -, e0, e1⟩ := idx_facts t
  show (cfg1.win 6).cut (grid1.coords t) ((dat1 (F := Ideal) V c).after 6 t) = _
  rw [after1_6]
  unfold out1_6
  rw [View.canon_unit_zero zero2]
  simp only [View.ld_unit_zero (S := S600x16x3) zero3, View.ld_unit_zero (S := S600x16x64) zero3,
    View.ld_unit_zero (S := S3x128) zero2, View.ld_unit_zero (S := S64x128) zero2, View.ld_unit_zero (S := S1x128) zero2]
  funext j
  refine stored_entry V c t j (((cfg1.win 6).blk t).view.emb j) ?_ ?_
  · show win1_6.index t (0 : Fin 2) * 600 + 1 * (j 0).val = t.val * 600 + (j 0).val
    rw [e0]; omega
  · show win1_6.index t (1 : Fin 2) * 128 + 1 * (j 1).val = (j 1).val
    rw [e1]; omega

/-- A row of the output is in point t's block iff each coordinate is in the block's range on its axis. -/
theorem mem_blk (t : Fin cfg1.N) (i : S60000x128.Idx) :
    i ∈ ((cfg1.win 6).blk t).view.set ↔ ∀ a : Fin 2, win1_6.index t a * S600x128.size a ≤ (i a).val ∧ (i a).val < win1_6.index t a * S600x128.size a + S600x128.size a := by
  show i ∈ ((View.whole main_v30).slice (win1_6.rect t)).set ↔ _
  rw [View.set_slice_whole, Rect.mem_set_unit]
  exact Iff.rfl

/-- Every entry of the output is written back by some point: row r by point r / 600. -/
theorem covered (i : S60000x128.Idx) :
    ∃ t : Fin cfg1.N, (cfg1.win 6).flush t = true ∧ i ∈ ((cfg1.win 6).blk t).view.set := by
  have hi0 : (i 0).val < 60000 := idx2_lt0 i
  have hi1 : (i 1).val < 128 := (i 1).isLt
  have hN : cfg1.N = 100 := N_1
  refine ⟨⟨(i 0).val / 600, by rw [hN]; omega⟩, flush1_6 _, ?_⟩
  obtain ⟨-, -, -, -, -, -, -, -, -, -, -, -, -, -, e0, e1⟩ := idx_facts ⟨(i 0).val / 600, by rw [hN]; omega⟩
  rw [mem_blk]
  intro a
  match a with
  | ⟨0, _⟩ =>
    show win1_6.index _ (0 : Fin 2) * 600 ≤ (i 0).val ∧ (i 0).val < win1_6.index _ (0 : Fin 2) * 600 + 600
    rw [e0]
    show (i 0).val / 600 * 600 ≤ (i 0).val ∧ (i 0).val < (i 0).val / 600 * 600 + 600
    omega
  | ⟨1, _⟩ =>
    show win1_6.index _ (1 : Fin 2) * 128 ≤ (i 1).val ∧ (i 1).val < win1_6.index _ (1 : Fin 2) * 128 + 128
    rw [e1]
    omega

/-- The output array after the pass is the pooled array. -/
theorem pooled_array (c : Dev nD) : (dat1 (F := Ideal) V c).arrAt 6 cfg1.N = pooledArr V c :=
  (dat1 (F := Ideal) V c).arrAt_eq_of_cover 6 (pooledArr V c) (fun t _ => flushed_eq V c t) (covered)

/-- Entry (p, d) of the output array after the pass: the pooled value of sample p at channel d. -/
theorem pooled_entry (c : Dev nD) (p : Fin 60000) (d : Fin 128) :
    (Gen.dat1 (F := Ideal) V c).arrAt 6 cfg1.N (ix2 p d)
      = Cert.Dense.pooled (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) p d :=
  congrFun (pooled_array V c) (ix2 p d)

end Cert.KernelIdeal.PoolValue

end
-- ==== Proof.LibSoftLayout.lean ====
/-
  Matrices and vectors read at an entry, for any extents: a block of consecutive rows of a matrix; a transposed
  matrix; a row [1, b] laid along every row of [a, b]; a vector stood up as a row [1, b] or as a column [a, 1] by a
  change of shape; a matrix [a, b] read as [1, a, b] and back; the sum of a matrix's rows' entries (along the columns)
  and of its columns' entries (along the rows), and a row's maximum, each as a sum or a fold over one coordinate.
-/
import Idealize.ShloMosaic.Lib.Pipeline.Value
import Idealize.ShloMosaic.Lib.ValueIdx
import Idealize.ShloMosaic.PureOps.Ideal.Laws

noncomputable section

open scoped BigOperators

namespace SoftLayout

open Idealize.ShloMosaic Idealize.ShloMosaic.ValueIdx

variable {α : Type}

/-- Rows `off`, `off + 1`, … of a matrix: entry (r, q) of the piece is entry (off + r, q). -/
theorem rows_apply {n m c off : Nat} (h : (⟨2, ![n, c]⟩ : Shape).Slices ![off, 0] ⟨2, ![m, c]⟩)
    (v : (⟨2, ![n, c]⟩ : Shape).Idx → α) (r : Fin m) (q : Fin c) (hr : off + r.val < n) :
    extractStridedSlice ⟨2, ![m, c]⟩ ![off, 0] v h (ix2 r q) = v (ix2 ⟨off + r.val, hr⟩ q) :=
  extractStridedSlice_apply ![off, 0] v h (ix2 r q) (ix2 ⟨off + r.val, hr⟩ q) (fun a => match a with
    | ⟨0, _⟩ => rfl
    | ⟨1, _⟩ => (Nat.zero_add _).symm)

/-- A transposed matrix: entry (q, p) is entry (p, q). -/
theorem transpose_apply {a b : Nat} (h : (⟨2, ![a, b]⟩ : Shape).Transposes [1, 0] ⟨2, ![b, a]⟩)
    (v : (⟨2, ![a, b]⟩ : Shape).Idx → α) (q : Fin b) (p : Fin a) :
    transpose ⟨2, ![b, a]⟩ [1, 0] v h (ix2 q p) = v (ix2 p q) :=
  Idealize.ShloMosaic.transpose_apply [1, 0] v h (ix2 q p) (ix2 p q) (fun c => match c with
    | ⟨0, _⟩ => rfl
    | ⟨1, _⟩ => rfl)

/-- A row [1, b] laid along every row of [a, b]: entry (p, q) is entry (0, q). -/
theorem row_to_apply {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] stood up as a row [1, b] by a change of shape: entry (0, q) is entry q. -/
theorem vec_row_cast_apply {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz : z.val = 0 := by omega
  rw [hz]; omega

/-- A vector [a] stood up as a column [a, 1] by a change of shape: entry (p, 0) is entry p. -/
theorem vec_col_cast_apply {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- [1, a, b] read as the matrix [a, b]: entry (p, q) is entry (0, p, q). -/
theorem drop_lead_apply {a b : Nat} (h : (⟨3, ![1, a, b]⟩ : Shape).ShapeCasts ⟨2, ![a, b]⟩)
    (v : (⟨3, ![1, a, b]⟩ : Shape).Idx → α) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_two, Shape.rowMajor_val_three]
  show (0 * a + p.val) * b + q.val = p.val * b + q.val
  rw [Nat.zero_mul, Nat.zero_add]

/-- The matrix [a, b] read as [1, a, b]: entry (0, p, q) is entry (p, q). -/
theorem add_lead_apply {a b : Nat} (h : (⟨2, ![a, b]⟩ : Shape).ShapeCasts ⟨3, ![1, a, b]⟩)
    (v : (⟨2, ![a, b]⟩ : Shape).Idx → α) (z : Fin 1) (p : Fin a) (q : Fin b) :
    shapeCast ⟨3, ![1, a, b]⟩ v h (ix3 z p q) = v (ix2 p q) := by
  refine shapeCast_apply v h (ix3 z p q) (ix2 p q) ?_
  rw [Shape.rowMajor_val_two, Shape.rowMajor_val_three]
  show p.val * b + q.val = (z.val * a + p.val) * b + q.val
  have := z.isLt
  have hz : z.val = 0 := by omega
  rw [hz, Nat.zero_mul, Nat.zero_add]

/-- The index over row `p` with column coordinate `q` inserted. -/
theorem lift_row {a b : Nat} (h : (⟨2, ![a, b]⟩ : Shape).Reduces [1] ⟨1, ![a]⟩) (p : Fin a) (q : Fin b) :
    h.lift (ix1 p) q = ix2 p q :=
  funext fun c => match c with
    | ⟨0, _⟩ => Fin.ext rfl
    | ⟨1, _⟩ => Fin.ext rfl

/-- The index over column `q` with row coordinate `p` inserted. -/
theorem lift_col {a b : Nat} (h : (⟨2, ![a, b]⟩ : Shape).Reduces [0] ⟨1, ![b]⟩) (q : Fin b) (p : Fin a) :
    h.lift (ix1 q) p = ix2 p q :=
  funext fun c => match c with
    | ⟨0, _⟩ => Fin.ext rfl
    | ⟨1, _⟩ => Fin.ext rfl

/-- The sums of a matrix's rows: entry p is the sum over q of entry (p, q). -/
theorem rowsum_apply {a b : Nat} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ q : Fin b, v (ix2 p q) := by
  refine (Ideal.multiReduction_add_single v 0x00000000#32 h hφ hacc (ix1 p)).trans ?_
  exact Finset.sum_congr rfl fun q _ => congrArg v (lift_row h p q)

/-- The sums of a matrix's columns: entry q is the sum over p of entry (p, q). -/
theorem colsum_apply {a b : Nat} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ p : Fin a, v (ix2 p q) := by
  refine (Ideal.multiReduction_add_single v 0x00000000#32 h hφ hacc (ix1 q)).trans ?_
  exact Finset.sum_congr rfl fun p _ => congrArg v (lift_col h q p)

/-- The maxima of a matrix's rows, from -∞: entry p is the fold of `max` over q of entry (p, q). -/
theorem rowmax_apply {a b : Nat} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  exact congrArg (fun f => (Finset.univ : Finset (Fin b)).fold max (Ideal.ofBits .f32 0xFF800000#32) f)
    (funext fun q => congrArg v (lift_row h p q))

end SoftLayout

end
-- ==== Proof.StatsPoint.lean ====
/-
  One grid point of the statistics pass, read entry by entry on the extended reals.

  A point holds a block of 600 samples: positions [600,16,3], features [600,16,64], and the two weight matrices
  [3,128] and [64,128]. The block is flattened to 9600 = 600·16 rows (row r is sample r / 16, neighbour r % 16), each
  flat matrix is multiplied by its weight matrix into a zero accumulator, and the two products are added: the dense
  value at (r, d) is the sum over the 3 position coordinates plus the sum over the 64 features. The point then adds,
  per channel d, the column sum of the dense values to the running sum it found, and the column sum of their squares to
  the running sum of squares. Rounding a factor to a shorter format is the identity on the extended reals.
-/
import proofs.«107821_j74440373174612_2_alg».proof.Proof.Gen.KernelIdeal.Skeleton
import proofs.«107821_j74440373174612_2_alg».proof.Proof.DenseSpec
import proofs.«107821_j74440373174612_2_alg».proof.Proof.LibSoftLayout
import proofs.«107821_j74440373174612_2_alg».proof.Proof.LibRowOps

noncomputable section

open scoped BigOperators

namespace Cert.KernelIdeal.StatsValue

open Idealize.ShloMosaic Idealize.ShloMosaic.ValueIdx
open Cert.KernelIdeal Cert.KernelIdeal.Gen

variable {α : Type}

/-- A block [a, b, c] flattened to rows: row r = p·b + k of the flat matrix [n, c] is row (p, k) of the block. -/
theorem flat_apply {a b c n : Nat} (h : (⟨3, ![a, b, c]⟩ : Shape).ShapeCasts ⟨2, ![n, c]⟩)
    (v : (⟨3, ![a, b, c]⟩ : Shape).Idx → α) (r : Fin n) (q : Fin c) (p : Fin a) (k : Fin b)
    (hr : r.val = p.val * b + k.val) :
    shapeCast ⟨2, ![n, c]⟩ v h (ix2 r q) = v (ix3 p k q) := by
  refine shapeCast_apply v h (ix2 r q) (ix3 p k q) ?_
  rw [Shape.rowMajor_val_two, Shape.rowMajor_val_three]
  show (p.val * b + k.val) * c + q.val = r.val * c + q.val
  rw [hr]

/-- The sample a flattened row belongs to, within its block of 600. -/
def smp (r : Fin 9600) : Fin 600 := ⟨r.val / 16, by have := r.isLt; omega⟩
/-- The neighbour a flattened row is. -/
def nbr (r : Fin 9600) : Fin 16 := ⟨r.val % 16, by omega⟩

theorem row_split (r : Fin 9600) : r.val = (smp r).val * 16 + (nbr r).val := by
  show r.val = r.val / 16 * 16 + r.val % 16
  omega

theorem dims3 : dot_S9600x3_S3x128_S9600x128_1_0_0_1_n_n = DotDims.plain 9600 3 128 := rfl
theorem dims64 : dot_S9600x64_S64x128_S9600x128_1_0_0_1_n_n = DotDims.plain 9600 64 128 := rfl

/-- A flattened, shortened block of positions at (r, q): the block at (sample, neighbour, q). -/
theorem flat_pos (x0 : Vec Ideal S600x16x3 .f32) (r : Fin 9600) (q : Fin 3) :
    (truncf .bf16 (shapeCast S9600x3 (shapeCast S600x16x3 x0 shapeCasts_S600x16x3_S600x16x3) shapeCasts_S600x16x3_S9600x3)
        bitsLt_bf16_f32 : FVec Ideal S9600x3 .bf16) (ix2 r q)
      = x0 (ix3 (smp r) (nbr r) q) :=
  (truncf_apply _ bitsLt_bf16_f32 (ix2 r q)).trans
    ((flat_apply shapeCasts_S600x16x3_S9600x3 (shapeCast S600x16x3 x0 shapeCasts_S600x16x3_S600x16x3) r q (smp r) (nbr r)
        (row_split r)).trans
      (congrFun (shapeCast_self x0 shapeCasts_S600x16x3_S600x16x3) (ix3 (smp r) (nbr r) q)))

/-- A flattened, shortened block of features at (r, q): the block at (sample, neighbour, q). -/
theorem flat_feat (x1 : Vec Ideal S600x16x64 .f32) (r : Fin 9600) (q : Fin 64) :
    (truncf .bf16 (shapeCast S9600x64 (shapeCast S600x16x64 x1 shapeCasts_S600x16x64_S600x16x64) shapeCasts_S600x16x64_S9600x64)
        bitsLt_bf16_f32 : FVec Ideal S9600x64 .bf16) (ix2 r q)
      = x1 (ix3 (smp r) (nbr r) q) :=
  (truncf_apply _ bitsLt_bf16_f32 (ix2 r q)).trans
    ((flat_apply shapeCasts_S600x16x64_S9600x64 (shapeCast S600x16x64 x1 shapeCasts_S600x16x64_S600x16x64) r q (smp r) (nbr r)
        (row_split r)).trans
      (congrFun (shapeCast_self x1 shapeCasts_S600x16x64_S600x16x64) (ix3 (smp r) (nbr r) q)))

/-- A shortened weight matrix is the weight matrix. -/
theorem short_wx (x2 : Vec Ideal S3x128 .f32) (q : Fin 3) (d : Fin 128) :
    (truncf .bf16 (shapeCast S3x128 x2 shapeCasts_S3x128_S3x128) bitsLt_bf16_f32 : FVec Ideal S3x128 .bf16) (ix2 q d)
      = x2 (ix2 q d) :=
  (truncf_apply _ bitsLt_bf16_f32 (ix2 q d)).trans (congrFun (shapeCast_self x2 shapeCasts_S3x128_S3x128) (ix2 q d))

theorem short_wf (x3 : Vec Ideal S64x128 .f32) (q : Fin 64) (d : Fin 128) :
    (truncf .bf16 (shapeCast S64x128 x3 shapeCasts_S64x128_S64x128) bitsLt_bf16_f32 : FVec Ideal S64x128 .bf16) (ix2 q d)
      = x3 (ix2 q d) :=
  (truncf_apply _ bitsLt_bf16_f32 (ix2 q d)).trans (congrFun (shapeCast_self x3 shapeCasts_S64x128_S64x128) (ix2 q d))

/-- The dense value of a block at flattened row r and channel d: the positions of (sample, neighbour) against the
    first weight matrix's column d, plus the features against the second's. -/
theorem dense_entry (x0 : Vec Ideal S600x16x3 .f32) (x1 : Vec Ideal S600x16x64 .f32) (x2 : Vec Ideal S3x128 .f32)
    (x3 : Vec Ideal S64x128 .f32) (r : Fin 9600) (d : Fin 128) :
    k0_pay4 x0 x1 x2 x3 (ix2 r d)
      = (∑ c : Fin 3, x0 (ix3 (smp r) (nbr r) c) * x2 (ix2 c d))
        + ∑ c : Fin 64, x1 (ix3 (smp r) (nbr r) c) * x3 (ix2 c d) := by
  unfold k0_pay4
  refine (addf_apply _ _ _).trans ?_
  refine congrArg₂ (· + ·) ?_ ?_
  · refine (RowOps.matmul_apply dot_S9600x3_S3x128_S9600x128_1_0_0_1_n_n dims3 none _ _ r d).trans ?_
    exact Finset.sum_congr rfl fun c _ => congrArg₂ (· * ·) (flat_pos x0 r c) (short_wx x2 c d)
  · refine (RowOps.matmul_apply dot_S9600x64_S64x128_S9600x128_1_0_0_1_n_n dims64 none _ _ r d).trans ?_
    exact Finset.sum_congr rfl fun c _ => congrArg₂ (· * ·) (flat_feat x1 r c) (short_wf x3 c d)

/-- A vector [128] stood up as [1, 1, 128]: entry (0, 0, d) is entry d. -/
theorem stand_apply (v : FVec Ideal S128 .f32) (d : Fin 128) :
    shapeCast S1x1x128 (shapeCast S1x128 v shapeCasts_S128_S1x128) shapeCasts_S1x128_S1x1x128 (ix3 (0 : Fin 1) (0 : Fin 1) d)
      = v (ix1 d) :=
  (SoftLayout.add_lead_apply shapeCasts_S1x128_S1x1x128 _ (0 : Fin 1) (0 : Fin 1) d).trans
    (SoftLayout.vec_row_cast_apply shapeCasts_S128_S1x128 v (0 : Fin 1) d)

/-- The running sum after a point: what it found plus the column sum of the block's dense values. -/
theorem sum_step (x0 : Vec Ideal S600x16x3 .f32) (x1 : Vec Ideal S600x16x64 .f32) (x2 : Vec Ideal S3x128 .f32)
    (x3 : Vec Ideal S64x128 .f32) (acc : Vec Ideal S1x1x128 .f32) (d : Fin 128) :
    k0_pay5 x0 x1 x2 x3 acc (ix3 (0 : Fin 1) (0 : Fin 1) d)
      = acc (ix3 (0 : Fin 1) (0 : Fin 1) d) + ∑ r : Fin 9600, k0_pay4 x0 x1 x2 x3 (ix2 r d) := by
  unfold k0_pay5
  try dsimp only
  refine (addf_apply _ _ _).trans ?_
  refine congrArg₂ (· + ·) (congrFun (shapeCast_self acc _) _) ?_
  refine (stand_apply _ d).trans ?_
  exact SoftLayout.colsum_apply (k0_pay4 x0 x1 x2 x3) reduces_S9600x128_S128 (.inl rfl) rfl d

/-- The column sums of the squared dense values. -/
theorem sq_cols (x0 : Vec Ideal S600x16x3 .f32) (x1 : Vec Ideal S600x16x64 .f32) (x2 : Vec Ideal S3x128 .f32)
    (x3 : Vec Ideal S64x128 .f32) (d : Fin 128) :
    k0_pay7 x0 x1 x2 x3 (ix1 d)
      = ∑ r : Fin 9600, k0_pay4 x0 x1 x2 x3 (ix2 r d) * k0_pay4 x0 x1 x2 x3 (ix2 r d) := by
  unfold k0_pay7
  try dsimp only
  refine (SoftLayout.colsum_apply (mulf (k0_pay4 x0 x1 x2 x3) (k0_pay4 x0 x1 x2 x3)) reduces_S9600x128_S128 (.inl rfl) rfl d).trans ?_
  exact Finset.sum_congr rfl fun r _ => mulf_apply _ _ _

/-- The running sum of squares after a point: what it found plus the column sums handed to it. -/
theorem sq_step (acc : FVec Ideal S1x1x128 .f32) (cols : FVec Ideal S128 .f32) (d : Fin 128) :
    k0_pay1 acc cols (ix3 (0 : Fin 1) (0 : Fin 1) d) = acc (ix3 (0 : Fin 1) (0 : Fin 1) d) + cols (ix1 d) := by
  unfold k0_pay1
  try dsimp only
  refine (addf_apply _ _ _).trans ?_
  exact congrArg (acc (ix3 (0 : Fin 1) (0 : Fin 1) d) + ·) (stand_apply cols d)

/-- The accumulator handed on unchanged (a change of shape onto the same shape). -/
theorem carry_eq {F : FTy → Type} [FloatOps F] (acc : Vec F S1x1x128 .f32) : k0_pay6 acc = acc :=
  shapeCast_self acc _

/-- The block a half's first point writes over the running sum: zero at every entry. -/
theorem zero_sum (j : S1x1x128.Idx) : k0_pay2 (F := Ideal) j = 0 :=
  Ideal.ofBits_zero_f32

/-- The block a half's first point writes over the running sum of squares: zero at every entry. -/
theorem zero_sq (j : S1x1x128.Idx) : k0_pay3 (F := Ideal) j = 0 :=
  Ideal.ofBits_zero_f32

end Cert.KernelIdeal.StatsValue

end
-- ==== Proof.StatsCases.lean ====
/-
  What one grid point of the statistics pass leaves in its two running blocks [1,1,128] — the per-channel sum and the
  per-channel sum of squares — in each of its two cases, for any float values.

  At the first point of a half both blocks are first overwritten with zeros and then read back, so the point leaves
  (zero block + this block's column sums) and (zero block + this block's column sums of squares). At every other point
  it reads what the point before left and leaves that plus this block's contribution. Each block is written last by one
  store through the whole block, so what the store carried is what the block holds.
-/
import proofs.«107821_j74440373174612_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.StatsValue

open Cert.KernelIdeal Cert.KernelIdeal.Gen

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- The first point of a half leaves, as running sum, the zero block plus its block's column sums. -/
theorem first_sum (c : Dev nD) (i : grid0.Coords) (arg2 : Memref sig .tc .vmem S600x16x3 .f32) (harg2 : arg2.IsWhole) (arg3 : Memref sig .tc .vmem S600x16x64 .f32) (harg3 : arg3.IsWhole) (arg4 : Memref sig .tc .vmem S3x128 .f32) (harg4 : arg4.IsWhole) (arg5 : Memref sig .tc .vmem S64x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S600x16x3 .f32) (x1 : Vec F S600x16x64 .f32) (x2 : Vec F S3x128 .f32) (x3 : Vec F S64x128 .f32) :
    out0_A_4 c i arg2 harg2 arg3 harg3 arg4 harg4 arg5 harg5 arg6 harg6 arg7 harg7 hc0 x0 x1 x2 x3 = k0_pay5 x0 x1 x2 x3 (k0_pay2 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1x1x128) zero3, View.readCov_unit_zero (S := S1x1x128) _ zero3]
  simp only [View.readAt_eq_ld, harg2.read_unread, harg3.read_unread, harg4.read_unread, harg5.read_unread, harg6.read_unread, harg7.read_unread, View.ld_unit_zero (S := S600x16x3) zero3, View.ld_unit_zero (S := S600x16x64) zero3, View.ld_unit_zero (S := S3x128) zero2, View.ld_unit_zero (S := S64x128) zero2, View.ld_unit_zero (S := S1x1x128) zero3]

/-- The first point of a half leaves, as running sum of squares, the zero block plus its block's column sums of squares. -/
theorem first_sq (c : Dev nD) (i : grid0.Coords) (arg2 : Memref sig .tc .vmem S600x16x3 .f32) (harg2 : arg2.IsWhole) (arg3 : Memref sig .tc .vmem S600x16x64 .f32) (harg3 : arg3.IsWhole) (arg4 : Memref sig .tc .vmem S3x128 .f32) (harg4 : arg4.IsWhole) (arg5 : Memref sig .tc .vmem S64x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i)
    (x0 : Vec F S600x16x3 .f32) (x1 : Vec F S600x16x64 .f32) (x2 : Vec F S3x128 .f32) (x3 : Vec F S64x128 .f32) :
    out0_A_5 c i arg2 harg2 arg3 harg3 arg4 harg4 arg5 harg5 arg6 harg6 arg7 harg7 hc0 x0 x1 x2 x3 = k0_pay1 (k0_pay6 (k0_pay3 (F := F))) (k0_pay7 x0 x1 x2 x3) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x1x128) zero3, View.readCov_unit_zero (S := S1x1x128) _ zero3]
  simp only [View.readAt_eq_ld, harg2.read_unread, harg3.read_unread, harg4.read_unread, harg5.read_unread, harg6.read_unread, harg7.read_unread, View.ld_unit_zero (S := S600x16x3) zero3, View.ld_unit_zero (S := S600x16x64) zero3, View.ld_unit_zero (S := S3x128) zero2, View.ld_unit_zero (S := S64x128) zero2, View.ld_unit_zero (S := S1x1x128) zero3]

/-- A later point leaves, as running sum, what it found plus its block's column sums. -/
theorem next_sum (c : Dev nD) (i : grid0.Coords) (arg2 : Memref sig .tc .vmem S600x16x3 .f32) (harg2 : arg2.IsWhole) (arg3 : Memref sig .tc .vmem S600x16x64 .f32) (harg3 : arg3.IsWhole) (arg4 : Memref sig .tc .vmem S3x128 .f32) (harg4 : arg4.IsWhole) (arg5 : Memref sig .tc .vmem S64x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S600x16x3 .f32) (x1 : Vec F S600x16x64 .f32) (x2 : Vec F S3x128 .f32) (x3 : Vec F S64x128 .f32) (xo4 xo5 : Vec F S1x1x128 .f32) :
    out0_B_4 c i arg2 harg2 arg3 harg3 arg4 harg4 arg5 harg5 arg6 harg6 arg7 harg7 hc0 x0 x1 x2 x3 xo4 xo5 = k0_pay5 x0 x1 x2 x3 xo4 := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  sl_unfold_words
  rw [View.canon_unit_zero zero3]
  simp only [View.readAt_eq_ld, harg2.read_unread, harg3.read_unread, harg4.read_unread, harg5.read_unread, harg6.read_unread, harg7.read_unread, View.ld_unit_zero (S := S600x16x3) zero3, View.ld_unit_zero (S := S600x16x64) zero3, View.ld_unit_zero (S := S3x128) zero2, View.ld_unit_zero (S := S64x128) zero2, View.ld_unit_zero (S := S1x1x128) zero3]

/-- A later point leaves, as running sum of squares, what it found plus its block's column sums of squares. -/
theorem next_sq (c : Dev nD) (i : grid0.Coords) (arg2 : Memref sig .tc .vmem S600x16x3 .f32) (harg2 : arg2.IsWhole) (arg3 : Memref sig .tc .vmem S600x16x64 .f32) (harg3 : arg3.IsWhole) (arg4 : Memref sig .tc .vmem S3x128 .f32) (harg4 : arg4.IsWhole) (arg5 : Memref sig .tc .vmem S64x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i)
    (x0 : Vec F S600x16x3 .f32) (x1 : Vec F S600x16x64 .f32) (x2 : Vec F S3x128 .f32) (x3 : Vec F S64x128 .f32) (xo4 xo5 : Vec F S1x1x128 .f32) :
    out0_B_5 c i arg2 harg2 arg3 harg3 arg4 harg4 arg5 harg5 arg6 harg6 arg7 harg7 hc0 x0 x1 x2 x3 xo4 xo5 = k0_pay1 (k0_pay6 xo5) (k0_pay7 x0 x1 x2 x3) := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  rw [View.canon_unit_zero zero3]
  simp only [View.readAt_eq_ld, harg2.read_unread, harg3.read_unread, harg4.read_unread, harg5.read_unread, harg6.read_unread, harg7.read_unread, View.ld_unit_zero (S := S600x16x3) zero3, View.ld_unit_zero (S := S600x16x64) zero3, View.ld_unit_zero (S := S3x128) zero2, View.ld_unit_zero (S := S64x128) zero2, View.ld_unit_zero (S := S1x1x128) zero3]

end Cert.KernelIdeal.StatsValue

end
-- ==== Proof.StatsBlocks.lean ====
/-
  The blocks one grid point of the statistics pass is handed, as entries of the arrays the pass starts from.

  Point t (of 100, in order) is handed samples 600 t … 600 t + 599 of the positions [60000,16,3] and of the features
  [60000,16,64], and the two weight matrices whole. Its two running blocks sit in row t / 50 of the result arrays
  [2,1,128].
-/
import proofs.«107821_j74440373174612_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen

variable {F : FTy → Type} [FloatOps F]
variable (V : (c : Dev nD) → (b : Ref sig .tc) → Buf (Elt F) ((c : Thread nD τ).loc b))

/-- Where each window's block sits at point t, on every axis. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 50 ∧ win0_4.index t (1 : Fin 3) = 0 ∧ win0_4.index t (2 : Fin 3) = 0
    ∧ win0_5.index t (0 : Fin 3) = t.val / 50 ∧ win0_5.index t (1 : Fin 3) = 0 ∧ win0_5.index t (2 : Fin 3) = 0 :=
  (by decide +kernel : ∀ t : Fin grid0.N, _)

/-- The positions handed to point t at (p, k, q): the array at sample 600 t + p. -/
theorem pos_block (c : Dev nD) (t : Fin cfg0.N) (p : Fin 600) (k : Fin 16) (q : Fin 3) (i : S60000x16x3.Idx)
    (h0 : (i 0).val = t.val * 600 + p.val) (h1 : (i 1).val = k.val) (h2 : (i 2).val = q.val) :
    (iblk0 V c 0 t : Vec F S600x16x3 .f32) (ix3 p k q)
      = (V c (Pipeline.arrRef spec0 0) : S60000x16x3.Idx → Elt F .f32) i := by
  obtain ⟨e0, e1, e2, -⟩ := index_facts t
  unfold iblk0
  show (V c (Pipeline.arrRef spec0 0) : S60000x16x3.Idx → Elt F .f32) (((cfg0.win 0).blk t).view.emb (ix3 p k q)) = _
  refine congrArg (V c (Pipeline.arrRef spec0 0) : S60000x16x3.Idx → Elt F .f32) (funext fun a => Fin.ext ?_)
  match a with
  | ⟨0, _⟩ => show win0_0.index t (0 : Fin 3) * 600 + 1 * p.val = (i 0).val; rw [e0, h0]; omega
  | ⟨1, _⟩ => show win0_0.index t (1 : Fin 3) * 16 + 1 * k.val = (i 1).val; rw [e1, h1]; omega
  | ⟨2, _⟩ => show win0_0.index t (2 : Fin 3) * 3 + 1 * q.val = (i 2).val; rw [e2, h2]; omega

/-- The features handed to point t at (p, k, q): the array at sample 600 t + p. -/
theorem feat_block (c : Dev nD) (t : Fin cfg0.N) (p : Fin 600) (k : Fin 16) (q : Fin 64) (i : S60000x16x64.Idx)
    (h0 : (i 0).val = t.val * 600 + p.val) (h1 : (i 1).val = k.val) (h2 : (i 2).val = q.val) :
    (iblk0 V c 1 t : Vec F S600x16x64 .f32) (ix3 p k q)
      = (V c (Pipeline.arrRef spec0 1) : S60000x16x64.Idx → Elt F .f32) i := by
  obtain ⟨-, -, -, e0, e1, e2, -⟩ := index_facts t
  unfold iblk0
  show (V c (Pipeline.arrRef spec0 1) : S60000x16x64.Idx → Elt F .f32) (((cfg0.win 1).blk t).view.emb (ix3 p k q)) = _
  refine congrArg (V c (Pipeline.arrRef spec0 1) : S60000x16x64.Idx → Elt F .f32) (funext fun a => Fin.ext ?_)
  match a with
  | ⟨0, _⟩ => show win0_1.index t (0 : Fin 3) * 600 + 1 * p.val = (i 0).val; rw [e0, h0]; omega
  | ⟨1, _⟩ => show win0_1.index t (1 : Fin 3) * 16 + 1 * k.val = (i 1).val; rw [e1, h1]; omega
  | ⟨2, _⟩ => show win0_1.index t (2 : Fin 3) * 64 + 1 * q.val = (i 2).val; rw [e2, h2]; omega

/-- The first weight matrix handed to point t: the whole array. -/
theorem wx_block (c : Dev nD) (t : Fin cfg0.N) (q : Fin 3) (d : Fin 128) :
    (iblk0 V c 2 t : Vec F S3x128 .f32) (ix2 q d) = (V c (Pipeline.arrRef spec0 2) : S3x128.Idx → Elt F .f32) (ix2 q d) := by
  obtain ⟨-, -, -, -, -, -, e0, e1, -⟩ := index_facts t
  unfold iblk0
  show (V c (Pipeline.arrRef spec0 2) : S3x128.Idx → Elt F .f32) (((cfg0.win 2).blk t).view.emb (ix2 q d)) = _
  refine congrArg (V c (Pipeline.arrRef spec0 2) : S3x128.Idx → Elt F .f32) (funext fun a => Fin.ext ?_)
  match a with
  | ⟨0, _⟩ => show win0_2.index t (0 : Fin 2) * 3 + 1 * q.val = q.val; rw [e0]; omega
  | ⟨1, _⟩ => show win0_2.index t (1 : Fin 2) * 128 + 1 * d.val = d.val; rw [e1]; omega

/-- The second weight matrix handed to point t: the whole array. -/
theorem wf_block (c : Dev nD) (t : Fin cfg0.N) (q : Fin 64) (d : Fin 128) :
    (iblk0 V c 3 t : Vec F S64x128 .f32) (ix2 q d) = (V c (Pipeline.arrRef spec0 3) : S64x128.Idx → Elt F .f32) (ix2 q d) := by
  obtain ⟨-, -, -, -, -, -, -, -, e0, e1, -⟩ := index_facts t
  unfold iblk0
  show (V c (Pipeline.arrRef spec0 3) : S64x128.Idx → Elt F .f32) (((cfg0.win 3).blk t).view.emb (ix2 q d)) = _
  refine congrArg (V c (Pipeline.arrRef spec0 3) : S64x128.Idx → Elt F .f32) (funext fun a => Fin.ext ?_)
  match a with
  | ⟨0, _⟩ => show win0_3.index t (0 : Fin 2) * 64 + 1 * q.val = q.val; rw [e0]; omega
  | ⟨1, _⟩ => show win0_3.index t (1 : Fin 2) * 128 + 1 * d.val = d.val; rw [e1]; omega

end Cert.KernelIdeal.StatsValue

end
-- ==== Proof.StatsSteps.lean ====
/-
  One grid point of the statistics pass, as a step on channel d of its two running blocks.

  Point t (of 100, in order) works on sample block t: its flattened row r is sample 600 t + r / 16, neighbour r % 16, so
  the dense values it computes are the dense layer's at the rows of block t. The first point of a half (t a multiple
  of 50) starts both running blocks from zero and so leaves the block's column sum, and the column sum of the squares;
  every other point leaves what the point before left plus these. Of addition on the extended reals only 0 + x = x is used.
-/
import proofs.«107821_j74440373174612_2_alg».proof.Proof.StatsPoint
import proofs.«107821_j74440373174612_2_alg».proof.Proof.StatsCases
import proofs.«107821_j74440373174612_2_alg».proof.Proof.StatsBlocks

noncomputable section

open scoped BigOperators

open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen Cert.Dense

variable (V : (c : Dev nD) → (b : Ref sig .tc) → Buf (Elt Ideal) ((c : Thread nD τ).loc b))

/-- The four arrays the pass starts from, as functions of their indices. -/
abbrev posArr (c : Dev nD) : FVec Ideal SX .f32 := V c (Pipeline.arrRef spec0 0)
abbrev featArr (c : Dev nD) : FVec Ideal SFe .f32 := V c (Pipeline.arrRef spec0 1)
abbrev wxArr (c : Dev nD) : FVec Ideal SWx .f32 := V c (Pipeline.arrRef spec0 2)
abbrev wfArr (c : Dev nD) : FVec Ideal SWf .f32 := V c (Pipeline.arrRef spec0 3)

/-- Channel d's sum of the dense layer over the 9600 rows of sample block b. -/
def blockSum (X : FVec Ideal SX .f32) (Fe : FVec Ideal SFe .f32) (Wx : FVec Ideal SWx .f32) (Wf : FVec Ideal SWf .f32)
    (b : Fin 100) (d : Fin 128) : EReal :=
  ∑ r : Fin 9600, preRow X Fe Wx Wf b r d

/-- Channel d's sum of squares of the dense layer over the 9600 rows of sample block b. -/
def blockSq (X : FVec Ideal SX .f32) (Fe : FVec Ideal SFe .f32) (Wx : FVec Ideal SWx .f32) (Wf : FVec Ideal SWf .f32)
    (b : Fin 100) (d : Fin 128) : EReal :=
  ∑ r : Fin 9600, preRow X Fe Wx Wf b r d * preRow X Fe Wx Wf b r d

/-- A block of 600 samples that is samples 600 b … 600 b + 599 of the arrays, with the weight matrices whole, has at
    flattened row r the dense layer's value at row r of sample block b. -/
theorem dense_row (x0 : Vec Ideal S600x16x3 .f32) (x1 : Vec Ideal S600x16x64 .f32) (x2 : Vec Ideal S3x128 .f32)
    (x3 : Vec Ideal S64x128 .f32) (X : FVec Ideal SX .f32) (Fe : FVec Ideal SFe .f32) (Wx : FVec Ideal SWx .f32)
    (Wf : FVec Ideal SWf .f32) (b : Fin 100)
    (h0 : ∀ (p : Fin 600) (k : Fin 16) (q : Fin 3),
      x0 (ix3 p k q) = X (ix3 (⟨b.val * 600 + p.val, by have := b.isLt; have := p.isLt; omega⟩ : Fin 60000) k q))
    (h1 : ∀ (p : Fin 600) (k : Fin 16) (q : Fin 64),
      x1 (ix3 p k q) = Fe (ix3 (⟨b.val * 600 + p.val, by have := b.isLt; have := p.isLt; omega⟩ : Fin 60000) k q))
    (h2 : ∀ (q : Fin 3) (d : Fin 128), x2 (ix2 q d) = Wx (ix2 q d))
    (h3 : ∀ (q : Fin 64) (d : Fin 128), x3 (ix2 q d) = Wf (ix2 q d))
    (r : Fin 9600) (d : Fin 128) :
    k0_pay4 x0 x1 x2 x3 (ix2 r d) = preRow X Fe Wx Wf b r d := by
  refine (dense_entry x0 x1 x2 x3 r d).trans ?_
  unfold preRow pre
  refine congrArg₂ (· + ·) (Finset.sum_congr rfl fun q _ => ?_) (Finset.sum_congr rfl fun q _ => ?_)
  · exact congrArg₂ (· * ·) (h0 (smp r) (nbr r) q) (h2 q d)
  · exact congrArg₂ (· * ·) (h1 (smp r) (nbr r) q) (h3 q d)

variable (c : Dev nD)

/-- The dense values point t computes are the dense layer's at sample block t. -/
theorem dense_at (t : Fin cfg0.N) (ht : t.val < 100) (r : Fin 9600) (d : Fin 128) :
    k0_pay4 (iblk0 V c 0 t) (iblk0 V c 1 t) (iblk0 V c 2 t) (iblk0 V c 3 t) (ix2 r d) = preRow (posArr V c) (featArr V c) (wxArr V c) (wfArr V c) (⟨t.val, ht⟩ : Fin 100) r d :=
  dense_row (iblk0 V c 0 t) (iblk0 V c 1 t) (iblk0 V c 2 t) (iblk0 V c 3 t) (posArr V c) (featArr V c) (wxArr V c) (wfArr V c) (⟨t.val, ht⟩ : Fin 100)
    (fun p k q => pos_block V c t p k q _ rfl rfl rfl)
    (fun p k q => feat_block V c t p k q _ rfl rfl rfl)
    (fun q d => wx_block V c t q d) (fun q d => wf_block V c t q d) r d

set_option maxHeartbeats 400000 in
/-- The first point of a half leaves its block's sum. -/
theorem sum_first (t : Fin cfg0.N) (ht : t.val < 100) (h0 : t.val % 50 = 0) (d : Fin 128) :
    (outsAt0 V c t.val t.isLt).1 (ix3 (0 : Fin 1) (0 : Fin 1) d) = blockSum (posArr V c) (featArr V c) (wxArr V c) (wfArr V c) (⟨t.val, ht⟩ : Fin 100) d := by
  refine (congrArg (fun pr : Vec Ideal S1x1x128 .f32 × Vec Ideal S1x1x128 .f32 => pr.1 (ix3 (0 : Fin 1) (0 : Fin 1) d)) (outsAt0_A V c t h0)).trans ?_
  refine (congrFun (first_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) (ix3 (0 : Fin 1) (0 : Fin 1) d)).trans ?_
  refine (sum_step (iblk0 V c 0 t) (iblk0 V c 1 t) (iblk0 V c 2 t) (iblk0 V c 3 t) (k0_pay2 (F := Ideal)) d).trans ?_
  refine (congrArg₂ (· + ·) (zero_sum (ix3 (0 : Fin 1) (0 : Fin 1) d)) (Finset.sum_congr rfl fun r _ => dense_at V c t ht r d)).trans ?_
  exact zero_add _

set_option maxHeartbeats 400000 in
/-- The first point of a half leaves its block's sum of squares. -/
theorem sq_first (t : Fin cfg0.N) (ht : t.val < 100) (h0 : t.val % 50 = 0) (d : Fin 128) :
    (outsAt0 V c t.val t.isLt).2 (ix3 (0 : Fin 1) (0 : Fin 1) d) = blockSq (posArr V c) (featArr V c) (wxArr V c) (wfArr V c) (⟨t.val, ht⟩ : Fin 100) d := by
  refine (congrArg (fun pr : Vec Ideal S1x1x128 .f32 × Vec Ideal S1x1x128 .f32 => pr.2 (ix3 (0 : Fin 1) (0 : Fin 1) d)) (outsAt0_A V c t h0)).trans ?_
  refine (congrFun (first_sq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) (ix3 (0 : Fin 1) (0 : Fin 1) d)).trans ?_
  refine (sq_step (k0_pay6 (k0_pay3 (F := Ideal))) (k0_pay7 (iblk0 V c 0 t) (iblk0 V c 1 t) (iblk0 V c 2 t) (iblk0 V c 3 t)) d).trans ?_
  refine (congrArg₂ (· + ·) ((congrFun (carry_eq (k0_pay3 (F := Ideal))) _).trans (zero_sq (ix3 (0 : Fin 1) (0 : Fin 1) d)))
    ((sq_cols (iblk0 V c 0 t) (iblk0 V c 1 t) (iblk0 V c 2 t) (iblk0 V c 3 t) d).trans (Finset.sum_congr rfl fun r _ =>
      congrArg₂ (· * ·) (dense_at V c t ht r d) (dense_at V c t ht r d)))).trans ?_
  exact zero_add _

set_option maxHeartbeats 400000 in
/-- A later point leaves what the point before left plus its block's sum. -/
theorem sum_next (t : Fin cfg0.N) (ht : t.val < 100) (h0 : ¬t.val % 50 = 0) (d : Fin 128) :
    (outsAt0 V c t.val t.isLt).1 (ix3 (0 : Fin 1) (0 : Fin 1) d)
      = (outsAt0 V c (t.val - 1) (Nat.lt_of_le_of_lt (Nat.sub_le _ _) t.isLt)).1 (ix3 (0 : Fin 1) (0 : Fin 1) d) + blockSum (posArr V c) (featArr V c) (wxArr V c) (wfArr V c) (⟨t.val, ht⟩ : Fin 100) d := by
  refine (congrArg (fun pr : Vec Ideal S1x1x128 .f32 × Vec Ideal S1x1x128 .f32 => pr.1 (ix3 (0 : Fin 1) (0 : Fin 1) d)) (outsAt0_B V c t h0)).trans ?_
  refine (congrFun (next_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) (0 : Fin 1) d)).trans ?_
  refine (sum_step (iblk0 V c 0 t) (iblk0 V c 1 t) (iblk0 V c 2 t) (iblk0 V c 3 t) (outsAt0 V c (t.val - 1) (Nat.lt_of_le_of_lt (Nat.sub_le _ _) t.isLt)).1 d).trans ?_
  exact congrArg ((outsAt0 V c (t.val - 1) (Nat.lt_of_le_of_lt (Nat.sub_le _ _) t.isLt)).1 (ix3 (0 : Fin 1) (0 : Fin 1) d) + ·) (Finset.sum_congr rfl fun r _ => dense_at V c t ht r d)

set_option maxHeartbeats 400000 in
/-- A later point leaves what the point before left plus its block's sum of squares. -/
theorem sq_next (t : Fin cfg0.N) (ht : t.val < 100) (h0 : ¬t.val % 50 = 0) (d : Fin 128) :
    (outsAt0 V c t.val t.isLt).2 (ix3 (0 : Fin 1) (0 : Fin 1) d)
      = (outsAt0 V c (t.val - 1) (Nat.lt_of_le_of_lt (Nat.sub_le _ _) t.isLt)).2 (ix3 (0 : Fin 1) (0 : Fin 1) d) + blockSq (posArr V c) (featArr V c) (wxArr V c) (wfArr V c) (⟨t.val, ht⟩ : Fin 100) d := by
  refine (congrArg (fun pr : Vec Ideal S1x1x128 .f32 × Vec Ideal S1x1x128 .f32 => pr.2 (ix3 (0 : Fin 1) (0 : Fin 1) d)) (outsAt0_B V c t h0)).trans ?_
  refine (congrFun (next_sq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2) (ix3 (0 : Fin 1) (0 : Fin 1) d)).trans ?_
  refine (sq_step (k0_pay6 (outsAt0 V c (t.val - 1) (Nat.lt_of_le_of_lt (Nat.sub_le _ _) t.isLt)).2) (k0_pay7 (iblk0 V c 0 t) (iblk0 V c 1 t) (iblk0 V c 2 t) (iblk0 V c 3 t)) d).trans ?_
  exact congrArg₂ (· + ·) (congrFun (carry_eq (outsAt0 V c (t.val - 1) (Nat.lt_of_le_of_lt (Nat.sub_le _ _) t.isLt)).2) _)
    ((sq_cols (iblk0 V c 0 t) (iblk0 V c 1 t) (iblk0 V c 2 t) (iblk0 V c 3 t) d).trans (Finset.sum_congr rfl fun r _ =>
      congrArg₂ (· * ·) (dense_at V c t ht r d) (dense_at V c t ht r d)))

end Cert.KernelIdeal.StatsValue

end
-- ==== Proof.StatsRunning.lean ====
/-
  The running sum and the running sum of squares of the statistics pass after each grid point, by induction.

  Half h of the samples is points 50 h … 50 h + 49, in order; point 50 h + s works on sample block 50 h + s. The first
  point of a half leaves its block's column sums; each later point adds its block's onto what the point before left. So
  after point 50 h + j channel d of the running sum is the sum, over the blocks s ≤ j of the half, of the block's sum
  — by induction on j —, and after the half's last point it is the half's whole sum. The same for the squares.
-/
import proofs.«107821_j74440373174612_2_alg».proof.Proof.StatsSteps

noncomputable section

open scoped BigOperators

open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen Cert.Dense

variable (V : (c : Dev nD) → (b : Ref sig .tc) → Buf (Elt Ideal) ((c : Thread nD τ).loc b)) (c : Dev nD)

/-- One point under two names holds the same pair of blocks. -/
theorem outs_congr {n n' : ℕ} (e : n = n') (hn : n < cfg0.N) (hn' : n' < cfg0.N) :
    outsAt0 V c n hn = outsAt0 V c n' hn' := by
  subst e; rfl

/-- Channel d's sum over block s of half h (nothing past the half's 50 blocks). -/
def halfSum (X : FVec Ideal SX .f32) (Fe : FVec Ideal SFe .f32) (Wx : FVec Ideal SWx .f32) (Wf : FVec Ideal SWf .f32)
    (h : Fin 2) (s : ℕ) (d : Fin 128) : EReal :=
  if hs : s < 50 then blockSum X Fe Wx Wf (blkOf h ⟨s, hs⟩) d else 0

/-- Channel d's sum of squares over block s of half h (nothing past the half's 50 blocks). -/
def halfSq (X : FVec Ideal SX .f32) (Fe : FVec Ideal SFe .f32) (Wx : FVec Ideal SWx .f32) (Wf : FVec Ideal SWf .f32)
    (h : Fin 2) (s : ℕ) (d : Fin 128) : EReal :=
  if hs : s < 50 then blockSq X Fe Wx Wf (blkOf h ⟨s, hs⟩) d else 0

/-- After point 50 h + j the running blocks hold the sums over blocks 0 … j of half h. -/
theorem running (h : Fin 2) (d : Fin 128) : ∀ (j : ℕ) (hj : j < 50) (hn : h.val * 50 + j < cfg0.N),
    (outsAt0 V c (h.val * 50 + j) hn).1 (ix3 (0 : Fin 1) (0 : Fin 1) d) = ∑ s ∈ Finset.range (j + 1), halfSum (posArr V c) (featArr V c) (wxArr V c) (wfArr V c) h s d
    ∧ (outsAt0 V c (h.val * 50 + j) hn).2 (ix3 (0 : Fin 1) (0 : Fin 1) d) = ∑ s ∈ Finset.range (j + 1), halfSq (posArr V c) (featArr V c) (wxArr V c) (wfArr V c) h s d
  | 0, hj, hn => by
    have hh := h.isLt
    have ht : h.val * 50 + 0 < 100 := by omega
    have hA : (⟨h.val * 50 + 0, hn⟩ : Fin cfg0.N).val % 50 = 0 := by
      show (h.val * 50 + 0) % 50 = 0
      omega
    rw [Finset.sum_range_one, Finset.sum_range_one]
    refine ⟨(sum_first V c ⟨h.val * 50 + 0, hn⟩ ht hA d).trans ?_, (sq_first V c ⟨h.val * 50 + 0, hn⟩ ht hA d).trans ?_⟩
    · unfold halfSum
      rw [dif_pos hj]
      rfl
    · unfold halfSq
      rw [dif_pos hj]
      rfl
  | j + 1, hj, hn => by
    have hh := h.isLt
    have ht : h.val * 50 + (j + 1) < 100 := by omega
    have hB : ¬(⟨h.val * 50 + (j + 1), hn⟩ : Fin cfg0.N).val % 50 = 0 := by
      show ¬(h.val * 50 + (j + 1)) % 50 = 0
      omega
    have hp : h.val * 50 + (j + 1) - 1 = h.val * 50 + j := by omega
    obtain ⟨ih1, ih2⟩ := running h d j (by omega) (Nat.lt_of_succ_lt hn)
    rw [Finset.sum_range_succ _ (j + 1), Finset.sum_range_succ _ (j + 1)]
    refine ⟨(sum_next V c ⟨h.val * 50 + (j + 1), hn⟩ ht hB d).trans (congrArg₂ (· + ·) ?_ ?_),
      (sq_next V c ⟨h.val * 50 + (j + 1), hn⟩ ht hB d).trans (congrArg₂ (· + ·) ?_ ?_)⟩
    · exact (congrArg (fun pr : Vec Ideal S1x1x128 .f32 × Vec Ideal S1x1x128 .f32 => pr.1 (ix3 (0 : Fin 1) (0 : Fin 1) d)) (outs_congr V c hp _ (Nat.lt_of_succ_lt hn))).trans ih1
    · unfold halfSum
      rw [dif_pos hj]
      rfl
    · exact (congrArg (fun pr : Vec Ideal S1x1x128 .f32 × Vec Ideal S1x1x128 .f32 => pr.2 (ix3 (0 : Fin 1) (0 : Fin 1) d)) (outs_congr V c hp _ (Nat.lt_of_succ_lt hn))).trans ih2
    · unfold halfSq
      rw [dif_pos hj]
      rfl

/-- The 50 blocks of half h together: the half's sum. -/
theorem half_sum_total (h : Fin 2) (d : Fin 128) :
    ∑ s ∈ Finset.range 50, halfSum (posArr V c) (featArr V c) (wxArr V c) (wfArr V c) h s d = partSum (posArr V c) (featArr V c) (wxArr V c) (wfArr V c) h d := by
  rw [Finset.sum_range]
  unfold partSum
  refine Finset.sum_congr rfl fun i _ => ?_
  unfold halfSum
  rw [dif_pos i.isLt]
  rfl

/-- The 50 blocks of half h together: the half's sum of squares. -/
theorem half_sq_total (h : Fin 2) (d : Fin 128) :
    ∑ s ∈ Finset.range 50, halfSq (posArr V c) (featArr V c) (wxArr V c) (wfArr V c) h s d = partSumSq (posArr V c) (featArr V c) (wxArr V c) (wfArr V c) h d := by
  rw [Finset.sum_range]
  unfold partSumSq
  refine Finset.sum_congr rfl fun i _ => ?_
  unfold halfSq
  rw [dif_pos i.isLt]
  rfl

/-- After the last point of half h the running sum is the half's sum, -/
theorem last_sum (h : Fin 2) (d : Fin 128) (hn : h.val * 50 + 49 < cfg0.N) :
    (outsAt0 V c (h.val * 50 + 49) hn).1 (ix3 (0 : Fin 1) (0 : Fin 1) d) = partSum (posArr V c) (featArr V c) (wxArr V c) (wfArr V c) h d :=
  (running V c h d 49 (by omega) hn).1.trans (half_sum_total V c h d)

/-- and the running sum of squares the half's sum of squares. -/
theorem last_sq (h : Fin 2) (d : Fin 128) (hn : h.val * 50 + 49 < cfg0.N) :
    (outsAt0 V c (h.val * 50 + 49) hn).2 (ix3 (0 : Fin 1) (0 : Fin 1) d) = partSumSq (posArr V c) (featArr V c) (wxArr V c) (wfArr V c) h d :=
  (running V c h d 49 (by omega) hn).2.trans (half_sq_total V c h d)

end Cert.KernelIdeal.StatsValue

end
-- ==== Proof.StatsValue.lean ====
/-
  The two result arrays [2,1,128] of the statistics pass after its run: row h, channel d of the first holds the sum,
  and of the second the sum of squares, of the dense layer over half h of the samples.

  Row h of either array is one block; it is written back once, after the last point 50 h + 49 of half h, from the
  running block, which then holds the half's whole sum. The two rows' blocks cover the array.
-/
import proofs.«107821_j74440373174612_2_alg».proof.Proof.StatsRunning

noncomputable section

open scoped BigOperators

open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen Cert.Dense

variable (V : (c : Dev nD) → (b : Ref sig .tc) → Buf (Elt Ideal) ((c : Thread nD τ).loc b)) (c : Dev nD)

/-- An index of a block [1,1,128] is (0, 0, its channel). -/
theorem one_row (y : S1x1x128.Idx) : y = ix3 (0 : Fin 1) (0 : Fin 1) (y 2) :=
  funext fun a => match a with
    | ⟨0, _⟩ => Fin.ext (by have h : (y 0).val < 1 := (y 0).isLt; show (y 0).val = 0; omega)
    | ⟨1, _⟩ => Fin.ext (by have h : (y 1).val < 1 := (y 1).isLt; show (y 1).val = 0; omega)
    | ⟨2, _⟩ => rfl

/-- The sums, as contents of the first result array: row h, channel d holds half h's sum. -/
def sumArr (c : Dev nD) : S2x1x128.Idx → Elt Ideal .f32 :=
  fun i => partSum (posArr V c) (featArr V c) (wxArr V c) (wfArr V c) (i 0) (i 2)

/-- Entry (0, 0, d) of the block point t writes back is entry (t / 50, 0, d) of the array. -/
theorem row_index_4 (t : Fin cfg0.N) (hh : Fin 2) (e : hh.val = t.val / 50) (d : Fin 128) :
    (((cfg0.win 4).blk t).view.emb (ix3 (0 : Fin 1) (0 : Fin 1) d) : S2x1x128.Idx) = ix3 hh (0 : Fin 1) d := by
  obtain ⟨-, -, -, -, -, -, -, -, -, -, e0, e1, e2, -⟩ := index_facts t
  funext a
  apply Fin.ext
  match a with
  | ⟨0, _⟩ => show win0_4.index t (0 : Fin 3) * 1 + 1 * 0 = hh.val; rw [e0, e] <;> omega
  | ⟨1, _⟩ => show win0_4.index t (1 : Fin 3) * 1 + 1 * 0 = 0; rw [e1] <;> omega
  | ⟨2, _⟩ => show win0_4.index t (2 : Fin 3) * 128 + 1 * d.val = d.val; rw [e2] <;> omega

/-- The block a half's last point holds is that half's row of the array. -/
theorem last_block_4 (t : Fin cfg0.N) (h49 : t.val % 50 = 49) (y : S1x1x128.Idx) :
    (outsAt0 V c t.val t.isLt).1 y = sumArr V c (((cfg0.win 4).blk t).view.emb y) := by
  have hN : grid0.N = 100 := N_0
  have htl : t.val < grid0.N := t.isLt
  obtain ⟨d, rfl⟩ : ∃ d : Fin 128, y = ix3 (0 : Fin 1) (0 : Fin 1) d := ⟨y 2, one_row y⟩
  have hh2 : t.val / 50 < 2 := by omega
  have hpt : t.val = (⟨t.val / 50, hh2⟩ : Fin 2).val * 50 + 49 := by
    show t.val = t.val / 50 * 50 + 49
    omega
  have hn : (⟨t.val / 50, hh2⟩ : Fin 2).val * 50 + 49 < cfg0.N := by
    show t.val / 50 * 50 + 49 < grid0.N
    omega
  refine Eq.trans ?_ (congrArg (sumArr V c) (row_index_4 t ⟨t.val / 50, hh2⟩ rfl d)).symm
  show _ = partSum (posArr V c) (featArr V c) (wxArr V c) (wfArr V c) (⟨t.val / 50, hh2⟩ : Fin 2) d
  exact (congrArg (fun pr : Vec Ideal S1x1x128 .f32 × Vec Ideal S1x1x128 .f32 => pr.1 (ix3 (0 : Fin 1) (0 : Fin 1) d))
    (outs_congr V c hpt t.isLt hn)).trans (last_sum V c ⟨t.val / 50, hh2⟩ d hn)

/-- What a point that writes its block back writes is its block of the array of sums. -/
theorem flushed_4 (t : Fin cfg0.N) (hf : (cfg0.win 4).flush t = true) :
    (dat0 V c).flushed 4 t = ((cfg0.win 4).blk t).view.read (Elt Ideal) (sumArr V c) := by
  show (cfg0.win 4).cut (grid0.coords t) ((dat0 V c).after 4 t) = _
  rw [after0_4]
  exact funext fun y => last_block_4 V c t ((flush0_4 t).mp hf) y

/-- An index of the array is in point t's block iff each coordinate is in the block's range on its axis. -/
theorem mem_block_4 (t : Fin cfg0.N) (i : S2x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v8_0).slice (win0_4.rect t)).set ↔ _
  rw [View.set_slice_whole, Rect.mem_set_unit]
  exact Iff.rfl

/-- Row h of the array is the block the last point of half h writes back. -/
theorem cover_4 (i : S2x1x128.Idx) :
    ∃ t : Fin cfg0.N, (cfg0.win 4).flush t = true ∧ i ∈ ((cfg0.win 4).blk t).view.set := by
  have hN : grid0.N = 100 := N_0
  have h0 : (i 0).val < 2 := (i 0).isLt
  have h1 : (i 1).val < 1 := (i 1).isLt
  have h2 : (i 2).val < 128 := (i 2).isLt
  have hlt : (i 0).val * 50 + 49 < cfg0.N := by
    show (i 0).val * 50 + 49 < grid0.N
    omega
  refine ⟨⟨(i 0).val * 50 + 49, hlt⟩, (flush0_4 _).mpr (by show ((i 0).val * 50 + 49) % 50 = 49; omega), ?_⟩
  obtain ⟨-, -, -, -, -, -, -, -, -, -, e0, e1, e2, -⟩ := index_facts ⟨(i 0).val * 50 + 49, hlt⟩
  have e0' : win0_4.index ⟨(i 0).val * 50 + 49, hlt⟩ (0 : Fin 3) = ((i 0).val * 50 + 49) / 50 := e0
  rw [mem_block_4]
  intro a
  match a with
  | ⟨0, _⟩ =>
    show win0_4.index ⟨(i 0).val * 50 + 49, hlt⟩ (0 : Fin 3) * 1 ≤ (i 0).val ∧ (i 0).val < win0_4.index ⟨(i 0).val * 50 + 49, hlt⟩ (0 : Fin 3) * 1 + 1
    rw [e0']; omega
  | ⟨1, _⟩ =>
    show win0_4.index ⟨(i 0).val * 50 + 49, hlt⟩ (1 : Fin 3) * 1 ≤ (i 1).val ∧ (i 1).val < win0_4.index ⟨(i 0).val * 50 + 49, hlt⟩ (1 : Fin 3) * 1 + 1
    rw [e1]; omega
  | ⟨2, _⟩ =>
    show win0_4.index ⟨(i 0).val * 50 + 49, hlt⟩ (2 : Fin 3) * 128 ≤ (i 2).val ∧ (i 2).val < win0_4.index ⟨(i 0).val * 50 + 49, hlt⟩ (2 : Fin 3) * 128 + 128
    rw [e2]; omega

/-- So the array ends holding the sums. -/
theorem final_4 : (dat0 V c).arrAt 4 cfg0.N = sumArr V c :=
  (dat0 V c).arrAt_eq_of_cover 4 (sumArr V c) (flushed_4 V c) cover_4

/-- The sums of squares, as contents of the second result array: row h, channel d holds half h's sum of squares. -/
def sqArr (c : Dev nD) : S2x1x128.Idx → Elt Ideal .f32 :=
  fun i => partSumSq (posArr V c) (featArr V c) (wxArr V c) (wfArr V c) (i 0) (i 2)

/-- Entry (0, 0, d) of the block point t writes back is entry (t / 50, 0, d) of the array. -/
theorem row_index_5 (t : Fin cfg0.N) (hh : Fin 2) (e : hh.val = t.val / 50) (d : Fin 128) :
    (((cfg0.win 5).blk t).view.emb (ix3 (0 : Fin 1) (0 : Fin 1) d) : S2x1x128.Idx) = ix3 hh (0 : Fin 1) d := by
  obtain ⟨-, -, -, -, -, -, -, -, -, -, -, -, -, e0, e1, e2⟩ := index_facts t
  funext a
  apply Fin.ext
  match a with
  | ⟨0, _⟩ => show win0_5.index t (0 : Fin 3) * 1 + 1 * 0 = hh.val; rw [e0, e] <;> omega
  | ⟨1, _⟩ => show win0_5.index t (1 : Fin 3) * 1 + 1 * 0 = 0; rw [e1] <;> omega
  | ⟨2, _⟩ => show win0_5.index t (2 : Fin 3) * 128 + 1 * d.val = d.val; rw [e2] <;> omega

/-- The block a half's last point holds is that half's row of the array. -/
theorem last_block_5 (t : Fin cfg0.N) (h49 : t.val % 50 = 49) (y : S1x1x128.Idx) :
    (outsAt0 V c t.val t.isLt).2 y = sqArr V c (((cfg0.win 5).blk t).view.emb y) := by
  have hN : grid0.N = 100 := N_0
  have htl : t.val < grid0.N := t.isLt
  obtain ⟨d, rfl⟩ : ∃ d : Fin 128, y = ix3 (0 : Fin 1) (0 : Fin 1) d := ⟨y 2, one_row y⟩
  have hh2 : t.val / 50 < 2 := by omega
  have hpt : t.val = (⟨t.val / 50, hh2⟩ : Fin 2).val * 50 + 49 := by
    show t.val = t.val / 50 * 50 + 49
    omega
  have hn : (⟨t.val / 50, hh2⟩ : Fin 2).val * 50 + 49 < cfg0.N := by
    show t.val / 50 * 50 + 49 < grid0.N
    omega
  refine Eq.trans ?_ (congrArg (sqArr V c) (row_index_5 t ⟨t.val / 50, hh2⟩ rfl d)).symm
  show _ = partSumSq (posArr V c) (featArr V c) (wxArr V c) (wfArr V c) (⟨t.val / 50, hh2⟩ : Fin 2) d
  exact (congrArg (fun pr : Vec Ideal S1x1x128 .f32 × Vec Ideal S1x1x128 .f32 => pr.2 (ix3 (0 : Fin 1) (0 : Fin 1) d))
    (outs_congr V c hpt t.isLt hn)).trans (last_sq V c ⟨t.val / 50, hh2⟩ d hn)

/-- What a point that writes its block back writes is its block of the array of sums of squares. -/
theorem flushed_5 (t : Fin cfg0.N) (hf : (cfg0.win 5).flush t = true) :
    (dat0 V c).flushed 5 t = ((cfg0.win 5).blk t).view.read (Elt Ideal) (sqArr V c) := by
  show (cfg0.win 5).cut (grid0.coords t) ((dat0 V c).after 5 t) = _
  rw [after0_5]
  exact funext fun y => last_block_5 V c t ((flush0_5 t).mp hf) y

/-- An index of the array is in point t's block iff each coordinate is in the block's range on its axis. -/
theorem mem_block_5 (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v8_1).slice (win0_5.rect t)).set ↔ _
  rw [View.set_slice_whole, Rect.mem_set_unit]
  exact Iff.rfl

/-- Row h of the array is the block the last point of half h writes back. -/
theorem cover_5 (i : S2x1x128.Idx) :
    ∃ t : Fin cfg0.N, (cfg0.win 5).flush t = true ∧ i ∈ ((cfg0.win 5).blk t).view.set := by
  have hN : grid0.N = 100 := N_0
  have h0 : (i 0).val < 2 := (i 0).isLt
  have h1 : (i 1).val < 1 := (i 1).isLt
  have h2 : (i 2).val < 128 := (i 2).isLt
  have hlt : (i 0).val * 50 + 49 < cfg0.N := by
    show (i 0).val * 50 + 49 < grid0.N
    omega
  refine ⟨⟨(i 0).val * 50 + 49, hlt⟩, (flush0_5 _).mpr (by show ((i 0).val * 50 + 49) % 50 = 49; omega), ?_⟩
  obtain ⟨-, -, -, -, -, -, -, -, -, -, -, -, -, e0, e1, e2⟩ := index_facts ⟨(i 0).val * 50 + 49, hlt⟩
  have e0' : win0_5.index ⟨(i 0).val * 50 + 49, hlt⟩ (0 : Fin 3) = ((i 0).val * 50 + 49) / 50 := e0
  rw [mem_block_5]
  intro a
  match a with
  | ⟨0, _⟩ =>
    show win0_5.index ⟨(i 0).val * 50 + 49, hlt⟩ (0 : Fin 3) * 1 ≤ (i 0).val ∧ (i 0).val < win0_5.index ⟨(i 0).val * 50 + 49, hlt⟩ (0 : Fin 3) * 1 + 1
    rw [e0']; omega
  | ⟨1, _⟩ =>
    show win0_5.index ⟨(i 0).val * 50 + 49, hlt⟩ (1 : Fin 3) * 1 ≤ (i 1).val ∧ (i 1).val < win0_5.index ⟨(i 0).val * 50 + 49, hlt⟩ (1 : Fin 3) * 1 + 1
    rw [e1]; omega
  | ⟨2, _⟩ =>
    show win0_5.index ⟨(i 0).val * 50 + 49, hlt⟩ (2 : Fin 3) * 128 ≤ (i 2).val ∧ (i 2).val < win0_5.index ⟨(i 0).val * 50 + 49, hlt⟩ (2 : Fin 3) * 128 + 128
    rw [e2]; omega

/-- So the array ends holding the sums of squares. -/
theorem final_5 : (dat0 V c).arrAt 5 cfg0.N = sqArr V c :=
  (dat0 V c).arrAt_eq_of_cover 5 (sqArr V c) (flushed_5 V c) cover_5

/-- Row h, channel d of the first result array after the run: the sum of the dense layer over half h. -/
theorem sum_entry (V : (c : Dev nD) → (b : Ref sig .tc) → Buf (Elt Ideal) ((c : Thread nD τ).loc b)) (c : Dev nD)
    (h : Fin 2) (d : Fin 128) :
    (Gen.dat0 (F := Ideal) V c).arrAt 4 cfg0.N (ix3 h (0 : Fin 1) d)
      = Cert.Dense.partSum (V c (Pipeline.arrRef spec0 0)) (V c (Pipeline.arrRef spec0 1))
          (V c (Pipeline.arrRef spec0 2)) (V c (Pipeline.arrRef spec0 3)) h d :=
  congrFun (final_4 V c) (ix3 h (0 : Fin 1) d)

/-- Row h, channel d of the second result array after the run: the sum of squares of the dense layer over half h. -/
theorem sumsq_entry (V : (c : Dev nD) → (b : Ref sig .tc) → Buf (Elt Ideal) ((c : Thread nD τ).loc b)) (c : Dev nD)
    (h : Fin 2) (d : Fin 128) :
    (Gen.dat0 (F := Ideal) V c).arrAt 5 cfg0.N (ix3 h (0 : Fin 1) d)
      = Cert.Dense.partSumSq (V c (Pipeline.arrRef spec0 0)) (V c (Pipeline.arrRef spec0 1))
          (V c (Pipeline.arrRef spec0 2)) (V c (Pipeline.arrRef spec0 3)) h d :=
  congrFun (final_5 V c) (ix3 h (0 : Fin 1) d)

end Cert.KernelIdeal.StatsValue

end
-- ==== Proof.KernelValue.lean ====
/-
  The idealized two-pass program's two results as functions of its argument arrays.

  The first result is the samples' rows: the first gather's output, which nothing later writes. The second is the
  second region's output array: at sample `p` and channel `d` the pooled value of the relative positions, the
  neighbours' features and the two cuts of the weight matrix under the scale and shift rows that the stretch between the
  regions computes from the first region's two accumulators — and those accumulators hold, per half of the samples, the
  channel sums and sums of squares of the dense layer over the same four arrays.
-/
import proofs.«107821_j74440373174612_2_alg».proof.Proof.KernelRun
import proofs.«107821_j74440373174612_2_alg».proof.Proof.KernelHostA
import proofs.«107821_j74440373174612_2_alg».proof.Proof.KernelHostB
import proofs.«107821_j74440373174612_2_alg».proof.Proof.KernelGather
import proofs.«107821_j74440373174612_2_alg».proof.Proof.PoolValue
import proofs.«107821_j74440373174612_2_alg».proof.Proof.StatsValue

set_option maxRecDepth 16384

noncomputable section

namespace Cert.KernelIdeal.ResultValue

open Idealize.ShloMosaic Idealize.ShloMosaic.TcCoe Idealize.ShloMosaic.ValueIdx Idealize.SL.Sem
open Cert.KernelIdeal Cert.KernelIdeal.Gen Cert.KernelIdeal.HostTerm
open Cert.KernelIdeal.HostReadA Cert.KernelIdeal.HostReadB Cert.KernelIdeal.HostReadG

variable (m : (ℓ : Loc nD τ sig) → Buf (Elt Ideal) ℓ) (ρ : Dev nD → PrngReg) (c : Dev nD)

/-! ## The argument arrays through the first five stretches -/

theorem W1_arg0 : W1 m ρ c (Proc.devRef .tc main_arg0) = m ((c.tc : Thread nD τ).loc main_arg0) := keep0_arg0 (W0 m ρ c)
theorem W1_arg1 : W1 m ρ c (Proc.devRef .tc main_arg1) = m ((c.tc : Thread nD τ).loc main_arg1) := keep0_arg1 (W0 m ρ c)
theorem W1_arg2 : W1 m ρ c (Proc.devRef .tc main_arg2) = m ((c.tc : Thread nD τ).loc main_arg2) := keep0_arg2 (W0 m ρ c)
theorem W1_arg3 : W1 m ρ c (Proc.devRef .tc main_arg3) = m ((c.tc : Thread nD τ).loc main_arg3) := keep0_arg3 (W0 m ρ c)
theorem W1_arg4 : W1 m ρ c (Proc.devRef .tc main_arg4) = m ((c.tc : Thread nD τ).loc main_arg4) := keep0_arg4 (W0 m ρ c)
theorem W1_arg6 : W1 m ρ c (Proc.devRef .tc main_arg6) = m ((c.tc : Thread nD τ).loc main_arg6) := keep0_arg6 (W0 m ρ c)
theorem W2_arg1 : W2 m ρ c (Proc.devRef .tc main_arg1) = m ((c.tc : Thread nD τ).loc main_arg1) := (keep1_arg1 (W1 m ρ c)).trans (W1_arg1 m ρ c)
theorem W2_arg2 : W2 m ρ c (Proc.devRef .tc main_arg2) = m ((c.tc : Thread nD τ).loc main_arg2) := (keep1_arg2 (W1 m ρ c)).trans (W1_arg2 m ρ c)
theorem W2_arg3 : W2 m ρ c (Proc.devRef .tc main_arg3) = m ((c.tc : Thread nD τ).loc main_arg3) := (keep1_arg3 (W1 m ρ c)).trans (W1_arg3 m ρ c)
theorem W2_arg4 : W2 m ρ c (Proc.devRef .tc main_arg4) = m ((c.tc : Thread nD τ).loc main_arg4) := (keep1_arg4 (W1 m ρ c)).trans (W1_arg4 m ρ c)
theorem W2_arg6 : W2 m ρ c (Proc.devRef .tc main_arg6) = m ((c.tc : Thread nD τ).loc main_arg6) := (keep1_arg6 (W1 m ρ c)).trans (W1_arg6 m ρ c)
theorem W3_arg1 : W3 m ρ c (Proc.devRef .tc main_arg1) = m ((c.tc : Thread nD τ).loc main_arg1) := (keep2_arg1 (W2 m ρ c)).trans (W2_arg1 m ρ c)
theorem W3_arg2 : W3 m ρ c (Proc.devRef .tc main_arg2) = m ((c.tc : Thread nD τ).loc main_arg2) := (keep2_arg2 (W2 m ρ c)).trans (W2_arg2 m ρ c)
theorem W3_arg3 : W3 m ρ c (Proc.devRef .tc main_arg3) = m ((c.tc : Thread nD τ).loc main_arg3) := (keep2_arg3 (W2 m ρ c)).trans (W2_arg3 m ρ c)
theorem W3_arg4 : W3 m ρ c (Proc.devRef .tc main_arg4) = m ((c.tc : Thread nD τ).loc main_arg4) := (keep2_arg4 (W2 m ρ c)).trans (W2_arg4 m ρ c)
theorem W3_arg6 : W3 m ρ c (Proc.devRef .tc main_arg6) = m ((c.tc : Thread nD τ).loc main_arg6) := (keep2_arg6 (W2 m ρ c)).trans (W2_arg6 m ρ c)
theorem W4_arg2 : W4 m ρ c (Proc.devRef .tc main_arg2) = m ((c.tc : Thread nD τ).loc main_arg2) := (keep3_arg2 (W3 m ρ c)).trans (W3_arg2 m ρ c)
theorem W4_arg3 : W4 m ρ c (Proc.devRef .tc main_arg3) = m ((c.tc : Thread nD τ).loc main_arg3) := (keep3_arg3 (W3 m ρ c)).trans (W3_arg3 m ρ c)
theorem W4_arg4 : W4 m ρ c (Proc.devRef .tc main_arg4) = m ((c.tc : Thread nD τ).loc main_arg4) := (keep3_arg4 (W3 m ρ c)).trans (W3_arg4 m ρ c)
theorem W5_arg3 : W5 m ρ c (Proc.devRef .tc main_arg3) = m ((c.tc : Thread nD τ).loc main_arg3) := (keep4_arg3 (W4 m ρ c)).trans (W4_arg3 m ρ c)
theorem W5_arg4 : W5 m ρ c (Proc.devRef .tc main_arg4) = m ((c.tc : Thread nD τ).loc main_arg4) := (keep4_arg4 (W4 m ρ c)).trans (W4_arg4 m ρ c)

/-! ## The first region's entry -/

/-- The samples' rows, from the first stretch on. -/
theorem rows1 : (W1 m ρ c (Proc.devRef .tc main_v0) : S60000x3.Idx → EReal)
    = takeRows (F := Ideal) (m ((c.tc : Thread nD τ).loc main_arg0)) (m ((c.tc : Thread nD τ).loc main_arg5)) := rows_after (W0 m ρ c)
theorem rows2 : (W2 m ρ c (Proc.devRef .tc main_v0) : S60000x3.Idx → EReal)
    = takeRows (F := Ideal) (m ((c.tc : Thread nD τ).loc main_arg0)) (m ((c.tc : Thread nD τ).loc main_arg5)) := (keep1_v0 (W1 m ρ c)).trans (rows1 m ρ c)
theorem rows5 : (W5 m ρ c (Proc.devRef .tc main_v0) : S60000x3.Idx → EReal)
    = takeRows (F := Ideal) (m ((c.tc : Thread nD τ).loc main_arg0)) (m ((c.tc : Thread nD τ).loc main_arg5)) :=
  (keep4_v0 (W4 m ρ c)).trans ((keep3_v0 (W3 m ρ c)).trans ((keep2_v0 (W2 m ρ c)).trans (rows2 m ρ c)))

/-- The neighbours' rows after the second stretch. -/
theorem nbrPos2 : (W2 m ρ c (Proc.devRef .tc main_v1) : S60000x16x3.Idx → EReal)
    = takeNbrPos (F := Ideal) (m ((c.tc : Thread nD τ).loc main_arg0)) (m ((c.tc : Thread nD τ).loc main_arg6)) := by
  refine (nbrPos_after (W1 m ρ c)).trans ?_
  rw [W1_arg0, W1_arg6]

/-- The relative positions at the first region's entry. -/
theorem relPos5 : (W5 m ρ c (Proc.devRef .tc main_v4) : S60000x16x3.Idx → EReal)
    = relPos (F := Ideal) (m ((c.tc : Thread nD τ).loc main_arg0)) (m ((c.tc : Thread nD τ).loc main_arg5)) (m ((c.tc : Thread nD τ).loc main_arg6)) := by
  refine (keep4_v4 (W4 m ρ c)).trans ((keep3_v4 (W3 m ρ c)).trans ((relPos_after (W2 m ρ c)).trans ?_))
  rw [nbrPos2, rows2]
  rfl

/-- The neighbours' features at the first region's entry. -/
theorem nbrFeat5 : (W5 m ρ c (Proc.devRef .tc main_v5) : S60000x16x64.Idx → EReal)
    = nbrFeat (F := Ideal) (m ((c.tc : Thread nD τ).loc main_arg1)) (m ((c.tc : Thread nD τ).loc main_arg6)) := by
  refine (keep4_v5 (W4 m ρ c)).trans ((nbrFeat_after (W3 m ρ c)).trans ?_)
  rw [W3_arg1, W3_arg6]

/-- The two cuts of the weight matrix at the first region's entry. -/
theorem wPos5 : (W5 m ρ c (Proc.devRef .tc main_v6) : S3x128.Idx → EReal) = wPos (F := Ideal) (m ((c.tc : Thread nD τ).loc main_arg2)) := by
  refine (wPos_after (W4 m ρ c)).trans ?_
  rw [W4_arg2]
theorem wFeat5 : (W5 m ρ c (Proc.devRef .tc main_v7) : S64x128.Idx → EReal) = wFeat (F := Ideal) (m ((c.tc : Thread nD τ).loc main_arg2)) := by
  refine (wFeat_after (W4 m ρ c)).trans ?_
  rw [W4_arg2]

/-! ## The first region's accumulators -/

/-- The sum accumulator the first region leaves. -/
abbrev acc1 : S2x1x128.Idx → EReal := (dat0 (F := Ideal) (V5 m ρ) c).arrAt 4 cfg0.N
/-- The sum-of-squares accumulator the first region leaves. -/
abbrev acc2 : S2x1x128.Idx → EReal := (dat0 (F := Ideal) (V5 m ρ) c).arrAt 5 cfg0.N

theorem W6_acc1 : (W6 m ρ c (Proc.devRef .tc main_v8_0) : S2x1x128.Idx → EReal) = acc1 m ρ c := W6_arr m ρ c 4
theorem W6_acc2 : (W6 m ρ c (Proc.devRef .tc main_v8_1) : S2x1x128.Idx → EReal) = acc2 m ρ c := W6_arr m ρ c 5

/-- The four data arrays the first region reads, as it finds them. -/
theorem e0_0 : (V5 m ρ c (Pipeline.arrRef spec0 0) : S60000x16x3.Idx → EReal)
    = relPos (F := Ideal) (m ((c.tc : Thread nD τ).loc main_arg0)) (m ((c.tc : Thread nD τ).loc main_arg5)) (m ((c.tc : Thread nD τ).loc main_arg6)) := relPos5 m ρ c
theorem e0_1 : (V5 m ρ c (Pipeline.arrRef spec0 1) : S60000x16x64.Idx → EReal)
    = nbrFeat (F := Ideal) (m ((c.tc : Thread nD τ).loc main_arg1)) (m ((c.tc : Thread nD τ).loc main_arg6)) := nbrFeat5 m ρ c
theorem e0_2 : (V5 m ρ c (Pipeline.arrRef spec0 2) : S3x128.Idx → EReal) = wPos (F := Ideal) (m ((c.tc : Thread nD τ).loc main_arg2)) := wPos5 m ρ c
theorem e0_3 : (V5 m ρ c (Pipeline.arrRef spec0 3) : S64x128.Idx → EReal) = wFeat (F := Ideal) (m ((c.tc : Thread nD τ).loc main_arg2)) := wFeat5 m ρ c

/-- The accumulators' entries: per half, the channel sums and sums of squares of the dense layer. -/
theorem acc1_entry (h : Fin 2) (d : Fin 128) :
    acc1 m ρ c (ix3 h (0 : Fin 1) d)
      = Cert.Dense.partSum (relPos (F := Ideal) (m ((c.tc : Thread nD τ).loc main_arg0)) (m ((c.tc : Thread nD τ).loc main_arg5)) (m ((c.tc : Thread nD τ).loc main_arg6)))
          (nbrFeat (F := Ideal) (m ((c.tc : Thread nD τ).loc main_arg1)) (m ((c.tc : Thread nD τ).loc main_arg6)))
          (wPos (F := Ideal) (m ((c.tc : Thread nD τ).loc main_arg2))) (wFeat (F := Ideal) (m ((c.tc : Thread nD τ).loc main_arg2))) h d := by
  refine (Cert.KernelIdeal.StatsValue.sum_entry (V5 m ρ) c h d).trans ?_
  rw [e0_0, e0_1, e0_2, e0_3]
theorem acc2_entry (h : Fin 2) (d : Fin 128) :
    acc2 m ρ c (ix3 h (0 : Fin 1) d)
      = Cert.Dense.partSumSq (relPos (F := Ideal) (m ((c.tc : Thread nD τ).loc main_arg0)) (m ((c.tc : Thread nD τ).loc main_arg5)) (m ((c.tc : Thread nD τ).loc main_arg6)))
          (nbrFeat (F := Ideal) (m ((c.tc : Thread nD τ).loc main_arg1)) (m ((c.tc : Thread nD τ).loc main_arg6)))
          (wPos (F := Ideal) (m ((c.tc : Thread nD τ).loc main_arg2))) (wFeat (F := Ideal) (m ((c.tc : Thread nD τ).loc main_arg2))) h d := by
  refine (Cert.KernelIdeal.StatsValue.sumsq_entry (V5 m ρ) c h d).trans ?_
  rw [e0_0, e0_1, e0_2, e0_3]

/-! ## The second region's entry -/

/-- An array the first region only reads leaves the region as it entered it. -/
theorem W6_in (w : Fin cfg0.W) (hin : (cfg0.win w).isOut = false) :
    W6 m ρ c (Proc.devRef .tc (Pipeline.arrRef spec0 w)) = V5 m ρ c (Pipeline.arrRef spec0 w) :=
  (W6_arr m ρ c w).trans (((dat0 (F := Ideal) (V5 m ρ) c).arrAt_in w hin cfg0.N).trans (A_eq0 (V5 m ρ) c w))

theorem e1_0 : (V7 m ρ c (Pipeline.arrRef spec1 0) : S60000x16x3.Idx → EReal)
    = relPos (F := Ideal) (m ((c.tc : Thread nD τ).loc main_arg0)) (m ((c.tc : Thread nD τ).loc main_arg5)) (m ((c.tc : Thread nD τ).loc main_arg6)) :=
  (keep5_v4 (W6 m ρ c)).trans ((W6_in m ρ c 0 rfl).trans (e0_0 m ρ c))
theorem e1_1 : (V7 m ρ c (Pipeline.arrRef spec1 1) : S60000x16x64.Idx → EReal)
    = nbrFeat (F := Ideal) (m ((c.tc : Thread nD τ).loc main_arg1)) (m ((c.tc : Thread nD τ).loc main_arg6)) :=
  (keep5_v5 (W6 m ρ c)).trans ((W6_in m ρ c 1 rfl).trans (e0_1 m ρ c))
theorem e1_2 : (V7 m ρ c (Pipeline.arrRef spec1 2) : S3x128.Idx → EReal) = wPos (F := Ideal) (m ((c.tc : Thread nD τ).loc main_arg2)) :=
  (keep5_v6 (W6 m ρ c)).trans ((W6_in m ρ c 2 rfl).trans (e0_2 m ρ c))
theorem e1_3 : (V7 m ρ c (Pipeline.arrRef spec1 3) : S64x128.Idx → EReal) = wFeat (F := Ideal) (m ((c.tc : Thread nD τ).loc main_arg2)) :=
  (keep5_v7 (W6 m ρ c)).trans ((W6_in m ρ c 3 rfl).trans (e0_3 m ρ c))

theorem W6_arg3 : W6 m ρ c (Proc.devRef .tc main_arg3) = m ((c.tc : Thread nD τ).loc main_arg3) :=
  (W6_of_ne m ρ c main_arg3 (by decide)).trans (W5_arg3 m ρ c)
theorem W6_arg4 : W6 m ρ c (Proc.devRef .tc main_arg4) = m ((c.tc : Thread nD τ).loc main_arg4) :=
  (W6_of_ne m ρ c main_arg4 (by decide)).trans (W5_arg4 m ρ c)

theorem e1_4 : (V7 m ρ c (Pipeline.arrRef spec1 4) : S1x128.Idx → EReal)
    = scaleRow (F := Ideal) (acc1 m ρ c) (acc2 m ρ c) (m ((c.tc : Thread nD τ).loc main_arg3)) := by
  refine (scale_after (W6 m ρ c)).trans ?_
  rw [W6_acc1, W6_acc2, W6_arg3]
theorem e1_5 : (V7 m ρ c (Pipeline.arrRef spec1 5) : S1x128.Idx → EReal)
    = shiftRow (F := Ideal) (acc1 m ρ c) (acc2 m ρ c) (m ((c.tc : Thread nD τ).loc main_arg3)) (m ((c.tc : Thread nD τ).loc main_arg4)) := by
  refine (shift_after (W6 m ρ c)).trans ?_
  rw [W6_acc1, W6_acc2, W6_arg3, W6_arg4]

/-! ## The two results -/

/-- The first result: the samples' rows. -/
theorem result0 : (W8 m ρ c (Proc.devRef .tc main_v0) : S60000x3.Idx → EReal)
    = takeRows (F := Ideal) (m ((c.tc : Thread nD τ).loc main_arg0)) (m ((c.tc : Thread nD τ).loc main_arg5)) :=
  (W8_of_ne m ρ c main_v0 (by decide)).trans ((keep5_v0 (W6 m ρ c)).trans ((W6_of_ne m ρ c main_v0 (by decide)).trans (rows5 m ρ c)))

/-- The second result at sample `p`, channel `d`. -/
theorem result1_entry (p : Fin 60000) (d : Fin 128) :
    (W8 m ρ c (Proc.devRef .tc main_v30) : S60000x128.Idx → EReal) (ix2 p d)
      = Cert.Dense.pooled (relPos (F := Ideal) (m ((c.tc : Thread nD τ).loc main_arg0)) (m ((c.tc : Thread nD τ).loc main_arg5)) (m ((c.tc : Thread nD τ).loc main_arg6)))
          (nbrFeat (F := Ideal) (m ((c.tc : Thread nD τ).loc main_arg1)) (m ((c.tc : Thread nD τ).loc main_arg6)))
          (wPos (F := Ideal) (m ((c.tc : Thread nD τ).loc main_arg2))) (wFeat (F := Ideal) (m ((c.tc : Thread nD τ).loc main_arg2)))
          (scaleRow (F := Ideal) (acc1 m ρ c) (acc2 m ρ c) (m ((c.tc : Thread nD τ).loc main_arg3)))
          (shiftRow (F := Ideal) (acc1 m ρ c) (acc2 m ρ c) (m ((c.tc : Thread nD τ).loc main_arg3)) (m ((c.tc : Thread nD τ).loc main_arg4))) p d := by
  refine (congrFun (W8_arr m ρ c 6) (ix2 p d)).trans ((Cert.KernelIdeal.PoolValue.pooled_entry (V7 m ρ) c p d).trans ?_)
  rw [e1_0, e1_1, e1_2, e1_3, e1_4, e1_5]

end Cert.KernelIdeal.ResultValue

end
-- ==== Proof.RefOps.lean ====
/-
  The reference program's straight line of host operations and what it leaves in its buffers.

  The program is cut, in order, into eight stretches: the look-up of the samples' positions (the outlined row
  look-up on the sample indices), the look-up of the neighbours' positions, the subtraction giving relative positions,
  the look-up of the neighbours' features, the dense layer with its per-channel mean, the per-channel variance (the
  outlined variance with the correction constant it is called on), the normalisation with scale and shift, and the
  clamp at zero followed by the maximum over the neighbours. An outlined function's operations are listed at its call
  site over that call's own buffers.
-/
import proofs.«107821_j74440373174612_2_alg».proof.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The samples' positions: the sample indices normalised (a negative one moved up by the table's 240000 rows),
    tested against 0 … 239999, the rows gathered, and not-a-number put where the test fails. -/
def opsRows : List (HloOp τ sig (Elt F)) :=
  [ TRef.nullary main_call0.c (constantI S_ 32 0#32),
    TRef.unary main_call0.c main_call0.v0 (broadcastInDim S60000 ![] bcast_S_S60000),
    TRef.binary (.of main_arg5) main_call0.v0 main_call0.v1 (cmpi .slt),
    TRef.nullary main_call0.c_0 (constantI S_ 32 240000#32),
    TRef.unary main_call0.c_0 main_call0.v2 (broadcastInDim S60000 ![] bcast_S_S60000),
    TRef.binary (.of main_arg5) main_call0.v2 main_call0.v3 addi,
    TRef.ternary main_call0.v1 main_call0.v3 (.of main_arg5) main_call0.call0.v0 select,
    TRef.unary main_call0.call0.v0 main_call0.v5 (broadcastInDim S60000x1 ![0] bcast_S60000_S60000x1_0),
    TRef.nullary main_call0.c_1 (constantI S1 32 239999#32),
    TRef.nullary main_call0.c_2 (constantI S_ 32 0#32),
    TRef.unary main_call0.c_2 main_call0.v6 (broadcastInDim S60000x1 ![] bcast_S_S60000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S60000x1 ![0, 1] bcast_S1x1_S60000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S60000x1_S60000_d1 h_S_),
    TRef.binary (.of main_arg0) main_call0.v5 main_call0.v13 (fun x i => Host.gather gather_S240000x3_S60000x1_S60000x3_1_0_n_n_0_1_13 x i),
    TRef.unary main_call0.v12 main_call0.v14 (broadcastInDim S60000x3 ![0] bcast_S60000_S60000x3_0),
    TRef.nullary main_call0.cst (constant S_ .f32 0x7FC00000#32),
    TRef.unary main_call0.cst main_call0.v15 (broadcastInDim S60000x3 ![] bcast_S_S60000x3),
    TRef.ternary main_call0.v14 main_call0.v13 main_call0.v15 main_call0.v16 select ]

/-- The neighbours' positions: the same look-up on the 60000 × 16 neighbour indices. -/
def opsNbrPos : List (HloOp τ sig (Elt F)) :=
  [ TRef.nullary main_call1.c (constantI S_ 32 0#32),
    TRef.unary main_call1.c main_call1.v0 (broadcastInDim S60000x16 ![] bcast_S_S60000x16),
    TRef.binary (.of main_arg6) main_call1.v0 main_call1.v1 (cmpi .slt),
    TRef.nullary main_call1.c_0 (constantI S_ 32 240000#32),
    TRef.unary main_call1.c_0 main_call1.v2 (broadcastInDim S60000x16 ![] bcast_S_S60000x16),
    TRef.binary (.of main_arg6) main_call1.v2 main_call1.v3 addi,
    TRef.ternary main_call1.v1 main_call1.v3 (.of main_arg6) main_call1.call0.v0 select,
    TRef.unary main_call1.call0.v0 main_call1.v5 (broadcastInDim S60000x16x1 ![0, 1] bcast_S60000x16_S60000x16x1_0_1),
    TRef.nullary main_call1.c_1 (constantI S1 32 239999#32),
    TRef.nullary main_call1.c_2 (constantI S_ 32 0#32),
    TRef.unary main_call1.c_2 main_call1.v6 (broadcastInDim S60000x16x1 ![] bcast_S_S60000x16x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S60000x16x1 ![0, 1, 2] bcast_S1x1x1_S60000x16x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S60000x16x1_S60000x16_d2 h_S_),
    TRef.binary (.of main_arg0) main_call1.v5 main_call1.v13 (fun x i => Host.gather gather_S240000x3_S60000x16x1_S60000x16x3_2_0_n_n_0_2_13 x i),
    TRef.unary main_call1.v12 main_call1.v14 (broadcastInDim S60000x16x3 ![0, 1] bcast_S60000x16_S60000x16x3_0_1),
    TRef.nullary main_call1.cst (constant S_ .f32 0x7FC00000#32),
    TRef.unary main_call1.cst main_call1.v15 (broadcastInDim S60000x16x3 ![] bcast_S_S60000x16x3),
    TRef.ternary main_call1.v14 main_call1.v13 main_call1.v15 main_call1.v16 select ]

/-- The relative positions: each sample's position spread over its 16 neighbours and subtracted from theirs. -/
def opsRel : List (HloOp τ sig (Elt F)) :=
  [ unary main_v0 main_v2 (broadcastInDim S60000x1x3 ![0, 2] bcast_S60000x3_S60000x1x3_0_2 : (⟨S60000x3, .f32⟩ : BufTy).Contents (Elt F) → (⟨S60000x1x3, .f32⟩ : BufTy).Contents (Elt F)),
    unary main_v2 main_v3 (broadcastInDim S60000x16x3 ![0, 1, 2] bcast_S60000x1x3_S60000x16x3_0_1_2 : (⟨S60000x1x3, .f32⟩ : BufTy).Contents (Elt F) → (⟨S60000x16x3, .f32⟩ : BufTy).Contents (Elt F)),
    binary main_v1 main_v3 main_v4 (subf : (⟨S60000x16x3, .f32⟩ : BufTy).Contents (Elt F) → (⟨S60000x16x3, .f32⟩ : BufTy).Contents (Elt F) → (⟨S60000x16x3, .f32⟩ : BufTy).Contents (Elt F)) ]

/-- The neighbours' features: the look-up on the neighbour indices into the 64-column feature table. -/
def opsNbrFeat : List (HloOp τ sig (Elt F)) :=
  [ TRef.nullary main_call2.c (constantI S_ 32 0#32),
    TRef.unary main_call2.c main_call2.v0 (broadcastInDim S60000x16 ![] bcast_S_S60000x16),
    TRef.binary (.of main_arg6) main_call2.v0 main_call2.v1 (cmpi .slt),
    TRef.nullary main_call2.c_0 (constantI S_ 32 240000#32),
    TRef.unary main_call2.c_0 main_call2.v2 (broadcastInDim S60000x16 ![] bcast_S_S60000x16),
    TRef.binary (.of main_arg6) main_call2.v2 main_call2.v3 addi,
    TRef.ternary main_call2.v1 main_call2.v3 (.of main_arg6) main_call2.call0.v0 select,
    TRef.unary main_call2.call0.v0 main_call2.v5 (broadcastInDim S60000x16x1 ![0, 1] bcast_S60000x16_S60000x16x1_0_1),
    TRef.nullary main_call2.c_1 (constantI S1 32 239999#32),
    TRef.nullary main_call2.c_2 (constantI S_ 32 0#32),
    TRef.unary main_call2.c_2 main_call2.v6 (broadcastInDim S60000x16x1 ![] bcast_S_S60000x16x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S60000x16x1 ![0, 1, 2] bcast_S1x1x1_S60000x16x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S60000x16x1_S60000x16_d2 h_S_),
    TRef.binary (.of main_arg1) main_call2.v5 main_call2.v13 (fun x i => Host.gather gather_S240000x64_S60000x16x1_S60000x16x64_2_0_n_n_0_2_164 x i),
    TRef.unary main_call2.v12 main_call2.v14 (broadcastInDim S60000x16x64 ![0, 1] bcast_S60000x16_S60000x16x64_0_1),
    TRef.nullary main_call2.cst (constant S_ .f32 0x7FC00000#32),
    TRef.unary main_call2.cst main_call2.v15 (broadcastInDim S60000x16x64 ![] bcast_S_S60000x16x64),
    TRef.ternary main_call2.v14 main_call2.v13 main_call2.v15 main_call2.v16 select ]

/-- The dense layer on the concatenated 67 coordinates, and its per-channel mean over all 960000 rows. -/
def opsDense : List (HloOp τ sig (Elt F)) :=
  [ binary main_v4 main_v5 main_v6 ((fun a b => concatenate S60000x16x67 2 [⟨S60000x16x3, a⟩, ⟨S60000x16x64, b⟩] concatenates_S60000x16x3_S60000x16x64_S60000x16x67_d2) : (⟨S60000x16x3, .f32⟩ : BufTy).Contents (Elt F) → (⟨S60000x16x64, .f32⟩ : BufTy).Contents (Elt F) → (⟨S60000x16x67, .f32⟩ : BufTy).Contents (Elt F)),
    binary main_v6 main_arg2 main_v7 ((fun l r => Host.dotGeneral dot_S60000x16x67_S67x128_S60000x16x128_2_0_01_1_n_n none l r) : (⟨S60000x16x67, .f32⟩ : BufTy).Contents (Elt F) → (⟨S67x128, .f32⟩ : BufTy).Contents (Elt F) → (⟨S60000x16x128, .f32⟩ : BufTy).Contents (Elt F)),
    nullary main_cst (constant S_ .f32 0x00000000#32),
    binary main_v7 main_cst main_v8 ((fun x v => Host.reduceAdd x v reducesTo_S60000x16x128_S128_d0_1 h_S_) : (⟨S60000x16x128, .f32⟩ : BufTy).Contents (Elt F) → (⟨S_, .f32⟩ : BufTy).Contents (Elt F) → (⟨S128, .f32⟩ : BufTy).Contents (Elt F)),
    nullary main_cst_0 (constant S_ .f32 0x496A6000#32),
    unary main_cst_0 main_v9 (broadcastInDim S128 ![] bcast_S_S128 : (⟨S_, .f32⟩ : BufTy).Contents (Elt F) → (⟨S128, .f32⟩ : BufTy).Contents (Elt F)),
    binary main_v8 main_v9 main_v10 (Host.divf : (⟨S128, .f32⟩ : BufTy).Contents (Elt F) → (⟨S128, .f32⟩ : BufTy).Contents (Elt F) → (⟨S128, .f32⟩ : BufTy).Contents (Elt F)) ]

/-- The per-channel variance: the correction constant 0, then the outlined variance on the dense layer's output
    (sum, mean on the shape [1,1,128], squared deviations, their sum over the divisor 960000 − 0, and the choice of
    not-a-number where the divisor is not positive). -/
def opsVar : List (HloOp τ sig (Elt F)) :=
  [ nullary main_c (constantI S_ 32 0#32),
    TRef.nullary main_call3.cst (constant S_ .f32 0x00000000#32),
    TRef.binary (.of main_v7) main_call3.cst main_call3.v0 (fun x v => Host.reduceAdd x v reducesTo_S60000x16x128_S128_d0_1 h_S_),
    TRef.unary main_call3.v0 main_call3.v1 (broadcastInDim S1x1x128 ![2] bcast_S128_S1x1x128_2),
    TRef.nullary main_call3.cst_0 (constant S_ .f32 0x496A6000#32),
    TRef.unary main_call3.cst_0 main_call3.v2 (broadcastInDim S1x1x128 ![] bcast_S_S1x1x128),
    TRef.binary main_call3.v1 main_call3.v2 main_call3.v3 Host.divf,
    TRef.unary main_call3.v3 main_call3.v4 (broadcastInDim S60000x16x128 ![0, 1, 2] bcast_S1x1x128_S60000x16x128_0_1_2),
    TRef.binary (.of main_v7) main_call3.v4 main_call3.v5 subf,
    TRef.binary main_call3.v5 main_call3.v5 main_call3.v6 mulf,
    TRef.unary (.of main_c) main_call3.v7 (sitofp .f32),
    TRef.nullary main_call3.cst_1 (constant S_ .f32 0x496A6000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S60000x16x128_S128_d0_1 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b) ]

/-- The normalisation: the mean subtracted, the reciprocal square root of the variance plus the small constant
    multiplied in, then the per-channel scale and shift — each per-channel vector spread over all rows first. -/
def opsNorm : List (HloOp τ sig (Elt F)) :=
  [ unary main_v10 main_v12 (broadcastInDim S1x1x128 ![2] bcast_S128_S1x1x128_2 : (⟨S128, .f32⟩ : BufTy).Contents (Elt F) → (⟨S1x1x128, .f32⟩ : BufTy).Contents (Elt F)),
    unary main_v12 main_v13 (broadcastInDim S60000x16x128 ![0, 1, 2] bcast_S1x1x128_S60000x16x128_0_1_2 : (⟨S1x1x128, .f32⟩ : BufTy).Contents (Elt F) → (⟨S60000x16x128, .f32⟩ : BufTy).Contents (Elt F)),
    binary main_v7 main_v13 main_v14 (subf : (⟨S60000x16x128, .f32⟩ : BufTy).Contents (Elt F) → (⟨S60000x16x128, .f32⟩ : BufTy).Contents (Elt F) → (⟨S60000x16x128, .f32⟩ : BufTy).Contents (Elt F)),
    nullary main_cst_1 (constant S_ .f32 0x3727C5AC#32),
    unary main_cst_1 main_v15 (broadcastInDim S128 ![] bcast_S_S128 : (⟨S_, .f32⟩ : BufTy).Contents (Elt F) → (⟨S128, .f32⟩ : BufTy).Contents (Elt F)),
    binary main_v11 main_v15 main_v16 (addf : (⟨S128, .f32⟩ : BufTy).Contents (Elt F) → (⟨S128, .f32⟩ : BufTy).Contents (Elt F) → (⟨S128, .f32⟩ : BufTy).Contents (Elt F)),
    unary main_v16 main_v17 (Host.rsqrt : (⟨S128, .f32⟩ : BufTy).Contents (Elt F) → (⟨S128, .f32⟩ : BufTy).Contents (Elt F)),
    unary main_v17 main_v18 (broadcastInDim S1x1x128 ![2] bcast_S128_S1x1x128_2 : (⟨S128, .f32⟩ : BufTy).Contents (Elt F) → (⟨S1x1x128, .f32⟩ : BufTy).Contents (Elt F)),
    unary main_v18 main_v19 (broadcastInDim S60000x16x128 ![0, 1, 2] bcast_S1x1x128_S60000x16x128_0_1_2 : (⟨S1x1x128, .f32⟩ : BufTy).Contents (Elt F) → (⟨S60000x16x128, .f32⟩ : BufTy).Contents (Elt F)),
    binary main_v14 main_v19 main_v20 (mulf : (⟨S60000x16x128, .f32⟩ : BufTy).Contents (Elt F) → (⟨S60000x16x128, .f32⟩ : BufTy).Contents (Elt F) → (⟨S60000x16x128, .f32⟩ : BufTy).Contents (Elt F)),
    unary main_arg3 main_v21 (broadcastInDim S1x1x128 ![2] bcast_S128_S1x1x128_2 : (⟨S128, .f32⟩ : BufTy).Contents (Elt F) → (⟨S1x1x128, .f32⟩ : BufTy).Contents (Elt F)),
    unary main_v21 main_v22 (broadcastInDim S60000x16x128 ![0, 1, 2] bcast_S1x1x128_S60000x16x128_0_1_2 : (⟨S1x1x128, .f32⟩ : BufTy).Contents (Elt F) → (⟨S60000x16x128, .f32⟩ : BufTy).Contents (Elt F)),
    binary main_v20 main_v22 main_v23 (mulf : (⟨S60000x16x128, .f32⟩ : BufTy).Contents (Elt F) → (⟨S60000x16x128, .f32⟩ : BufTy).Contents (Elt F) → (⟨S60000x16x128, .f32⟩ : BufTy).Contents (Elt F)),
    unary main_arg4 main_v24 (broadcastInDim S1x1x128 ![2] bcast_S128_S1x1x128_2 : (⟨S128, .f32⟩ : BufTy).Contents (Elt F) → (⟨S1x1x128, .f32⟩ : BufTy).Contents (Elt F)),
    unary main_v24 main_v25 (broadcastInDim S60000x16x128 ![0, 1, 2] bcast_S1x1x128_S60000x16x128_0_1_2 : (⟨S1x1x128, .f32⟩ : BufTy).Contents (Elt F) → (⟨S60000x16x128, .f32⟩ : BufTy).Contents (Elt F)),
    binary main_v23 main_v25 main_v26 (addf : (⟨S60000x16x128, .f32⟩ : BufTy).Contents (Elt F) → (⟨S60000x16x128, .f32⟩ : BufTy).Contents (Elt F) → (⟨S60000x16x128, .f32⟩ : BufTy).Contents (Elt F)) ]

/-- The clamp at zero (the outlined maximum with the zero word spread over all entries) and the maximum over the
    16 neighbours started from the word of −∞. -/
def opsPool : List (HloOp τ sig (Elt F)) :=
  [ TRef.nullary main_call4.cst (constant S_ .f32 0x00000000#32),
    TRef.unary main_call4.cst main_call4.v0 (broadcastInDim S60000x16x128 ![] bcast_S_S60000x16x128),
    TRef.binary (.of main_v26) main_call4.v0 main_call4.v1 maximumf,
    nullary main_cst_2 (constant S_ .f32 0xFF800000#32),
    binary main_v27 main_cst_2 main_v28 ((fun x v => Host.reduce FloatOps.maximumf x v reducesTo_S60000x16x128_S60000x128_d1 h_S_) : (⟨S60000x16x128, .f32⟩ : BufTy).Contents (Elt F) → (⟨S_, .f32⟩ : BufTy).Contents (Elt F) → (⟨S60000x128, .f32⟩ : BufTy).Contents (Elt F)) ]

/-- The program's operations, in order: the eight stretches one after the other. -/
def ops : List (HloOp τ sig (Elt F)) :=
  opsRows ++ (opsNbrPos ++ (opsRel ++ (opsNbrFeat ++ (opsDense ++ (opsVar ++ (opsNorm ++ opsPool))))))

/-- The program is that straight line: each outlined function's definition opened at its call and every call's
    buffer record read at its fields, both sides are one chain of single steps once sequencing is reassociated. -/
theorem main_eq (c : Dev nD) : main (F := F) c = seq ops := by
  simp only [main, fn_take.body, fn_where.body, fn_take_0.body, fn_where_1.body, fn_take_2.body, fn_var.body,
    fn_where_3.body, fn_relu.body, ops, opsRows, opsNbrPos, opsRel, opsNbrFeat, opsDense, opsVar, opsNorm, opsPool,
    List.cons_append, List.nil_append, seq, bind_assoc, pure_bind]

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-! Every operation of a stretch touches the device's own references only: each is one of the four builders
    (no operand, one, two or three), listed in the stretch's order. -/

theorem opsRows_sub : (opsRows : List (HloOp τ sig (Elt F))).Forall fun op => op.bufs ⊆ tcRefs τ sig := by
  unfold opsRows
  exact
   ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩
theorem opsNbrPos_sub : (opsNbrPos : List (HloOp τ sig (Elt F))).Forall fun op => op.bufs ⊆ tcRefs τ sig := by
  unfold opsNbrPos
  exact
   ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩
theorem opsRel_sub : (opsRel : List (HloOp τ sig (Elt F))).Forall fun op => op.bufs ⊆ tcRefs τ sig := by
  unfold opsRel
  exact
   ⟨unary_bufs_sub .., unary_bufs_sub .., binary_bufs_sub ..⟩
theorem opsNbrFeat_sub : (opsNbrFeat : List (HloOp τ sig (Elt F))).Forall fun op => op.bufs ⊆ tcRefs τ sig := by
  unfold opsNbrFeat
  exact
   ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩
theorem opsDense_sub : (opsDense : List (HloOp τ sig (Elt F))).Forall fun op => op.bufs ⊆ tcRefs τ sig := by
  unfold opsDense
  exact
   ⟨binary_bufs_sub .., binary_bufs_sub .., nullary_bufs_sub .., binary_bufs_sub .., nullary_bufs_sub ..,
    unary_bufs_sub .., binary_bufs_sub ..⟩
theorem opsVar_sub : (opsVar : List (HloOp τ sig (Elt F))).Forall fun op => op.bufs ⊆ tcRefs τ sig := by
  unfold opsVar
  exact
   ⟨nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub ..⟩
theorem opsNorm_sub : (opsNorm : List (HloOp τ sig (Elt F))).Forall fun op => op.bufs ⊆ tcRefs τ sig := by
  unfold opsNorm
  exact
   ⟨unary_bufs_sub .., unary_bufs_sub .., binary_bufs_sub .., nullary_bufs_sub .., unary_bufs_sub ..,
    binary_bufs_sub .., unary_bufs_sub .., unary_bufs_sub .., unary_bufs_sub .., binary_bufs_sub ..,
    unary_bufs_sub .., unary_bufs_sub .., binary_bufs_sub .., unary_bufs_sub .., unary_bufs_sub ..,
    binary_bufs_sub ..⟩
theorem opsPool_sub : (opsPool : List (HloOp τ sig (Elt F))).Forall fun op => op.bufs ⊆ tcRefs τ sig := by
  unfold opsPool
  exact
   ⟨nullary_bufs_sub .., unary_bufs_sub .., binary_bufs_sub .., nullary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsRows_sub op h, List.forall_iff_forall_mem.mp opsNbrPos_sub op h,
      List.forall_iff_forall_mem.mp opsRel_sub op h, List.forall_iff_forall_mem.mp opsNbrFeat_sub op h,
      List.forall_iff_forall_mem.mp opsDense_sub op h, List.forall_iff_forall_mem.mp opsVar_sub op h,
      List.forall_iff_forall_mem.mp opsNorm_sub op h, List.forall_iff_forall_mem.mp opsPool_sub op h]

/-- No operation of the line leaves a result undetermined: each is a builder's, whose result is its function's value. -/
local macro "fresh_nil" : tactic =>
  `(tactic| (intro op h; (repeat (cases h with | head => rfl | tail _ h => ?_)); exact nomatch h))

theorem opsRows_fresh : ∀ op ∈ (opsRows : List (HloOp τ sig (Elt F))), op.fresh = ∅ := by unfold opsRows; fresh_nil
theorem opsNbrPos_fresh : ∀ op ∈ (opsNbrPos : List (HloOp τ sig (Elt F))), op.fresh = ∅ := by unfold opsNbrPos; fresh_nil
theorem opsRel_fresh : ∀ op ∈ (opsRel : List (HloOp τ sig (Elt F))), op.fresh = ∅ := by unfold opsRel; fresh_nil
theorem opsNbrFeat_fresh : ∀ op ∈ (opsNbrFeat : List (HloOp τ sig (Elt F))), op.fresh = ∅ := by unfold opsNbrFeat; fresh_nil
theorem opsDense_fresh : ∀ op ∈ (opsDense : List (HloOp τ sig (Elt F))), op.fresh = ∅ := by unfold opsDense; fresh_nil
theorem opsVar_fresh : ∀ op ∈ (opsVar : List (HloOp τ sig (Elt F))), op.fresh = ∅ := by unfold opsVar; fresh_nil
theorem opsNorm_fresh : ∀ op ∈ (opsNorm : List (HloOp τ sig (Elt F))), op.fresh = ∅ := by unfold opsNorm; fresh_nil
theorem opsPool_fresh : ∀ op ∈ (opsPool : List (HloOp τ sig (Elt F))), op.fresh = ∅ := by unfold opsPool; fresh_nil

theorem ops_fresh : ∀ op ∈ (ops : List (HloOp τ sig (Elt F))), op.fresh = ∅ := fun op h => by
  simp only [ops, List.mem_append] at h
  rcases h with h | h | h | h | h | h | h | h
  exacts [opsRows_fresh op h, opsNbrPos_fresh op h, opsRel_fresh op h, opsNbrFeat_fresh op h, opsDense_fresh op h,
    opsVar_fresh op h, opsNorm_fresh op h, opsPool_fresh op h]

/-- On every device, from any memory with zero counters: every weakly fair execution of the program terminates, and
    each buffer ends at the fold of the operations' results over what the device held at the start. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What each stretch writes, and what it leaves alone

Each stretch's written buffers as a list of references; a reference outside the list keeps its contents through the
stretch (each operation writes its own result buffer only). -/

abbrev opsRows_W : List (Ref sig .tc) :=
  [main_call0_c, main_call0_v0, main_call0_v1, main_call0_c_0, main_call0_v2, main_call0_v3, main_call0_v4, main_call0_v5,
    main_call0_c_1, main_call0_c_2, main_call0_v6, main_call0_v7, main_call0_v8, main_call0_v9, main_call0_v10,
    main_call0_v11, main_call0_c_3, main_call0_v12, main_call0_v13, main_call0_v14, main_call0_cst, main_call0_v15, main_v0]
abbrev opsNbrPos_W : List (Ref sig .tc) :=
  [main_call1_c, main_call1_v0, main_call1_v1, main_call1_c_0, main_call1_v2, main_call1_v3, main_call1_v4, main_call1_v5,
    main_call1_c_1, main_call1_c_2, main_call1_v6, main_call1_v7, main_call1_v8, main_call1_v9, main_call1_v10,
    main_call1_v11, main_call1_c_3, main_call1_v12, main_call1_v13, main_call1_v14, main_call1_cst, main_call1_v15, main_v1]
abbrev opsRel_W : List (Ref sig .tc) := [main_v2, main_v3, main_v4]
abbrev opsNbrFeat_W : List (Ref sig .tc) :=
  [main_call2_c, main_call2_v0, main_call2_v1, main_call2_c_0, main_call2_v2, main_call2_v3, main_call2_v4, main_call2_v5,
    main_call2_c_1, main_call2_c_2, main_call2_v6, main_call2_v7, main_call2_v8, main_call2_v9, main_call2_v10,
    main_call2_v11, main_call2_c_3, main_call2_v12, main_call2_v13, main_call2_v14, main_call2_cst, main_call2_v15, main_v5]
abbrev opsDense_W : List (Ref sig .tc) := [main_v6, main_v7, main_cst, main_v8, main_cst_0, main_v9, main_v10]
abbrev opsVar_W : List (Ref sig .tc) :=
  [main_c, main_call3_cst, main_call3_v0, main_call3_v1, main_call3_cst_0, main_call3_v2, main_call3_v3, main_call3_v4,
    main_call3_v5, main_call3_v6, main_call3_v7, main_call3_cst_1, main_call3_v8, main_call3_cst_2, main_call3_v9,
    main_call3_v10, main_call3_v11, main_call3_cst_3, main_call3_v12, main_call3_cst_4, main_call3_call0_v0,
    main_call3_call0_v1, main_v11]
abbrev opsNorm_W : List (Ref sig .tc) :=
  [main_v12, main_v13, main_v14, main_cst_1, main_v15, main_v16, main_v17, main_v18, main_v19, main_v20, main_v21,
    main_v22, main_v23, main_v24, main_v25, main_v26]
abbrev opsPool_W : List (Ref sig .tc) := [main_call4_cst, main_call4_v0, main_v27, main_cst_2, main_v28]

/-- An operation's one written buffer is in the list. -/
local macro "writes_in" : tactic =>
  `(tactic| ((repeat' apply And.intro) <;>
      (simp only [nullary_writes, unary_writes, binary_writes, ternary_writes, Finset.singleton_subset_iff, List.mem_toFinset]
       exact List.mem_map_of_mem (by decide))))

theorem opsRows_writes : (opsRows : List (HloOp τ sig (Elt F))).Forall fun op =>
    op.writes ⊆ (opsRows_W.map (Proc.devRef (τ := τ) .tc)).toFinset := by
  unfold opsRows; simp only [List.Forall]; writes_in
theorem opsNbrPos_writes : (opsNbrPos : List (HloOp τ sig (Elt F))).Forall fun op =>
    op.writes ⊆ (opsNbrPos_W.map (Proc.devRef (τ := τ) .tc)).toFinset := by
  unfold opsNbrPos; simp only [List.Forall]; writes_in
theorem opsRel_writes : (opsRel : List (HloOp τ sig (Elt F))).Forall fun op =>
    op.writes ⊆ (opsRel_W.map (Proc.devRef (τ := τ) .tc)).toFinset := by
  unfold opsRel; simp only [List.Forall]; writes_in
theorem opsNbrFeat_writes : (opsNbrFeat : List (HloOp τ sig (Elt F))).Forall fun op =>
    op.writes ⊆ (opsNbrFeat_W.map (Proc.devRef (τ := τ) .tc)).toFinset := by
  unfold opsNbrFeat; simp only [List.Forall]; writes_in
theorem opsDense_writes : (opsDense : List (HloOp τ sig (Elt F))).Forall fun op =>
    op.writes ⊆ (opsDense_W.map (Proc.devRef (τ := τ) .tc)).toFinset := by
  unfold opsDense; simp only [List.Forall]; writes_in
theorem opsVar_writes : (opsVar : List (HloOp τ sig (Elt F))).Forall fun op =>
    op.writes ⊆ (opsVar_W.map (Proc.devRef (τ := τ) .tc)).toFinset := by
  unfold opsVar; simp only [List.Forall]; writes_in
theorem opsNorm_writes : (opsNorm : List (HloOp τ sig (Elt F))).Forall fun op =>
    op.writes ⊆ (opsNorm_W.map (Proc.devRef (τ := τ) .tc)).toFinset := by
  unfold opsNorm; simp only [List.Forall]; writes_in
theorem opsPool_writes : (opsPool : List (HloOp τ sig (Elt F))).Forall fun op =>
    op.writes ⊆ (opsPool_W.map (Proc.devRef (τ := τ) .tc)).toFinset := by
  unfold opsPool; simp only [List.Forall]; writes_in

theorem opsRows_keep (V : Valuation τ sig (Elt F)) (r : Ref sig .tc) (h : r ∉ opsRows_W) :
    after opsRows V (no_index (Proc.devRef .tc r)) = V (Proc.devRef .tc r) := after_of_writes_sub opsRows V opsRows_writes h
theorem opsNbrPos_keep (V : Valuation τ sig (Elt F)) (r : Ref sig .tc) (h : r ∉ opsNbrPos_W) :
    after opsNbrPos V (no_index (Proc.devRef .tc r)) = V (Proc.devRef .tc r) := after_of_writes_sub opsNbrPos V opsNbrPos_writes h
theorem opsRel_keep (V : Valuation τ sig (Elt F)) (r : Ref sig .tc) (h : r ∉ opsRel_W) :
    after opsRel V (no_index (Proc.devRef .tc r)) = V (Proc.devRef .tc r) := after_of_writes_sub opsRel V opsRel_writes h
theorem opsNbrFeat_keep (V : Valuation τ sig (Elt F)) (r : Ref sig .tc) (h : r ∉ opsNbrFeat_W) :
    after opsNbrFeat V (no_index (Proc.devRef .tc r)) = V (Proc.devRef .tc r) := after_of_writes_sub opsNbrFeat V opsNbrFeat_writes h
theorem opsDense_keep (V : Valuation τ sig (Elt F)) (r : Ref sig .tc) (h : r ∉ opsDense_W) :
    after opsDense V (no_index (Proc.devRef .tc r)) = V (Proc.devRef .tc r) := after_of_writes_sub opsDense V opsDense_writes h
theorem opsVar_keep (V : Valuation τ sig (Elt F)) (r : Ref sig .tc) (h : r ∉ opsVar_W) :
    after opsVar V (no_index (Proc.devRef .tc r)) = V (Proc.devRef .tc r) := after_of_writes_sub opsVar V opsVar_writes h
theorem opsNorm_keep (V : Valuation τ sig (Elt F)) (r : Ref sig .tc) (h : r ∉ opsNorm_W) :
    after opsNorm V (no_index (Proc.devRef .tc r)) = V (Proc.devRef .tc r) := after_of_writes_sub opsNorm V opsNorm_writes h
theorem opsPool_keep (V : Valuation τ sig (Elt F)) (r : Ref sig .tc) (h : r ∉ opsPool_W) :
    after opsPool V (no_index (Proc.devRef .tc r)) = V (Proc.devRef .tc r) := after_of_writes_sub opsPool V opsPool_writes h

end Cert.ReferenceIdeal.RefOps

end
-- ==== Proof.RefTerm.lean ====
/-
  The reference program's value as pure functions of its arguments: each definition is the composition, in program
  order, of the operations the program text names, at the extended-real instance.

  takeRows / takeNbrPos / nbrFeat are the three row look-ups (an index below zero is moved up by the table's
  240000 rows, an index outside 0 … 239999 yields the not-a-number word instead of a row); relPos subtracts the
  sample's own position from its neighbours'; tail is the dense layer on the concatenated 67 coordinates, the
  per-channel mean and variance over all 960000 rows, the normalisation, the clamp at zero and the maximum over the
  16 neighbours.
-/
import proofs.«107821_j74440373174612_2_alg».proof.ReferenceIdeal
import Idealize.ShloMosaic.PureOps.Ideal

noncomputable section

namespace Cert.ReferenceIdeal.RefTerm

open Cert.ReferenceIdeal Idealize.ShloMosaic
open Cert.ReferenceIdeal.Facts₀ Cert.ReferenceIdeal.Facts

variable [Facts]

/-! ## The look-ups -/

/-- Sample indices with the negative ones moved up by 240000. -/
def normIdx1 (sidx : IVec S60000 32) : IVec S60000 32 :=
  select (cmpi .slt sidx (broadcastInDim S60000 ![] bcast_S_S60000 (constantI S_ 32 0#32)))
    (addi sidx (broadcastInDim S60000 ![] bcast_S_S60000 (constantI S_ 32 240000#32))) sidx

/-- … as a column of one-coordinate index vectors. -/
def idxCol1 (sidx : IVec S60000 32) : IVec S60000x1 32 :=
  broadcastInDim S60000x1 ![0] bcast_S60000_S60000x1_0 (normIdx1 sidx)

/-- Per sample: is the normalised index inside 0 … 239999? -/
def inRange1 (sidx : IVec S60000 32) : IVec S60000 1 :=
  Host.reduce IntOp.andi
    (andi
      (cmpi .sge (idxCol1 sidx) (broadcastInDim S60000x1 ![] bcast_S_S60000x1 (constantI S_ 32 0#32)))
      (cmpi .sle (idxCol1 sidx)
        (broadcastInDim S60000x1 ![0, 1] bcast_S1x1_S60000x1_0_1
          (broadcastInDim S1x1 ![1] bcast_S1_S1x1_1 (constantI S1 32 239999#32)))))
    (constantI S_ 1 1#1) reducesTo_S60000x1_S60000_d1 h_S_

/-- The positions of the samples: row (sidx p) of the point table, or not-a-number when out of range. -/
def takeRows (point : FVec Ideal S240000x3 .f32) (sidx : IVec S60000 32) : FVec Ideal S60000x3 .f32 :=
  select (broadcastInDim S60000x3 ![0] bcast_S60000_S60000x3_0 (inRange1 sidx))
    (Host.gather gather_S240000x3_S60000x1_S60000x3_1_0_n_n_0_1_13 point (idxCol1 sidx))
    (broadcastInDim S60000x3 ![] bcast_S_S60000x3 (constant (F := Ideal) S_ .f32 0x7FC00000#32))

/-- Neighbour indices with the negative ones moved up by 240000. -/
def normIdx2 (kidx : IVec S60000x16 32) : IVec S60000x16 32 :=
  select (cmpi .slt kidx (broadcastInDim S60000x16 ![] bcast_S_S60000x16 (constantI S_ 32 0#32)))
    (addi kidx (broadcastInDim S60000x16 ![] bcast_S_S60000x16 (constantI S_ 32 240000#32))) kidx

/-- … as one-coordinate index vectors. -/
def idxCol2 (kidx : IVec S60000x16 32) : IVec S60000x16x1 32 :=
  broadcastInDim S60000x16x1 ![0, 1] bcast_S60000x16_S60000x16x1_0_1 (normIdx2 kidx)

/-- Per sample and neighbour: is the normalised index inside 0 … 239999? -/
def inRange2 (kidx : IVec S60000x16 32) : IVec S60000x16 1 :=
  Host.reduce IntOp.andi
    (andi
      (cmpi .sge (idxCol2 kidx) (broadcastInDim S60000x16x1 ![] bcast_S_S60000x16x1 (constantI S_ 32 0#32)))
      (cmpi .sle (idxCol2 kidx)
        (broadcastInDim S60000x16x1 ![0, 1, 2] bcast_S1x1x1_S60000x16x1_0_1_2
          (broadcastInDim S1x1x1 ![2] bcast_S1_S1x1x1_2 (constantI S1 32 239999#32)))))
    (constantI S_ 1 1#1) reducesTo_S60000x16x1_S60000x16_d2 h_S_

/-- The positions of the neighbours. -/
def takeNbrPos (point : FVec Ideal S240000x3 .f32) (kidx : IVec S60000x16 32) : FVec Ideal S60000x16x3 .f32 :=
  select (broadcastInDim S60000x16x3 ![0, 1] bcast_S60000x16_S60000x16x3_0_1 (inRange2 kidx))
    (Host.gather gather_S240000x3_S60000x16x1_S60000x16x3_2_0_n_n_0_2_13 point (idxCol2 kidx))
    (broadcastInDim S60000x16x3 ![] bcast_S_S60000x16x3 (constant (F := Ideal) S_ .f32 0x7FC00000#32))

/-- The neighbours' positions relative to their sample's. -/
def relPos (point : FVec Ideal S240000x3 .f32) (sidx : IVec S60000 32) (kidx : IVec S60000x16 32) :
    FVec Ideal S60000x16x3 .f32 :=
  subf (takeNbrPos point kidx)
    (broadcastInDim S60000x16x3 ![0, 1, 2] bcast_S60000x1x3_S60000x16x3_0_1_2
      (broadcastInDim S60000x1x3 ![0, 2] bcast_S60000x3_S60000x1x3_0_2 (takeRows point sidx)))

/-- The features of the neighbours. -/
def nbrFeat (feat : FVec Ideal S240000x64 .f32) (kidx : IVec S60000x16 32) : FVec Ideal S60000x16x64 .f32 :=
  select (broadcastInDim S60000x16x64 ![0, 1] bcast_S60000x16_S60000x16x64_0_1 (inRange2 kidx))
    (Host.gather gather_S240000x64_S60000x16x1_S60000x16x64_2_0_n_n_0_2_164 feat (idxCol2 kidx))
    (broadcastInDim S60000x16x64 ![] bcast_S_S60000x16x64 (constant (F := Ideal) S_ .f32 0x7FC00000#32))

/-! ## The dense layer, the batch statistics and the pooling -/

/-- The 3 relative coordinates followed by the 64 features. -/
def concat (X : FVec Ideal S60000x16x3 .f32) (Fe : FVec Ideal S60000x16x64 .f32) : FVec Ideal S60000x16x67 .f32 :=
  concatenate S60000x16x67 2 [⟨S60000x16x3, X⟩, ⟨S60000x16x64, Fe⟩]
    concatenates_S60000x16x3_S60000x16x64_S60000x16x67_d2

/-- The dense layer: the 67 coordinates against the weight matrix. -/
def dense (X : FVec Ideal S60000x16x3 .f32) (Fe : FVec Ideal S60000x16x64 .f32) (W : FVec Ideal S67x128 .f32) :
    FVec Ideal S60000x16x128 .f32 :=
  Host.dotGeneral dot_S60000x16x67_S67x128_S60000x16x128_2_0_01_1_n_n none (concat X Fe) W

/-- The per-channel sum of Y over samples and neighbours, started from the zero word. -/
def chanSum (Y : FVec Ideal S60000x16x128 .f32) : FVec Ideal S128 .f32 :=
  Host.reduceAdd Y (constant (F := Ideal) S_ .f32 0x00000000#32) reducesTo_S60000x16x128_S128_d0_1 h_S_

/-- The per-channel mean of Y: its sum over the word 960000. -/
def meanOf (Y : FVec Ideal S60000x16x128 .f32) : FVec Ideal S128 .f32 :=
  Host.divf (chanSum Y) (broadcastInDim S128 ![] bcast_S_S128 (constant (F := Ideal) S_ .f32 0x496A6000#32))

/-- The divisor of the variance: the word 960000 less the converted correction 0. -/
def varDivisor : FVec Ideal S_ .f32 :=
  subf (constant (F := Ideal) S_ .f32 0x496A6000#32) (sitofp (F := Ideal) .f32 (constantI S_ 32 0#32))

/-- Y less its per-channel mean, the mean taken on the shape [1,1,128] and spread over all rows. -/
def centred (Y : FVec Ideal S60000x16x128 .f32) : FVec Ideal S60000x16x128 .f32 :=
  subf Y
    (broadcastInDim S60000x16x128 ![0, 1, 2] bcast_S1x1x128_S60000x16x128_0_1_2
      (Host.divf (broadcastInDim S1x1x128 ![2] bcast_S128_S1x1x128_2 (chanSum Y))
        (broadcastInDim S1x1x128 ![] bcast_S_S1x1x128 (constant (F := Ideal) S_ .f32 0x496A6000#32))))

/-- The per-channel sum of squared deviations over the divisor. -/
def varQuot (Y : FVec Ideal S60000x16x128 .f32) : FVec Ideal S128 .f32 :=
  Host.divf (chanSum (mulf (centred Y) (centred Y))) (broadcastInDim S128 ![] bcast_S_S128 varDivisor)

/-- The per-channel variance of Y: the quotient where the divisor is positive, not-a-number otherwise. -/
def varOf (Y : FVec Ideal S60000x16x128 .f32) : FVec Ideal S128 .f32 :=
  select
    (broadcastInDim S128 ![] bcast_S_S128 (cmpf .ogt varDivisor (constant (F := Ideal) S_ .f32 0x00000000#32)))
    (varQuot Y)
    (broadcastInDim S128 ![] bcast_S_S128 (id (constant (F := Ideal) S_ .f32 0x7FC00000#32)))

/-- A per-channel vector spread over samples and neighbours. -/
def spread (v : FVec Ideal S128 .f32) : FVec Ideal S60000x16x128 .f32 :=
  broadcastInDim S60000x16x128 ![0, 1, 2] bcast_S1x1x128_S60000x16x128_0_1_2
    (broadcastInDim S1x1x128 ![2] bcast_S128_S1x1x128_2 v)

/-- The reciprocal standard deviation: the reciprocal square root of the variance plus the small word. -/
def invStdOf (Y : FVec Ideal S60000x16x128 .f32) : FVec Ideal S128 .f32 :=
  Host.rsqrt (addf (varOf Y) (broadcastInDim S128 ![] bcast_S_S128 (constant (F := Ideal) S_ .f32 0x3727C5AC#32)))

/-- Normalise Y per channel, scale by gamma, shift by beta. -/
def normed (Y : FVec Ideal S60000x16x128 .f32) (gamma beta : FVec Ideal S128 .f32) : FVec Ideal S60000x16x128 .f32 :=
  addf (mulf (mulf (subf Y (spread (meanOf Y))) (spread (invStdOf Y))) (spread gamma)) (spread beta)

/-- Clamp at zero. -/
def relu (Z : FVec Ideal S60000x16x128 .f32) : FVec Ideal S60000x16x128 .f32 :=
  maximumf Z (broadcastInDim S60000x16x128 ![] bcast_S_S60000x16x128 (constant (F := Ideal) S_ .f32 0x00000000#32))

/-- The maximum over the 16 neighbours, started from the word of −∞. -/
def poolMax (Z : FVec Ideal S60000x16x128 .f32) : FVec Ideal S60000x128 .f32 :=
  Host.reduce FloatOps.maximumf Z (constant (F := Ideal) S_ .f32 0xFF800000#32)
    reducesTo_S60000x16x128_S60000x128_d1 h_S_

/-- Everything after the look-ups. -/
def tail (X : FVec Ideal S60000x16x3 .f32) (Fe : FVec Ideal S60000x16x64 .f32) (W : FVec Ideal S67x128 .f32)
    (gamma beta : FVec Ideal S128 .f32) : FVec Ideal S60000x128 .f32 :=
  poolMax (relu (normed (dense X Fe W) gamma beta))

/-- The program's second result as a function of its seven arguments. -/
def result (point : FVec Ideal S240000x3 .f32) (feat : FVec Ideal S240000x64 .f32) (W : FVec Ideal S67x128 .f32)
    (gamma beta : FVec Ideal S128 .f32) (sidx : IVec S60000 32) (kidx : IVec S60000x16 32) :
    FVec Ideal S60000x128 .f32 :=
  tail (relPos point sidx kidx) (nbrFeat feat kidx) W gamma beta

end Cert.ReferenceIdeal.RefTerm

end
-- ==== Proof.LibHostFold.lean ====
/-
  A straight line of host operations run in two parts: the contents after the whole line are the contents after the
  second part run from the contents after the first. (The fold of the operations' results over a list splits at any
  point of the list.)
-/
import Idealize.ShloMosaic.Lib.StableHlo.Run

namespace HostFold

open Idealize.ShloMosaic Idealize.ShloMosaic.StableHlo

variable {τ : Topo} {sig : RefSig} {Val : EltTy → Type}

/-- Two stretches run one after the other: the second folds over what the first left. -/
theorem after_append (l₁ l₂ : List (HloOp τ sig Val)) :
    ∀ V : Valuation τ sig Val, after (l₁ ++ l₂) V = after l₂ (after l₁ V) := by
  induction l₁ with
  | nil => intro V; rfl
  | cons op l ih => intro V; simp only [List.cons_append, after_cons, ih]

end HostFold
-- ==== Proof.RefRun.lean ====
/-
  What the reference program leaves in its buffers, as pure terms of its seven arguments.

  Each stretch of the operation list is read on its own, from ANY contents of the device's buffers: the buffer it
  produces holds a named term of the buffers it reads, and every buffer it does not write keeps its contents. The
  stretches are then chained: the contents after the whole list are the contents after the last stretch run from the
  contents after the ones before it. The first result is the samples' positions; the second is the pooled,
  normalised dense layer of the relative positions and the neighbours' features.
-/
import proofs.«107821_j74440373174612_2_alg».proof.Proof.RefOps
import proofs.«107821_j74440373174612_2_alg».proof.Proof.RefTerm
import proofs.«107821_j74440373174612_2_alg».proof.Proof.LibHostFold

noncomputable section

namespace Cert.ReferenceIdeal.RefRun

open Cert.ReferenceIdeal Cert.ReferenceIdeal.RefOps Idealize.ShloMosaic Idealize.ShloMosaic.TcCoe Idealize.SL.Sem
open Idealize.ShloMosaic.StableHlo
open Cert.ReferenceIdeal.Facts₀ Cert.ReferenceIdeal.Facts

variable [Facts]

/-- The neighbours' positions N relative to the samples' positions P: P spread over the 16 neighbours, subtracted. -/
def relOf (N : FVec Ideal S60000x16x3 .f32) (P : FVec Ideal S60000x3 .f32) : FVec Ideal S60000x16x3 .f32 :=
  subf N
    (broadcastInDim S60000x16x3 ![0, 1, 2] bcast_S60000x1x3_S60000x16x3_0_1_2
      (broadcastInDim S60000x1x3 ![0, 2] bcast_S60000x3_S60000x1x3_0_2 P))

/-- Y normalised with a GIVEN per-channel mean and variance, scaled by gamma and shifted by beta. -/
def normedWith (Y : FVec Ideal S60000x16x128 .f32) (mean var gamma beta : FVec Ideal S128 .f32) :
    FVec Ideal S60000x16x128 .f32 :=
  addf (mulf (mulf (subf Y (RefTerm.spread mean))
      (RefTerm.spread (Host.rsqrt (addf var (broadcastInDim S128 ![] bcast_S_S128 (constant (F := Ideal) S_ .f32 0x3727C5AC#32))))))
    (RefTerm.spread gamma)) (RefTerm.spread beta)

/-! ## Typed references

An outlined function's operation is stated over typed references: its function reads contents moved from the
buffer's own type to the tensor type and writes them moved back. Both moves are the identity. -/

/-- Contents moved to a typed reference's buffer type and back are the contents. -/
theorem ofBuf_toBuf {Val : EltTy → Type} {T : BufTy} (x : TRef sig T) (v : T.Contents Val) :
    x.ofBuf (x.toBuf v) = v := by
  obtain ⟨r, h, _, _⟩ := x
  subst h
  rfl

/-- At the result buffer of each outlined function the move back is the identity. -/
theorem wr_v0 (v : FVec Ideal S60000x3 .f32) :
    (TRef.of main_v0 : TRef sig ⟨S60000x3, .f32⟩).toBuf (Val := Elt Ideal) v = v := rfl
theorem wr_v1 (v : FVec Ideal S60000x16x3 .f32) :
    (TRef.of main_v1 : TRef sig ⟨S60000x16x3, .f32⟩).toBuf (Val := Elt Ideal) v = v := rfl
theorem wr_v5 (v : FVec Ideal S60000x16x64 .f32) :
    (TRef.of main_v5 : TRef sig ⟨S60000x16x64, .f32⟩).toBuf (Val := Elt Ideal) v = v := rfl
theorem wr_v11 (v : FVec Ideal S128 .f32) :
    (TRef.of main_v11 : TRef sig ⟨S128, .f32⟩).toBuf (Val := Elt Ideal) v = v := rfl

/-! ## The stretches, each from any contents

Reading a stretch composes its operations' functions at the buffers they read; with the moves between a buffer's
type and its tensor type removed, what is left is the named term by unfolding. -/

/-- After the first look-up the result buffer holds the samples' positions. -/
theorem rows_v0 (V : Valuation τ sig (Elt Ideal)) :
    after (opsRows (F := Ideal)) V (no_index (Proc.devRef .tc main_v0))
      = RefTerm.takeRows (V (Proc.devRef .tc main_arg0)) (V (Proc.devRef .tc main_arg5)) := by
  unfold opsRows
  after_results_simp
  simp only [ofBuf_toBuf, wr_v0]
  rfl

/-- After the second look-up its result buffer holds the neighbours' positions. -/
theorem nbrPos_v1 (V : Valuation τ sig (Elt Ideal)) :
    after (opsNbrPos (F := Ideal)) V (no_index (Proc.devRef .tc main_v1))
      = RefTerm.takeNbrPos (V (Proc.devRef .tc main_arg0)) (V (Proc.devRef .tc main_arg6)) := by
  unfold opsNbrPos
  after_results_simp
  simp only [ofBuf_toBuf, wr_v1]
  rfl

/-- The subtraction leaves the neighbours' positions relative to the samples'. -/
theorem rel_v4 (V : Valuation τ sig (Elt Ideal)) :
    after (opsRel (F := Ideal)) V (no_index (Proc.devRef .tc main_v4))
      = relOf (V (Proc.devRef .tc main_v1)) (V (Proc.devRef .tc main_v0)) := by
  unfold opsRel
  after_results_simp
  rfl

/-- After the third look-up its result buffer holds the neighbours' features. -/
theorem feat_v5 (V : Valuation τ sig (Elt Ideal)) :
    after (opsNbrFeat (F := Ideal)) V (no_index (Proc.devRef .tc main_v5))
      = RefTerm.nbrFeat (V (Proc.devRef .tc main_arg1)) (V (Proc.devRef .tc main_arg6)) := by
  unfold opsNbrFeat
  after_results_simp
  simp only [ofBuf_toBuf, wr_v5]
  rfl

/-- The dense layer's output, of the relative positions, the features and the weights. -/
theorem dense_v7 (V : Valuation τ sig (Elt Ideal)) :
    after (opsDense (F := Ideal)) V (no_index (Proc.devRef .tc main_v7))
      = RefTerm.dense (V (Proc.devRef .tc main_v4)) (V (Proc.devRef .tc main_v5)) (V (Proc.devRef .tc main_arg2)) := by
  unfold opsDense
  after_results_simp
  rfl

set_option maxRecDepth 100000 in
/-- … and its per-channel mean. -/
theorem dense_v10 (V : Valuation τ sig (Elt Ideal)) :
    after (opsDense (F := Ideal)) V (no_index (Proc.devRef .tc main_v10))
      = RefTerm.meanOf
          (RefTerm.dense (V (Proc.devRef .tc main_v4)) (V (Proc.devRef .tc main_v5)) (V (Proc.devRef .tc main_arg2))) := by
  unfold opsDense
  after_results_simp
  rfl

set_option maxRecDepth 100000 in
/-- The per-channel variance of whatever the dense layer's buffer holds. -/
theorem var_v11 (V : Valuation τ sig (Elt Ideal)) :
    after (opsVar (F := Ideal)) V (no_index (Proc.devRef .tc main_v11)) = RefTerm.varOf (V (Proc.devRef .tc main_v7)) := by
  unfold opsVar
  after_results_simp
  simp only [ofBuf_toBuf, wr_v11]
  rfl

set_option maxRecDepth 100000 in
/-- The normalisation, of the dense layer's output, the mean, the variance, the scale and the shift. -/
theorem norm_v26 (V : Valuation τ sig (Elt Ideal)) :
    after (opsNorm (F := Ideal)) V (no_index (Proc.devRef .tc main_v26))
      = normedWith (V (Proc.devRef .tc main_v7)) (V (Proc.devRef .tc main_v10)) (V (Proc.devRef .tc main_v11))
          (V (Proc.devRef .tc main_arg3)) (V (Proc.devRef .tc main_arg4)) := by
  unfold opsNorm
  after_results_simp
  rfl

set_option maxRecDepth 100000 in
/-- The clamp at zero and the maximum over the neighbours. -/
theorem pool_v28 (V : Valuation τ sig (Elt Ideal)) :
    after (opsPool (F := Ideal)) V (no_index (Proc.devRef .tc main_v28))
      = RefTerm.poolMax (RefTerm.relu (V (Proc.devRef .tc main_v26))) := by
  unfold opsPool
  after_results_simp
  simp only [ofBuf_toBuf]
  rfl

/-! ## The whole line -/

/-- The contents after the whole line: the eight stretches folded one after the other. -/
theorem after_ops (V : Valuation τ sig (Elt Ideal)) :
    after (ops (F := Ideal)) V
      = after opsPool (after opsNorm (after opsVar (after opsDense (after opsNbrFeat (after opsRel
          (after opsNbrPos (after opsRows V))))))) := by
  simp only [ops, HostFold.after_append]

/-- The first result: written by the first stretch, untouched by the seven after it. -/
theorem res_v0 (V : Valuation τ sig (Elt Ideal)) :
    after (ops (F := Ideal)) V (Proc.devRef .tc main_v0)
      = RefTerm.takeRows (V (Proc.devRef .tc main_arg0)) (V (Proc.devRef .tc main_arg5)) := by
  rw [after_ops]
  simp (disch := decide) only [rows_v0, opsNbrPos_keep, opsRel_keep, opsNbrFeat_keep, opsDense_keep, opsVar_keep,
    opsNorm_keep, opsPool_keep]

/-- The second result: each stretch's buffer read back through the stretches after it, down to the arguments. -/
theorem res_v28 (V : Valuation τ sig (Elt Ideal)) :
    after (ops (F := Ideal)) V (Proc.devRef .tc main_v28)
      = RefTerm.result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [after_ops]
  simp (disch := decide) only [pool_v28, norm_v26, var_v11, dense_v7, dense_v10, feat_v5, rel_v4, nbrPos_v1, rows_v0,
    opsRows_keep, opsNbrPos_keep, opsRel_keep, opsNbrFeat_keep, opsDense_keep, opsVar_keep, opsNorm_keep, opsPool_keep]
  rfl

/-- An argument is written by no stretch. -/
theorem res_arg (V : Valuation τ sig (Elt Ideal)) (r : Ref sig .tc)
    (h1 : r ∉ opsRows_W) (h2 : r ∉ opsNbrPos_W) (h3 : r ∉ opsRel_W) (h4 : r ∉ opsNbrFeat_W) (h5 : r ∉ opsDense_W)
    (h6 : r ∉ opsVar_W) (h7 : r ∉ opsNorm_W) (h8 : r ∉ opsPool_W) :
    after (ops (F := Ideal)) V (Proc.devRef .tc r) = V (Proc.devRef .tc r) := by
  rw [after_ops, opsPool_keep _ r h8, opsNorm_keep _ r h7, opsVar_keep _ r h6, opsDense_keep _ r h5,
    opsNbrFeat_keep _ r h4, opsRel_keep _ r h3, opsNbrPos_keep _ r h2, opsRows_keep _ r h1]

/-- On every device, from any memory with zero counters: every weakly fair execution of the reference program
    terminates with the first result at the samples' positions, the second at the pooled normalised dense layer, both
    as terms of the arguments' contents at the start, and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
          = RefTerm.takeRows (m ((c.tc : Thread nD τ).loc main_arg0)) (m ((c.tc : Thread nD τ).loc main_arg5))
      ∧ r.2.mem ((c.tc : Thread nD τ).loc main_v28)
          = RefTerm.result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_v0).trans (res_v0 (launchContents m c)),
        (h c main_v28).trans (res_v28 (launchContents m c)),
        (h c main_arg0).trans (res_arg _ main_arg0 (by decide) (by decide) (by decide) (by decide) (by decide) (by decide) (by decide) (by decide)),
        (h c main_arg1).trans (res_arg _ main_arg1 (by decide) (by decide) (by decide) (by decide) (by decide) (by decide) (by decide) (by decide)),
        (h c main_arg2).trans (res_arg _ main_arg2 (by decide) (by decide) (by decide) (by decide) (by decide) (by decide) (by decide) (by decide)),
        (h c main_arg3).trans (res_arg _ main_arg3 (by decide) (by decide) (by decide) (by decide) (by decide) (by decide) (by decide) (by decide)),
        (h c main_arg4).trans (res_arg _ main_arg4 (by decide) (by decide) (by decide) (by decide) (by decide) (by decide) (by decide) (by decide)),
        (h c main_arg5).trans (res_arg _ main_arg5 (by decide) (by decide) (by decide) (by decide) (by decide) (by decide) (by decide) (by decide)),
        (h c main_arg6).trans (res_arg _ main_arg6 (by decide) (by decide) (by decide) (by decide) (by decide) (by decide) (by decide) (by decide))⟩)
    (run_ops m ρ)

end Cert.ReferenceIdeal.RefRun

end
-- ==== Proof.RefLayout.lean ====
/-
  Rank-3 arrays whose two leading axes are summed or whose middle axis is maximised, read at an entry, for any extents:
  a vector [c] given two unit leading axes [1, 1, c]; such an array spread over [a, b, c]; a sum over every index of
  [a, b, c] as a triple sum over the coordinates; the host's sum of [a, b, c] over its two leading axes; the host's
  maximum of [a, b, c] along its middle axis.
-/
import Idealize.ShloMosaic.Lib.Pipeline.Value
import Idealize.ShloMosaic.Lib.ValueIdx
import Idealize.ShloMosaic.PureOps.Ideal.Laws

noncomputable section

open scoped BigOperators

namespace Cert.RefLayout

open Idealize.ShloMosaic Idealize.ShloMosaic.ValueIdx

variable {α : Type}

/-- A vector [c] given two unit leading axes: entry (0, 0, r) is entry r. -/
theorem vec_unit2_apply {c : Nat} (h : (⟨1, ![c]⟩ : Shape).BroadcastsInDim ⟨3, ![1, 1, c]⟩ (![2] : Fin 1 → Fin 3))
    (v : (⟨1, ![c]⟩ : Shape).Idx → α) (z z' : Fin 1) (r : Fin c) :
    broadcastInDim ⟨3, ![1, 1, c]⟩ ![2] h v (ix3 z z' r) = v (ix1 r) :=
  broadcastInDim_apply _ h v (ix3 z z' r) (ix1 r) (fun ax => match ax with
    | ⟨0, _⟩ => by
      show r.val = if c = 1 then 0 else r.val
      split
      · have := r.isLt; omega
      · rfl)

/-- [1, 1, c] spread over [a, b, c]: entry (p, q, r) is entry (0, 0, r). -/
theorem spread_unit2_apply {a b c : Nat}
    (h : (⟨3, ![1, 1, c]⟩ : Shape).BroadcastsInDim ⟨3, ![a, b, c]⟩ (![0, 1, 2] : Fin 3 → Fin 3))
    (v : (⟨3, ![1, 1, c]⟩ : Shape).Idx → α) (p : Fin a) (q : Fin b) (r : Fin c) :
    broadcastInDim ⟨3, ![a, b, c]⟩ ![0, 1, 2] h v (ix3 p q r) = v (ix3 (0 : Fin 1) (0 : Fin 1) r) :=
  broadcastInDim_apply _ h v (ix3 p q r) (ix3 (0 : Fin 1) (0 : Fin 1) r) (fun ax => match ax with
    | ⟨0, _⟩ => by
      show (0 : Nat) = if (1 : Nat) = 1 then 0 else p.val
      rfl
    | ⟨1, _⟩ => by
      show (0 : Nat) = if (1 : Nat) = 1 then 0 else q.val
      rfl
    | ⟨2, _⟩ => by
      show r.val = if c = 1 then 0 else r.val
      split
      · have := r.isLt; omega
      · rfl)

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's sum of [a, b, c] over its two leading axes: the starting value plus the double sum over (p, q) of
    entry (p, q, r). An entry reduces to channel r exactly when its last coordinate is r. -/
theorem hsum_lead2_apply {a b c : Nat} {u : Shape} (x : FVec Ideal ⟨3, ![a, b, c]⟩ .f32) (init : u.Idx → Ideal .f32)
    (h' : (⟨3, ![a, b, c]⟩ : Shape).ReducesTo [0, 1] ⟨1, ![c]⟩) (hu : 0 < u.numel) (r : Fin c) :
    Host.reduceAdd x init h' hu (ix1 r) = init (Shape.Idx.first hu) + ∑ p : Fin a, ∑ q : Fin b, x (ix3 p q r) := by
  simp only [Host.reduceAdd, Ideal.hostReduceAdd_def]
  unfold Ideal.hostReduceAdd
  refine congrArg (_ + ·) ?_
  rw [Finset.sum_filter, sum_idx3]
  refine Finset.sum_congr rfl fun p _ => Finset.sum_congr rfl fun q _ => ?_
  have hv : ∀ r' : Fin c, ((h'.drop (ix3 p q r') 0 : Fin _) : Nat) = r'.val := fun r' =>
    Shape.ReducesTo.drop_apply_val_of_eq h' (ix3 p q r') 0 2 (show (0 : Nat) < 1 from Nat.one_pos) rfl
  have hd : ∀ r' : Fin c, (h'.drop (ix3 p q r') = ix1 r) ↔ r' = r := fun r' => by
    constructor
    · intro e
      have e0 := congrArg (fun j : (⟨1, ![c]⟩ : Shape).Idx => ((j 0 : Fin _) : Nat)) e
      exact Fin.ext ((hv r').symm.trans e0)
    · rintro rfl
      funext ax
      match ax with
      | ⟨0, _⟩ => exact Fin.ext (hv r')
  simp only [hd]
  rw [Finset.sum_ite_eq' Finset.univ r]
  simp

/-- The host's maximum of [a, b, c] along its middle axis: the fold of max from the starting value over q of entry
    (p, q, r). -/
theorem hmax_mid_apply {a b c : Nat} {u : Shape} (x : FVec Ideal ⟨3, ![a, b, c]⟩ .f32) (init : u.Idx → Ideal .f32)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (r : Fin c) :
    Host.reduce (FloatOps.maximumf (F := Ideal) (φ := .f32)) x init h' hu (ix2 p r)
      = (Finset.univ : Finset (Fin b)).fold max (init (Shape.Idx.first hu)) (fun q => x (ix3 p q r)) := by
  show Host.reduce (max : EReal → EReal → EReal) x init h' hu (ix2 p r) = _
  rw [Host.reduce_eq_fold_single (max : EReal → EReal → EReal) x init h' h hu (ix2 p r)]
  exact congrArg (fun f => (Finset.univ : Finset (Fin b)).fold max (init (Shape.Idx.first hu)) f)
    (funext fun q => congrArg x (funext fun ax => Fin.ext (by match ax with | ⟨0, _⟩ => rfl | ⟨1, _⟩ => rfl | ⟨2, _⟩ => rfl)))

end Cert.RefLayout

end
-- ==== Proof.LibBatchLayout.lean ====
/-
  Arrays with a leading batch axis read at an entry, for any extents: a matrix [a, b] given a unit last axis [a, b, 1] or
  a unit middle axis [a, 1, c]; such an array spread over [a, b, c]; a number spread over any shape; the sum and the
  maximum of [a, b, c] along its last axis, and the sum along its middle axis, as the host computes them from a
  starting value.
-/
import Idealize.ShloMosaic.Lib.Pipeline.Value
import Idealize.ShloMosaic.Lib.ValueIdx
import Idealize.ShloMosaic.PureOps.Ideal.Laws

noncomputable section

open scoped BigOperators

namespace BatchLayout

open Idealize.ShloMosaic Idealize.ShloMosaic.ValueIdx

variable {α : Type}

/-- A matrix [a, b] given a unit last axis: entry (p, q, 0) is entry (p, q). -/
theorem unit_last_apply {a b : Nat} (h : (⟨2, ![a, b]⟩ : Shape).BroadcastsInDim ⟨3, ![a, b, 1]⟩ (![0, 1] : Fin 2 → Fin 3))
    (v : (⟨2, ![a, b]⟩ : Shape).Idx → α) (p : Fin a) (q : Fin b) (z : Fin 1) :
    broadcastInDim ⟨3, ![a, b, 1]⟩ ![0, 1] h v (ix3 p q z) = v (ix2 p q) :=
  broadcastInDim_apply _ h v (ix3 p q z) (ix2 p q) (fun ax => match ax with
    | ⟨0, _⟩ => by
      show p.val = if a = 1 then 0 else p.val
      split
      · have := p.isLt; omega
      · rfl
    | ⟨1, _⟩ => by
      show q.val = if b = 1 then 0 else q.val
      split
      · have := q.isLt; omega
      · rfl)

/-- A matrix [a, c] given a unit middle axis: entry (p, 0, r) is entry (p, r). -/
theorem unit_mid_apply {a c : Nat} (h : (⟨2, ![a, c]⟩ : Shape).BroadcastsInDim ⟨3, ![a, 1, c]⟩ (![0, 2] : Fin 2 → Fin 3))
    (v : (⟨2, ![a, c]⟩ : Shape).Idx → α) (p : Fin a) (z : Fin 1) (r : Fin c) :
    broadcastInDim ⟨3, ![a, 1, c]⟩ ![0, 2] h v (ix3 p z r) = v (ix2 p r) :=
  broadcastInDim_apply _ h v (ix3 p z r) (ix2 p r) (fun ax => match ax with
    | ⟨0, _⟩ => by
      show p.val = if a = 1 then 0 else p.val
      split
      · have := p.isLt; omega
      · rfl
    | ⟨1, _⟩ => by
      show r.val = if c = 1 then 0 else r.val
      split
      · have := r.isLt; omega
      · rfl)

/-- [a, b, 1] spread over [a, b, c]: entry (p, q, r) is entry (p, q, 0). -/
theorem spread_last_apply {a b c : Nat}
    (h : (⟨3, ![a, b, 1]⟩ : Shape).BroadcastsInDim ⟨3, ![a, b, c]⟩ (![0, 1, 2] : Fin 3 → Fin 3))
    (v : (⟨3, ![a, b, 1]⟩ : Shape).Idx → α) (p : Fin a) (q : Fin b) (r : Fin c) :
    broadcastInDim ⟨3, ![a, b, c]⟩ ![0, 1, 2] h v (ix3 p q r) = v (ix3 p q (0 : Fin 1)) :=
  broadcastInDim_apply _ h v (ix3 p q r) (ix3 p q (0 : Fin 1)) (fun ax => match ax with
    | ⟨0, _⟩ => by
      show p.val = if a = 1 then 0 else p.val
      split
      · have := p.isLt; omega
      · rfl
    | ⟨1, _⟩ => by
      show q.val = if b = 1 then 0 else q.val
      split
      · have := q.isLt; omega
      · rfl
    | ⟨2, _⟩ => by
      show (0 : Nat) = if (1 : Nat) = 1 then 0 else r.val
      rfl)

/-- [a, 1, c] spread over [a, b, c]: entry (p, q, r) is entry (p, 0, r). -/
theorem spread_mid_apply {a b c : Nat}
    (h : (⟨3, ![a, 1, c]⟩ : Shape).BroadcastsInDim ⟨3, ![a, b, c]⟩ (![0, 1, 2] : Fin 3 → Fin 3))
    (v : (⟨3, ![a, 1, c]⟩ : Shape).Idx → α) (p : Fin a) (q : Fin b) (r : Fin c) :
    broadcastInDim ⟨3, ![a, b, c]⟩ ![0, 1, 2] h v (ix3 p q r) = v (ix3 p (0 : Fin 1) r) :=
  broadcastInDim_apply _ h v (ix3 p q r) (ix3 p (0 : Fin 1) r) (fun ax => match ax with
    | ⟨0, _⟩ => by
      show p.val = if a = 1 then 0 else p.val
      split
      · have := p.isLt; omega
      · rfl
    | ⟨1, _⟩ => by
      show (0 : Nat) = if (1 : Nat) = 1 then 0 else q.val
      rfl
    | ⟨2, _⟩ => by
      show r.val = if c = 1 then 0 else r.val
      split
      · have := r.isLt; omega
      · rfl)

/-- A number spread over any shape: every entry is the number. -/
theorem splat_apply {t : Shape} (h : (⟨0, ![]⟩ : Shape).BroadcastsInDim t (![] : Fin 0 → Fin t.rank))
    (v : (⟨0, ![]⟩ : Shape).Idx → α) (j : t.Idx) :
    broadcastInDim t ![] h v j = v ix0 :=
  broadcastInDim_apply _ h v j ix0 (fun ax => ax.elim0)

/-- The host's sum of [a, b, c] along the last axis: the starting value plus the sum over r of entry (p, q, r). -/
theorem hsum_last_apply {a b c : Nat} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ r : Fin c, x (ix3 p q r) := by
  simp only [Host.reduceAdd, Ideal.hostReduceAdd_def]
  rw [Ideal.hostReduceAdd_single h' h]
  refine congrArg (_ + ·) (Finset.sum_congr rfl fun r _ => ?_)
  exact congrArg x (funext fun ax => Fin.ext (by match ax with | ⟨0, _⟩ => rfl | ⟨1, _⟩ => rfl | ⟨2, _⟩ => rfl))

/-- The host's sum of [a, b, c] along the middle axis: the starting value plus the sum over q of entry (p, q, r). -/
theorem hsum_mid_apply {a b c : Nat} {u : Shape} (x : FVec Ideal ⟨3, ![a, b, c]⟩ .f32) (init : u.Idx → Ideal .f32)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (r : Fin c) :
    Host.reduceAdd x init h' hu (ix2 p r) = init (Shape.Idx.first hu) + ∑ q : Fin b, x (ix3 p q r) := by
  simp only [Host.reduceAdd, Ideal.hostReduceAdd_def]
  rw [Ideal.hostReduceAdd_single h' h]
  refine congrArg (_ + ·) (Finset.sum_congr rfl fun q _ => ?_)
  exact congrArg x (funext fun ax => Fin.ext (by match ax with | ⟨0, _⟩ => rfl | ⟨1, _⟩ => rfl | ⟨2, _⟩ => rfl))

/-- The host's maximum of [a, b, c] along the last axis: the fold of `max` from the starting value over r of entry
    (p, q, r). -/
theorem hmax_last_apply {a b c : Nat} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun r => x (ix3 p q r)) := by
  show Host.reduce (max : EReal → EReal → EReal) x init h' hu (ix2 p q) = _
  rw [Host.reduce_eq_fold_single (max : EReal → EReal → EReal) x init h' h hu (ix2 p q)]
  exact congrArg (fun f => (Finset.univ : Finset (Fin c)).fold max (init (Shape.Idx.first hu)) f)
    (funext fun r => congrArg x (funext fun ax => Fin.ext (by match ax with | ⟨0, _⟩ => rfl | ⟨1, _⟩ => rfl | ⟨2, _⟩ => rfl)))

end BatchLayout

end
-- ==== Proof.RefValue.lean ====
/-
  The reference program's value read entry by entry: the dense layer at (sample, neighbour, channel) as the two sums
  of the shared specification; the per-channel mean and variance as sums over all 960000 rows; the normalised,
  clamped and pooled result at (sample, channel). Only re-indexing of finite sums over the extended reals is used
  (a sum over 67 terms is the sum over the first 3 plus the sum over the last 64); no value is evaluated.
-/
import proofs.«107821_j74440373174612_2_alg».proof.Proof.RefTerm
import proofs.«107821_j74440373174612_2_alg».proof.Proof.DenseSpec
import proofs.«107821_j74440373174612_2_alg».proof.Proof.RefLayout
import proofs.«107821_j74440373174612_2_alg».proof.Proof.LibBatchLayout
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.RefTerm Idealize.ShloMosaic Idealize.ShloMosaic.ValueIdx
open Cert.ReferenceIdeal.Facts₀ Cert.ReferenceIdeal.Facts

variable [Facts]

/-! ## The dense layer at an entry -/

/-- The dense layer's contraction: the last axis of the 67-coordinate rows against the first axis of the weights. -/
abbrev D67 : DotDims S60000x16x67 S67x128 S60000x16x128 := dot_S60000x16x67_S67x128_S60000x16x128_2_0_01_1_n_n

/-- The left operand is read at the result's sample and neighbour and at the contracted coordinate … -/
theorem lhs67_0 (j : S60000x16x128.Idx) (k : D67.contr.Idx) : (D67.lhsIdx j k 0 : ℕ) = j 0 := by
  simp [DotDims.lhsIdx, D67, dot_S60000x16x67_S67x128_S60000x16x128_2_0_01_1_n_n]; rfl
theorem lhs67_1 (j : S60000x16x128.Idx) (k : D67.contr.Idx) : (D67.lhsIdx j k 1 : ℕ) = j 1 := by
  simp [DotDims.lhsIdx, D67, dot_S60000x16x67_S67x128_S60000x16x128_2_0_01_1_n_n]; rfl
theorem lhs67_2 (j : S60000x16x128.Idx) (k : D67.contr.Idx) : (D67.lhsIdx j k 2 : ℕ) = k ⟨0, Nat.one_pos⟩ := by
  simp [DotDims.lhsIdx, D67, dot_S60000x16x67_S67x128_S60000x16x128_2_0_01_1_n_n]; rfl
/-- … and the right operand at the contracted coordinate and the result's channel. -/
theorem rhs67_0 (j : S60000x16x128.Idx) (k : D67.contr.Idx) : (D67.rhsIdx j k 0 : ℕ) = k ⟨0, Nat.one_pos⟩ := by
  simp [DotDims.rhsIdx, D67, dot_S60000x16x67_S67x128_S60000x16x128_2_0_01_1_n_n]; rfl
theorem rhs67_1 (j : S60000x16x128.Idx) (k : D67.contr.Idx) : (D67.rhsIdx j k 1 : ℕ) = j 2 := by
  simp [DotDims.rhsIdx, D67, dot_S60000x16x67_S67x128_S60000x16x128_2_0_01_1_n_n]; rfl

/-- The contraction index is one coordinate below 67 = 3 + 64. -/
def contr67 : D67.contr.Idx ≃ Fin (3 + 64) := contrEquiv1 D67 (3 + 64) rfl rfl

theorem contr67_symm_val (c : Fin (3 + 64)) : ((contr67.symm c) ⟨0, Nat.one_pos⟩ : ℕ) = c.val :=
  contrEquiv1_symm_val D67 (3 + 64) rfl rfl c

/-- Two indices of the 67-coordinate rows with equal coordinates are equal. -/
theorem idx67_ext {x y : S60000x16x67.Idx} (h0 : (x 0 : ℕ) = y 0) (h1 : (x 1 : ℕ) = y 1) (h2 : (x 2 : ℕ) = y 2) : x = y :=
  funext fun a => Fin.ext (match a with | ⟨0, _⟩ => h0 | ⟨1, _⟩ => h1 | ⟨2, _⟩ => h2)

/-- Two indices of the weight matrix with equal coordinates are equal. -/
theorem idxW_ext {x y : S67x128.Idx} (h0 : (x 0 : ℕ) = y 0) (h1 : (x 1 : ℕ) = y 1) : x = y :=
  funext fun a => Fin.ext (match a with | ⟨0, _⟩ => h0 | ⟨1, _⟩ => h1)

/-- The first three rows of the weight matrix: the rows that meet the relative position. -/
def WxOf (W : FVec Ideal S67x128 .f32) : FVec Ideal Cert.Dense.SWx .f32 :=
  fun j => W (ix2 (⟨(j 0).val, by have := idx2_lt0 j; omega⟩ : Fin 67) (j 1))

/-- The remaining 64 rows of the weight matrix: the rows that meet the features. -/
def WfOf (W : FVec Ideal S67x128 .f32) : FVec Ideal Cert.Dense.SWf .f32 :=
  fun j => W (ix2 (⟨(j 0).val + 3, by have := idx2_lt0 j; omega⟩ : Fin 67) (j 1))

/-- Coordinate c < 3 of a concatenated row is coordinate c of the relative position. -/
theorem concat_left (X : FVec Ideal S60000x16x3 .f32) (Fe : FVec Ideal S60000x16x64 .f32)
    (p : Fin 60000) (k : Fin 16) (c : Fin 3) (j : S60000x16x67.Idx)
    (h0 : (j 0 : ℕ) = p) (h1 : (j 1 : ℕ) = k) (h2 : (j 2 : ℕ) = c) :
    concat X Fe j = X (ix3 p k c) := by
  unfold concat
  exact concatenate_pair_apply_left (2 : Fin 3) X Fe _ j rfl (ix3 p k c) (fun b => match b with
    | ⟨0, _⟩ => h0.symm
    | ⟨1, _⟩ => h1.symm
    | ⟨2, _⟩ => h2.symm)

/-- Coordinate 3 + c of a concatenated row is coordinate c of the features. -/
theorem concat_right (X : FVec Ideal S60000x16x3 .f32) (Fe : FVec Ideal S60000x16x64 .f32)
    (p : Fin 60000) (k : Fin 16) (c : Fin 64) (j : S60000x16x67.Idx)
    (h0 : (j 0 : ℕ) = p) (h1 : (j 1 : ℕ) = k) (h2 : (j 2 : ℕ) = 3 + c) :
    concat X Fe j = Fe (ix3 p k c) := by
  unfold concat
  exact concatenate_pair_apply_right (2 : Fin 3) X Fe _ j rfl rfl (ix3 p k c) (fun b => match b with
    | ⟨0, _⟩ => fun _ => h0.symm
    | ⟨1, _⟩ => fun _ => h1.symm
    | ⟨2, _⟩ => fun hne => absurd rfl hne)
    (by show c.val + 3 = (j 2 : ℕ); omega)

/-- The dense layer at sample p, neighbour k, channel d: the 67 products split as the 3 of the relative position
    against the first three weight rows and the 64 of the features against the rest. -/
theorem dense_entry (X : FVec Ideal S60000x16x3 .f32) (Fe : FVec Ideal S60000x16x64 .f32) (W : FVec Ideal S67x128 .f32)
    (p : Fin 60000) (k : Fin 16) (d : Fin 128) :
    dense X Fe W (ix3 p k d) = Cert.Dense.pre X Fe (WxOf W) (WfOf W) p k d := by
  unfold dense Cert.Dense.pre
  simp only [Host.dotGeneral]
  rw [Ideal.dotGeneral_apply, ← Equiv.sum_comp contr67.symm, Fin.sum_univ_add]
  congr 1
  · refine Finset.sum_congr rfl fun c _ => ?_
    congr 1
    · exact concat_left X Fe p k c _ (lhs67_0 _ _) (lhs67_1 _ _)
        ((lhs67_2 _ _).trans (contr67_symm_val _))
    · exact congrArg W (idxW_ext ((rhs67_0 _ _).trans (contr67_symm_val _)) (rhs67_1 _ _))
  · refine Finset.sum_congr rfl fun c _ => ?_
    congr 1
    · exact concat_right X Fe p k c _ (lhs67_0 _ _) (lhs67_1 _ _)
        ((lhs67_2 _ _).trans (contr67_symm_val _))
    · exact congrArg W (idxW_ext (((rhs67_0 _ _).trans (contr67_symm_val _)).trans (Nat.add_comm 3 c.val))
        (rhs67_1 _ _))

/-! ## The batch statistics at a channel -/

/-- The host's quotient and reciprocal square root act entry by entry. -/
theorem hostDivf_apply {s : Shape} {φ : FTy} (a b : FVec Ideal s φ) (i : s.Idx) :
    Host.divf a b i = Ideal.div (a i) (b i) := rfl
theorem hostRsqrt_apply {s : Shape} {φ : FTy} (a : FVec Ideal s φ) (i : s.Idx) :
    Host.rsqrt a i = Ideal.rsqrt (a i) := rfl

/-- The per-channel sum: the zero word plus the sum over all samples and neighbours. -/
theorem chanSum_entry (Y : FVec Ideal S60000x16x128 .f32) (d : Fin 128) :
    chanSum Y (ix1 d) = Ideal.ofBits .f32 0x00000000#32 + ∑ p : Fin 60000, ∑ k : Fin 16, Y (ix3 p k d) :=
  Cert.RefLayout.hsum_lead2_apply Y _ reducesTo_S60000x16x128_S128_d0_1 h_S_ d

/-- The per-channel mean: that sum over the word 960000. -/
theorem meanOf_entry (Y : FVec Ideal S60000x16x128 .f32) (d : Fin 128) :
    meanOf Y (ix1 d)
      = Ideal.div (Ideal.ofBits .f32 0x00000000#32 + ∑ p : Fin 60000, ∑ k : Fin 16, Y (ix3 p k d))
          (Ideal.ofBits .f32 0x496A6000#32) := by
  unfold meanOf
  rw [hostDivf_apply, chanSum_entry, BatchLayout.splat_apply]
  rfl

/-- The mean of the dense layer at channel d. -/
theorem mean_entry (X : FVec Ideal S60000x16x3 .f32) (Fe : FVec Ideal S60000x16x64 .f32) (W : FVec Ideal S67x128 .f32)
    (d : Fin 128) :
    meanOf (dense X Fe W) (ix1 d)
      = Ideal.div (Ideal.ofBits .f32 0x00000000#32 + ∑ p : Fin 60000, ∑ k : Fin 16, dense X Fe W (ix3 p k d))
          (Ideal.ofBits .f32 0x496A6000#32) :=
  meanOf_entry _ d

/-- The variance's divisor as a number: the word 960000 less the correction 0 converted to a float. -/
def varDiv : EReal := varDivisor ix0

theorem varDiv_eq :
    varDiv = Ideal.ofBits .f32 0x496A6000#32 - (((0#32 : BitVec 32).toInt : ℝ) : EReal) := rfl

/-- Is the divisor positive? (The comparison the program makes against the zero word.) -/
def varPos : BitVec 1 := Ideal.cmp .ogt varDiv (Ideal.ofBits .f32 0x00000000#32)

/-- A per-channel vector spread over samples and neighbours reads its channel. -/
theorem spread_entry (v : FVec Ideal S128 .f32) (p : Fin 60000) (k : Fin 16) (d : Fin 128) :
    spread v (ix3 p k d) = v (ix1 d) := by
  unfold spread
  rw [Cert.RefLayout.spread_unit2_apply, Cert.RefLayout.vec_unit2_apply]

/-- The deviation from the mean as the variance computes it: the entry less the channel's mean. -/
theorem centred_entry (Y : FVec Ideal S60000x16x128 .f32) (p : Fin 60000) (k : Fin 16) (d : Fin 128) :
    centred Y (ix3 p k d) = Y (ix3 p k d) - meanOf Y (ix1 d) := by
  unfold centred
  rw [subf_apply, Cert.RefLayout.spread_unit2_apply, hostDivf_apply, Cert.RefLayout.vec_unit2_apply,
    BatchLayout.splat_apply, meanOf_entry, chanSum_entry]
  rfl

/-- The per-channel variance: where the divisor is positive, the zero word plus the sum of squared deviations over
    the divisor; the not-a-number word otherwise. -/
theorem varOf_entry (Y : FVec Ideal S60000x16x128 .f32) (d : Fin 128) :
    varOf Y (ix1 d)
      = Scalar.select varPos
          (Ideal.div
            (Ideal.ofBits .f32 0x00000000#32
              + ∑ p : Fin 60000, ∑ k : Fin 16,
                  (Y (ix3 p k d) - meanOf Y (ix1 d)) * (Y (ix3 p k d) - meanOf Y (ix1 d)))
            varDiv)
          (Ideal.ofBits .f32 0x7FC00000#32) := by
  unfold varOf
  rw [select_apply, BatchLayout.splat_apply, BatchLayout.splat_apply]
  unfold varQuot
  rw [hostDivf_apply, chanSum_entry, BatchLayout.splat_apply]
  simp only [mulf_apply, centred_entry]
  rfl

/-- The variance of the dense layer at channel d. -/
theorem variance_entry (X : FVec Ideal S60000x16x3 .f32) (Fe : FVec Ideal S60000x16x64 .f32)
    (W : FVec Ideal S67x128 .f32) (d : Fin 128) :
    varOf (dense X Fe W) (ix1 d)
      = Scalar.select varPos
          (Ideal.div
            (Ideal.ofBits .f32 0x00000000#32
              + ∑ p : Fin 60000, ∑ k : Fin 16,
                  (dense X Fe W (ix3 p k d) - meanOf (dense X Fe W) (ix1 d))
                    * (dense X Fe W (ix3 p k d) - meanOf (dense X Fe W) (ix1 d)))
            varDiv)
          (Ideal.ofBits .f32 0x7FC00000#32) :=
  varOf_entry _ d

/-- The reciprocal standard deviation: the reciprocal square root of the variance plus the small word. -/
theorem invStdOf_entry (Y : FVec Ideal S60000x16x128 .f32) (d : Fin 128) :
    invStdOf Y (ix1 d) = Ideal.rsqrt (varOf Y (ix1 d) + Ideal.ofBits .f32 0x3727C5AC#32) := by
  unfold invStdOf
  rw [hostRsqrt_apply, addf_apply, BatchLayout.splat_apply]
  rfl

/-! ## Normalisation, clamp and pooling at an entry -/

/-- The normalised, scaled and shifted value at an entry. -/
theorem normed_entry (Y : FVec Ideal S60000x16x128 .f32) (gamma beta : FVec Ideal S128 .f32)
    (p : Fin 60000) (k : Fin 16) (d : Fin 128) :
    normed Y gamma beta (ix3 p k d)
      = ((Y (ix3 p k d) - meanOf Y (ix1 d)) * invStdOf Y (ix1 d)) * gamma (ix1 d) + beta (ix1 d) := by
  unfold normed
  simp only [addf_apply, mulf_apply, subf_apply, spread_entry]

/-- The clamp at an entry. -/
theorem relu_entry (Z : FVec Ideal S60000x16x128 .f32) (j : S60000x16x128.Idx) :
    relu Z j = max (Z j) (Ideal.ofBits .f32 0x00000000#32) := by
  unfold relu
  rw [maximumf_apply, BatchLayout.splat_apply]
  rfl

/-- The pooling at an entry: the maximum over the 16 neighbours from the word of −∞. -/
theorem poolMax_entry (Z : FVec Ideal S60000x16x128 .f32) (p : Fin 60000) (d : Fin 128) :
    poolMax Z (ix2 p d) = Cert.Dense.maxNbr fun k => Z (ix3 p k d) :=
  Cert.RefLayout.hmax_mid_apply Z _ reducesTo_S60000x16x128_S60000x128_d1 (by decide) h_S_ p d

/-- Everything after the look-ups, at sample p and channel d. -/
theorem tail_entry (X : FVec Ideal S60000x16x3 .f32) (Fe : FVec Ideal S60000x16x64 .f32) (W : FVec Ideal S67x128 .f32)
    (gamma beta : FVec Ideal S128 .f32) (p : Fin 60000) (d : Fin 128) :
    tail X Fe W gamma beta (ix2 p d)
      = Cert.Dense.maxNbr fun k =>
          max (((dense X Fe W (ix3 p k d) - meanOf (dense X Fe W) (ix1 d)) * invStdOf (dense X Fe W) (ix1 d))
                * gamma (ix1 d) + beta (ix1 d))
            (Ideal.ofBits .f32 0x00000000#32) := by
  unfold tail
  rw [poolMax_entry]
  simp only [relu_entry, normed_entry]

end Cert.ReferenceIdeal.RefValue

end
-- ==== Proof.NormAlgebra.lean ====
/-
  The real-number facts that join the two programs.

  * The rows the two-pass program visits — half `h`, block `i` of the half, flattened row `r` of the block — are the pairs
    (sample, neighbour), each once: a sum over the former is the sum over the latter.
  * For real numbers `y i` over a finite index set with `N` elements, the mean of the squared deviations from the mean is
    the mean of the squares minus the square of the mean; being a mean of squares it is not negative, so clamping it at
    zero changes nothing.
  * Normalising then scaling, `(y − μ)·r·γ + β`, is the affine map `y·(γ·r) + (β − μ·γ·r)`.
-/
import Mathlib
import proofs.«107821_j74440373174612_2_alg».proof.Proof.DenseSpec

noncomputable section

namespace Cert.Dense

open scoped BigOperators

/-- Half, block in the half and flattened row against sample and neighbour: sample `600·(50 h + i) + r / 16`, neighbour
    `r % 16`; back: half `p / 30000`, block `(p / 600) % 50`, row `16·(p % 600) + k`. -/
def rowEquiv : (Fin 2 × Fin 50) × Fin 9600 ≃ Fin 60000 × Fin 16 where
  toFun x := (rowOf (blkOf x.1.1 x.1.2) x.2, nbrOf x.2)
  invFun y := ((⟨y.1.val / 30000, by omega⟩, ⟨(y.1.val / 600) % 50, by omega⟩), ⟨(y.1.val % 600) * 16 + y.2.val, by omega⟩)
  left_inv := by
    rintro ⟨⟨h, i⟩, r⟩
    simp only [rowOf, blkOf, nbrOf, Prod.mk.injEq, Fin.mk.injEq, Fin.ext_iff]
    refine ⟨⟨?_, ?_⟩, ?_⟩ <;> omega
  right_inv := by
    rintro ⟨p, k⟩
    simp only [rowOf, blkOf, nbrOf, Prod.mk.injEq, Fin.mk.injEq, Fin.ext_iff]
    refine ⟨?_, ?_⟩ <;> omega

/-- A sum over halves, blocks and block rows is the sum over samples and neighbours (any commutative monoid: no
    finiteness is involved). -/
theorem sum_rows_eq {M : Type*} [AddCommMonoid M] (f : Fin 60000 → Fin 16 → M) :
    ∑ h : Fin 2, ∑ i : Fin 50, ∑ r : Fin 9600, f (rowOf (blkOf h i) r) (nbrOf r) = ∑ p : Fin 60000, ∑ k : Fin 16, f p k := by
  rw [← Fintype.sum_prod_type' (f := fun (h : Fin 2) (i : Fin 50) => ∑ r : Fin 9600, f (rowOf (blkOf h i) r) (nbrOf r))]
  rw [← Fintype.sum_prod_type' (f := fun (x : Fin 2 × Fin 50) (r : Fin 9600) => f (rowOf (blkOf x.1 x.2) r) (nbrOf r))]
  rw [← Fintype.sum_prod_type' (f := f)]
  exact Fintype.sum_equiv rowEquiv _ _ (fun x => rfl)

/-- The mean of the squared deviations is the mean of the squares minus the squared mean. -/
theorem mean_sq_dev {ι : Type*} [Fintype ι] (y : ι → ℝ) (N : ℝ) (hN : N ≠ 0) (hcard : (Fintype.card ι : ℝ) = N) :
    (∑ i, (y i - (∑ j, y j) / N) * (y i - (∑ j, y j) / N)) / N
      = (∑ i, y i * y i) / N - ((∑ j, y j) / N) * ((∑ j, y j) / N) := by
  have hexp : ∀ i, (y i - (∑ j, y j) / N) * (y i - (∑ j, y j) / N)
      = y i * y i - 2 * ((∑ j, y j) / N) * y i + ((∑ j, y j) / N) * ((∑ j, y j) / N) := fun i => by ring
  simp only [hexp, Finset.sum_add_distrib, Finset.sum_sub_distrib, ← Finset.mul_sum, Finset.sum_const, Finset.card_univ,
    nsmul_eq_mul, hcard]
  field_simp
  ring

/-- A mean of squares over a positive count is not negative. -/
theorem mean_sq_dev_nonneg {ι : Type*} [Fintype ι] (y : ι → ℝ) (μ N : ℝ) (hN : 0 < N) :
    0 ≤ (∑ i, (y i - μ) * (y i - μ)) / N :=
  div_nonneg (Finset.sum_nonneg fun i _ => mul_self_nonneg _) hN.le

/-- Normalise, scale and shift is one affine map. -/
theorem affine_norm (y μ r γ β : ℝ) : (y - μ) * r * γ + β = y * (γ * r) + (β - μ * γ * r) := by ring

end Cert.Dense

end
-- ==== Proof.LibIdealReal.lean ====
/-
  The exact float operations on finite values.

  At the exact reading a float is an extended real and every operation is the textbook one. When the operands
  are (coercions of) real numbers, and the operation is not at a corner (no division by zero), the result is
  the coercion of the real result:
      x + y, x - y, x * y, max x y, exp x, x / y (y ≠ 0), a finite sum, a finite maximum (from a real start, or
      from -∞ over a nonempty family),
  each stated for the extended-real operator and for the float operation of the same name (kernel's and host's).
  Also the values a few 32-bit words denote: 0, 1, 1024, 1/32, -∞, and one large negative finite number; and
  √1024 = 32, so that  1 / √1024  and the word for  1/32  are the same number.
-/
import Idealize.ShloMosaic.PureOps.Ideal
import Idealize.ShloMosaic.PureOps.Ideal.Laws

noncomputable section

namespace Cert.IdealReal

open scoped BigOperators
open Idealize.ShloMosaic

variable {φ : FTy}

/-! ### The extended-real operators on coerced reals -/

theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem mul_coe (x y : ℝ) : (x : EReal) * (y : EReal) = ((x * y : ℝ) : EReal) := (EReal.coe_mul x y).symm
theorem neg_coe (x : ℝ) : -(x : EReal) = ((-x : ℝ) : EReal) := (EReal.coe_neg x).symm

/-- The coercion is monotone, so it commutes with `max`. -/
@[simp, norm_cast] theorem coe_max (x y : ℝ) : ((max x y : ℝ) : EReal) = max (x : EReal) (y : EReal) :=
  EReal.coe_strictMono.monotone.map_max
theorem max_coe (x y : ℝ) : max (x : EReal) (y : EReal) = ((max x y : ℝ) : EReal) := (coe_max x y).symm
theorem max_coe_zero (x : ℝ) : max (x : EReal) 0 = ((max x 0 : ℝ) : EReal) := by
  rw [← EReal.coe_zero, max_coe]

theorem exp_coe (x : ℝ) : Ideal.exp (x : EReal) = ((Real.exp x : ℝ) : EReal) := rfl
theorem exp_sub_coe (x y : ℝ) : Ideal.exp ((x : EReal) - (y : EReal)) = ((Real.exp (x - y) : ℝ) : EReal) := rfl

/-- Division of reals by a nonzero real. -/
theorem div_coe {y : ℝ} (hy : y ≠ 0) (x : ℝ) : Ideal.div (x : EReal) (y : EReal) = ((x / y : ℝ) : EReal) := by
  rw [Ideal.div_coe hy, ← EReal.coe_mul, mul_one_div]

/-- `√1024 = 32`. -/
theorem sqrt_1024 : Ideal.sqrt ((1024 : ℝ) : EReal) = ((32 : ℝ) : EReal) := by
  have h : Real.sqrt 1024 = 32 := by
    rw [show (1024 : ℝ) = 32 ^ 2 by norm_num, Real.sqrt_sq (by norm_num)]
  rw [Ideal.sqrt_coe, if_neg (by norm_num), h]

/-! ### Finite sums and maxima -/

/-- A finite sum of coerced reals is the coerced sum. -/
@[simp, norm_cast] theorem coe_finset_sum {α : Type*} (s : Finset α) (f : α → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem sum_coe {α : Type*} (s : Finset α) (f : α → ℝ) :
    ∑ i ∈ s, (f i : EReal) = ((∑ i ∈ s, f i : ℝ) : EReal) := (coe_finset_sum s f).symm

/-- The same when each summand is only known to be a coerced real. -/
theorem sum_eq_coe {α : Type*} (s : Finset α) (g : α → EReal) (f : α → ℝ) (hg : ∀ i ∈ s, g i = (f i : EReal)) :
    ∑ i ∈ s, g i = ((∑ i ∈ s, f i : ℝ) : EReal) := by
  rw [Finset.sum_congr rfl hg, sum_coe]

/-- A fold of `max` from a real start over coerced reals is the coerced fold. -/
theorem fold_max_coe {α : Type*} (s : Finset α) (a : ℝ) (f : α → ℝ) :
    s.fold max (a : EReal) (fun i => (f i : EReal)) = ((s.fold max a f : ℝ) : EReal) := by
  induction s using Finset.cons_induction with
  | empty => simp
  | cons b s hb ih => rw [Finset.fold_cons, Finset.fold_cons, ih, max_coe]

/-- A fold of `max` from `-∞` over a NONEMPTY family of coerced reals is a coerced real: the family's maximum. -/
theorem fold_max_bot_coe {α : Type*} (s : Finset α) (hs : s.Nonempty) (f : α → ℝ) :
    s.fold max (⊥ : EReal) (fun i => (f i : EReal)) = ((s.sup' hs f : ℝ) : EReal) := by
  induction hs using Finset.Nonempty.cons_induction with
  | singleton a => simp
  | cons a s ha hs ih =>
    rw [Finset.fold_cons, ih, Finset.sup'_cons hs, max_coe]

/-- The same when each element is only known to be a coerced real. -/
theorem fold_max_bot_eq_coe {α : Type*} (s : Finset α) (hs : s.Nonempty) (g : α → EReal) (f : α → ℝ)
    (hg : ∀ i ∈ s, g i = (f i : EReal)) :
    s.fold max (⊥ : EReal) g = ((s.sup' hs f : ℝ) : EReal) := by
  rw [← fold_max_bot_coe s hs f]
  exact Finset.fold_congr hg

/-- In particular it is SOME real, above every element. -/
theorem fold_max_bot_real {α : Type*} (s : Finset α) (hs : s.Nonempty) (g : α → EReal) (f : α → ℝ)
    (hg : ∀ i ∈ s, g i = (f i : EReal)) :
    ∃ m : ℝ, s.fold max (⊥ : EReal) g = (m : EReal) ∧ ∀ i ∈ s, f i ≤ m :=
  ⟨s.sup' hs f, fold_max_bot_eq_coe s hs g f hg, fun i hi => Finset.le_sup' f hi⟩

/-! ### The float operations of the exact reading -/

theorem addf_coe (x y : ℝ) : FloatOps.addf (F := Ideal) (φ := φ) (x : EReal) (y : EReal) = ((x + y : ℝ) : EReal) :=
  add_coe x y
theorem subf_coe (x y : ℝ) : FloatOps.subf (F := Ideal) (φ := φ) (x : EReal) (y : EReal) = ((x - y : ℝ) : EReal) :=
  sub_coe x y
theorem mulf_coe (x y : ℝ) : FloatOps.mulf (F := Ideal) (φ := φ) (x : EReal) (y : EReal) = ((x * y : ℝ) : EReal) :=
  mul_coe x y
theorem maximumf_coe (x y : ℝ) :
    FloatOps.maximumf (F := Ideal) (φ := φ) (x : EReal) (y : EReal) = ((max x y : ℝ) : EReal) :=
  max_coe x y
theorem expf_coe (x : ℝ) : FloatOps.exp (F := Ideal) (φ := φ) (x : EReal) = ((Real.exp x : ℝ) : EReal) := rfl
theorem divf_coe {y : ℝ} (hy : y ≠ 0) (x : ℝ) :
    FloatOps.divf (F := Ideal) (φ := φ) (x : EReal) (y : EReal) = ((x / y : ℝ) : EReal) :=
  div_coe hy x

/-- The host's quotient, exponential and square root are the same functions. -/
theorem hostDivf_coe {y : ℝ} (hy : y ≠ 0) (x : ℝ) :
    FloatOps.hostDivf (F := Ideal) (φ := φ) (x : EReal) (y : EReal) = ((x / y : ℝ) : EReal) :=
  div_coe hy x
theorem hostExp_coe (x : ℝ) :
    FloatOps.hostUnary (F := Ideal) .exp (φ := φ) (x : EReal) = ((Real.exp x : ℝ) : EReal) := rfl
theorem hostSqrt_1024 :
    FloatOps.hostUnary (F := Ideal) .sqrt (φ := φ) ((1024 : ℝ) : EReal) = ((32 : ℝ) : EReal) := sqrt_1024

/-- A fold of the float maximum is the fold of `max`. -/
theorem fold_maximumf_eq {α : Type*} (s : Finset α) (a : EReal) (g : α → EReal) :
    s.fold (FloatOps.maximumf (F := Ideal) (φ := φ)) a g = s.fold max a g := rfl

/-! ### What a few 32-bit words denote -/

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The large negative finite number the word `0xFF333332` denotes: `-(2^23 + 0x333332) · 2^104`. -/
def negBig : ℝ := -(11744050 * 2 ^ 104)

theorem ofBits_negBig : Ideal.ofBits .f32 0xFF333332#32 = ((negBig : ℝ) : EReal) := by
  simp [Ideal.ofBits, Ideal.ieee, -EReal.coe_mul, negBig]

theorem ofBits_negBig_real : ∃ x : ℝ, Ideal.ofBits .f32 0xFF333332#32 = (x : EReal) := ⟨negBig, ofBits_negBig⟩

/-- `1 / √1024`, computed on the host from the words for `1` and `1024`, is the number the word for `1/32` denotes. -/
theorem host_one_div_sqrt_1024 :
    FloatOps.hostDivf (F := Ideal) (φ := .f32) (Ideal.ofBits .f32 0x3F800000#32)
        (FloatOps.hostUnary (F := Ideal) .sqrt (φ := .f32) (Ideal.ofBits .f32 0x44800000#32))
      = ((1 / 32 : ℝ) : EReal) := by
  rw [ofBits_one, ofBits_1024, hostSqrt_1024, hostDivf_coe (by norm_num)]

theorem host_one_div_sqrt_1024_eq_word :
    FloatOps.hostDivf (F := Ideal) (φ := .f32) (Ideal.ofBits .f32 0x3F800000#32)
        (FloatOps.hostUnary (F := Ideal) .sqrt (φ := .f32) (Ideal.ofBits .f32 0x44800000#32))
      = Ideal.ofBits .f32 0x3D000000#32 := by
  rw [host_one_div_sqrt_1024, ofBits_inv32]

end Cert.IdealReal

end
-- ==== Proof.LibRealEntries2.lean ====
/-
  Entries that are real numbers, through the host operations that keep them so, for any shapes and dimension numbers.

  An extended real is "real" when it is the image of a real number. Sums, products and maxima of reals are real; a
  finite sum of reals is real. A gather reads, at every result index, SOME entry of its operand, so when every entry of
  the operand is real so is every entry of the result, whatever the dimension numbers and the indices. An accumulating
  scatter yields, at every index, the operand's entry plus a finite sum of update entries, so reals in, reals out. The
  reciprocal square root of a positive real is the real 1 / sqrt r. A selection between two reals is real.
-/
import Idealize.ShloMosaic.Lib.ValueIdx
import Idealize.ShloMosaic.Lib.Pipeline.Value
import Idealize.ShloMosaic.PureOps.Ideal.Laws

noncomputable section

namespace RealEntries2

open Idealize.ShloMosaic
open scoped BigOperators

/-- The extended real is (the image of) a real number. -/
def IsReal (x : EReal) : Prop := ∃ r : ℝ, x = (r : EReal)

/-- The extended real is a positive real number. -/
def IsPosReal (x : EReal) : Prop := ∃ r : ℝ, 0 < r ∧ x = (r : EReal)

theorem IsPosReal.isReal {x : EReal} (h : IsPosReal x) : IsReal x := by
  obtain ⟨r, _, hr⟩ := h
  exact ⟨r, hr⟩

/-- Realness passes along an equality. -/
theorem isReal_of_eq {x y : EReal} (h : x = y) (hy : IsReal y) : IsReal x := by
  obtain ⟨r, hr⟩ := hy
  exact ⟨r, h.trans hr⟩

theorem isPosReal_of_eq {x y : EReal} (h : x = y) (hy : IsPosReal y) : IsPosReal x := by
  obtain ⟨r, h0, hr⟩ := hy
  exact ⟨r, h0, h.trans hr⟩

theorem isReal_coe (r : ℝ) : IsReal (r : EReal) := ⟨r, rfl⟩

theorem isReal_zero : IsReal (0 : EReal) := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

/-- The larger of a real and a positive real is a positive real. -/
theorem isPosReal_max {x y : EReal} (hx : IsReal x) (hy : IsPosReal y) : IsPosReal (max x y) := by
  obtain ⟨a, rfl⟩ := hx
  obtain ⟨b, hb, rfl⟩ := hy
  rcases le_total (a : EReal) (b : EReal) with h | h
  · rw [max_eq_right h]
    exact ⟨b, hb, rfl⟩
  · rw [max_eq_left h]
    exact ⟨a, lt_of_lt_of_le hb (EReal.coe_le_coe_iff.mp h), rfl⟩

/-- The reciprocal square root of a positive real is a real. -/
theorem isReal_rsqrt {x : EReal} (hx : IsPosReal x) : IsReal (Ideal.rsqrt x) := by
  obtain ⟨r, hr, rfl⟩ := hx
  rw [Ideal.rsqrt_coe, if_neg (not_lt.mpr hr.le), if_neg (ne_of_gt hr)]
  exact ⟨_, rfl⟩

/-- A selection between two reals is real. -/
theorem isReal_select (c : BitVec 1) {a b : EReal} (ha : IsReal a) (hb : IsReal b) : IsReal (Scalar.select c a b) := by
  unfold Scalar.select
  split
  · exact ha
  · exact hb

/-- A gather of an array of reals is an array of reals: every result entry is some operand entry. -/
theorem gather_real {s si t : Shape} {w : Nat} (d : GatherDims s si t) (x : s.Idx → EReal) (idx : IVec si w)
    (hx : ∀ i, IsReal (x i)) (j : t.Idx) : IsReal (Host.gather d x idx j) :=
  hx (d.operandIdx j idx)

/-- An accumulating scatter of real updates into an array of reals is an array of reals. -/
theorem scatterAdd_real {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact isReal_add (hx i) (isReal_sum _ _ fun j _ => hu j)

/-- The same for the host's accumulating scatter read on the extended reals. -/
theorem hostScatterAdd_real {s si su : Shape} {w : Nat} {φ : FTy} (d : ScatterDims s si su) (x : FVec Ideal s φ) (idx : IVec si w)
    (upd : FVec Ideal su φ) (hx : ∀ i, IsReal (x i)) (hu : ∀ j, IsReal (upd j)) (i : s.Idx) :
    IsReal (Host.scatterAdd d x idx upd i) :=
  scatterAdd_real d x idx upd hx hu i

end RealEntries2

end
-- ==== Proof.NormLaw.lean ====
/-
  The law that joins the two programs at one channel.

  Fix a channel; Y p k is the dense layer's value at sample p and neighbour k, G and B the channel's scale and shift.
  One program sums Y and Y² block by block, forms the mean μ and the mean of squares, takes the variance as
  (mean of squares − μ²) clamped at zero, and applies the affine map  y ↦ y·(G·ρ) + (B − μ·G·ρ)  with
  ρ = 1/√(variance + ε). The other sums over samples and neighbours, takes the variance as the mean of the squared
  deviations from μ (guarded by a test that its divisor is positive, which it is), and applies
  y ↦ ((y − μ)·ρ)·G + B. When every Y p k, G and B is a real number these agree:
    • the two ways of summing visit the same 960000 rows (a re-indexing of finite sums);
    • the mean of squared deviations is the mean of squares minus the squared mean, and is not negative, so the
      clamp at zero changes nothing; adding ε > 0 keeps the argument of the reciprocal square root positive;
    • normalise, scale, shift is one affine map.
  The words that occur are evaluated here: 0x496A6000 is 960000 and 0x3727C5AC is 10995116 / 2⁴⁰ (about 10⁻⁵).
-/
import Mathlib
import proofs.«107821_j74440373174612_2_alg».proof.Proof.DenseSpec
import proofs.«107821_j74440373174612_2_alg».proof.Proof.NormAlgebra
import proofs.«107821_j74440373174612_2_alg».proof.Proof.LibIdealReal
import proofs.«107821_j74440373174612_2_alg».proof.Proof.LibRealEntries2
import Idealize.ShloMosaic.PureOps.Ideal
import Idealize.ShloMosaic.PureOps.Ideal.Laws

noncomputable section

namespace Cert.Dense

open Idealize.ShloMosaic RealEntries2
open scoped BigOperators

/-! ## The words -/

/-- The word 0x496A6000 is the number of rows, 960000 = (2²³ + 6971392) · 2⁻⁴. -/
theorem word_count : Ideal.ofBits .f32 0x496A6000#32 = ((960000 : ℝ) : EReal) := by
  simp [Ideal.ofBits, Ideal.ieee, -EReal.coe_mul]; norm_num

/-- The small number added to the variance: (2²³ + 2606508) · 2⁻⁴⁰. -/
def epsR : ℝ := 10995116 / 2 ^ 40

theorem epsR_pos : 0 < epsR := by unfold epsR; positivity

/-- The word 0x3727C5AC is that number. -/
theorem word_eps : Ideal.ofBits .f32 0x3727C5AC#32 = ((epsR : ℝ) : EReal) := by
  simp [Ideal.ofBits, Ideal.ieee, -EReal.coe_mul, epsR]; norm_num

/-! ## The two programs' statistics of one channel -/

/-- The channel's sum, block by block. -/
def kSum (Y : Fin 60000 → Fin 16 → EReal) : EReal :=
  ∑ h : Fin 2, ∑ i : Fin 50, ∑ r : Fin 9600, Y (rowOf (blkOf h i) r) (nbrOf r)

/-- The channel's sum of squares, block by block. -/
def kSumSq (Y : Fin 60000 → Fin 16 → EReal) : EReal :=
  ∑ h : Fin 2, ∑ i : Fin 50, ∑ r : Fin 9600, Y (rowOf (blkOf h i) r) (nbrOf r) * Y (rowOf (blkOf h i) r) (nbrOf r)

/-- The mean from the block sums. -/
def kMean (Y : Fin 60000 → Fin 16 → EReal) : EReal :=
  Ideal.div (Ideal.ofBits .f32 0x00000000#32 + kSum Y) (Ideal.ofBits .f32 0x496A6000#32)

/-- The mean of squares from the block sums. -/
def kMeanSq (Y : Fin 60000 → Fin 16 → EReal) : EReal :=
  Ideal.div (Ideal.ofBits .f32 0x00000000#32 + kSumSq Y) (Ideal.ofBits .f32 0x496A6000#32)

/-- The reciprocal standard deviation from the block sums: variance as mean of squares less squared mean, clamped at
    zero. -/
def kInv (Y : Fin 60000 → Fin 16 → EReal) : EReal :=
  Ideal.rsqrt (max (kMeanSq Y - kMean Y * kMean Y) (Ideal.ofBits .f32 0x00000000#32) + Ideal.ofBits .f32 0x3727C5AC#32)

/-- The mean from the sum over samples and neighbours. -/
def rMean (Y : Fin 60000 → Fin 16 → EReal) : EReal :=
  Ideal.div (Ideal.ofBits .f32 0x00000000#32 + ∑ p : Fin 60000, ∑ k : Fin 16, Y p k) (Ideal.ofBits .f32 0x496A6000#32)

/-- The variance's divisor: the row count less the correction 0. -/
def rDiv : EReal := Ideal.ofBits .f32 0x496A6000#32 - (((0#32 : BitVec 32).toInt : ℝ) : EReal)

/-- The variance as the mean of squared deviations, guarded by the test that the divisor is positive. -/
def rVar (Y : Fin 60000 → Fin 16 → EReal) : EReal :=
  Scalar.select (Ideal.cmp .ogt rDiv (Ideal.ofBits .f32 0x00000000#32))
    (Ideal.div
      (Ideal.ofBits .f32 0x00000000#32 + ∑ p : Fin 60000, ∑ k : Fin 16, (Y p k - rMean Y) * (Y p k - rMean Y))
      rDiv)
    (Ideal.ofBits .f32 0x7FC00000#32)

/-- The reciprocal standard deviation from that variance. -/
def rInv (Y : Fin 60000 → Fin 16 → EReal) : EReal :=
  Ideal.rsqrt (rVar Y + Ideal.ofBits .f32 0x3727C5AC#32)

/-! ## The same statistics of real numbers -/

section Real

variable (y : Fin 60000 → Fin 16 → ℝ)

def sumR : ℝ := ∑ p : Fin 60000, ∑ k : Fin 16, y p k
def sumSqR : ℝ := ∑ p : Fin 60000, ∑ k : Fin 16, y p k * y p k
def meanR : ℝ := sumR y / 960000
/-- Mean of squares less squared mean. -/
def varR : ℝ := sumSqR y / 960000 - meanR y * meanR y
/-- Mean of squared deviations. -/
def devR : ℝ := (∑ p : Fin 60000, ∑ k : Fin 16, (y p k - meanR y) * (y p k - meanR y)) / 960000

/-- The two forms of the variance agree: there are 60000 · 16 = 960000 rows. -/
theorem devR_eq_varR : devR y = varR y := by
  have h := mean_sq_dev (ι := Fin 60000 × Fin 16) (fun x => y x.1 x.2) 960000 (by norm_num)
    (by rw [Fintype.card_prod, Fintype.card_fin, Fintype.card_fin]; norm_num)
  simp only [Fintype.sum_prod_type] at h
  unfold devR varR meanR sumR sumSqR
  exact h

theorem devR_nonneg : 0 ≤ devR y :=
  div_nonneg (Finset.sum_nonneg fun p _ => Finset.sum_nonneg fun k _ => mul_self_nonneg _) (by norm_num)

theorem varR_nonneg : 0 ≤ varR y := devR_eq_varR y ▸ devR_nonneg y

/-- The entries as extended reals. -/
def lift : Fin 60000 → Fin 16 → EReal := fun p k => ((y p k : ℝ) : EReal)

theorem rSum_coe : (∑ p : Fin 60000, ∑ k : Fin 16, lift y p k) = ((sumR y : ℝ) : EReal) := by
  unfold lift sumR
  rw [Finset.sum_congr rfl (fun p _ => Cert.IdealReal.sum_coe Finset.univ (fun k => y p k)), Cert.IdealReal.sum_coe]

theorem rSumSq_coe : (∑ p : Fin 60000, ∑ k : Fin 16, lift y p k * lift y p k) = ((sumSqR y : ℝ) : EReal) := by
  unfold lift sumSqR
  simp only [Cert.IdealReal.mul_coe]
  rw [Finset.sum_congr rfl (fun p _ => Cert.IdealReal.sum_coe Finset.univ (fun k => y p k * y p k)),
    Cert.IdealReal.sum_coe]

/-- The block-by-block sum is the sum over samples and neighbours. -/
theorem kSum_coe : kSum (lift y) = ((sumR y : ℝ) : EReal) :=
  (sum_rows_eq (fun p k => lift y p k)).trans (rSum_coe y)

theorem kSumSq_coe : kSumSq (lift y) = ((sumSqR y : ℝ) : EReal) :=
  (sum_rows_eq (fun p k => lift y p k * lift y p k)).trans (rSumSq_coe y)

theorem count_ne_zero : (960000 : ℝ) ≠ 0 := by norm_num

theorem kMean_coe : kMean (lift y) = ((meanR y : ℝ) : EReal) := by
  unfold kMean meanR
  rw [kSum_coe, Ideal.ofBits_zero_f32, zero_add, word_count, Cert.IdealReal.div_coe count_ne_zero]

theorem rMean_coe : rMean (lift y) = ((meanR y : ℝ) : EReal) := by
  unfold rMean meanR
  rw [rSum_coe, Ideal.ofBits_zero_f32, zero_add, word_count, Cert.IdealReal.div_coe count_ne_zero]

theorem kMeanSq_coe : kMeanSq (lift y) = ((sumSqR y / 960000 : ℝ) : EReal) := by
  unfold kMeanSq
  rw [kSumSq_coe, Ideal.ofBits_zero_f32, zero_add, word_count, Cert.IdealReal.div_coe count_ne_zero]

/-- The divisor is the row count. -/
theorem rDiv_eq : rDiv = ((960000 : ℝ) : EReal) := by
  unfold rDiv
  rw [word_count, show ((0#32 : BitVec 32).toInt : ℝ) = 0 by norm_num, EReal.coe_zero, sub_zero]

/-- … so the test succeeds. -/
theorem rDiv_pos : Ideal.cmp .ogt rDiv (Ideal.ofBits .f32 0x00000000#32) = 1#1 := by
  rw [rDiv_eq, Ideal.ofBits_zero_f32]
  have h : (0 : EReal) < ((960000 : ℝ) : EReal) := by exact_mod_cast (by norm_num : (0 : ℝ) < 960000)
  simp [Ideal.cmp, h]

/-- A selection on the true bit takes its first branch. -/
theorem select_true (a b : EReal) : Scalar.select 1#1 a b = a := if_pos rfl

theorem rVar_coe : rVar (lift y) = ((devR y : ℝ) : EReal) := by
  unfold rVar
  rw [rDiv_pos, select_true, rMean_coe, rDiv_eq, Ideal.ofBits_zero_f32, zero_add]
  unfold lift devR
  simp only [Cert.IdealReal.sub_coe, Cert.IdealReal.mul_coe]
  rw [Finset.sum_congr rfl (fun p _ => Cert.IdealReal.sum_coe Finset.univ
      (fun k => (y p k - meanR y) * (y p k - meanR y))),
    Cert.IdealReal.sum_coe, Cert.IdealReal.div_coe count_ne_zero]

theorem kInv_coe : kInv (lift y) = Ideal.rsqrt (((varR y + epsR : ℝ)) : EReal) := by
  unfold kInv
  rw [kMeanSq_coe, kMean_coe, Cert.IdealReal.mul_coe, Cert.IdealReal.sub_coe, Ideal.ofBits_zero_f32,
    Cert.IdealReal.max_coe_zero, word_eps, Cert.IdealReal.add_coe]
  have hv : max (sumSqR y / 960000 - meanR y * meanR y) 0 = varR y := max_eq_left (varR_nonneg y)
  rw [hv]

theorem rInv_coe : rInv (lift y) = Ideal.rsqrt (((varR y + epsR : ℝ)) : EReal) := by
  unfold rInv
  rw [rVar_coe, word_eps, Cert.IdealReal.add_coe, devR_eq_varR]

/-- The reciprocal standard deviation as a real number. -/
def invR : ℝ := (Real.sqrt (varR y + epsR))⁻¹

theorem rsqrt_coe_invR : Ideal.rsqrt (((varR y + epsR : ℝ)) : EReal) = ((invR y : ℝ) : EReal) := by
  have hpos : 0 < varR y + epsR := add_pos_of_nonneg_of_pos (varR_nonneg y) epsR_pos
  rw [Ideal.rsqrt_coe, if_neg (not_lt.mpr hpos.le), if_neg (ne_of_gt hpos)]
  rfl

end Real

/-! ## The law -/

section Law

variable {Y : Fin 60000 → Fin 16 → EReal}

/-- Real entries are the lift of a real array. -/
theorem exists_lift (hY : ∀ p k, IsReal (Y p k)) : ∃ y : Fin 60000 → Fin 16 → ℝ, Y = lift y := by
  choose y hy using hY
  exact ⟨y, funext fun p => funext fun k => hy p k⟩

/-- The two means are one number. -/
theorem kMean_eq_rMean (hY : ∀ p k, IsReal (Y p k)) : kMean Y = rMean Y := by
  obtain ⟨y, rfl⟩ := exists_lift hY
  rw [kMean_coe, rMean_coe]

/-- The two reciprocal standard deviations are one number. -/
theorem kInv_eq_rInv (hY : ∀ p k, IsReal (Y p k)) : kInv Y = rInv Y := by
  obtain ⟨y, rfl⟩ := exists_lift hY
  rw [kInv_coe, rInv_coe]

/-- They are real numbers. -/
theorem isReal_rMean (hY : ∀ p k, IsReal (Y p k)) : IsReal (rMean Y) := by
  obtain ⟨y, rfl⟩ := exists_lift hY
  exact ⟨_, rMean_coe y⟩

theorem isReal_rInv (hY : ∀ p k, IsReal (Y p k)) : IsReal (rInv Y) := by
  obtain ⟨y, rfl⟩ := exists_lift hY
  exact ⟨_, (rInv_coe y).trans (rsqrt_coe_invR y)⟩

/-- The affine form with the block statistics is the normalise-scale-shift form with the other statistics, entry by
    entry and hence after the clamp and the maximum over the neighbours. -/
theorem norm_law {G B : EReal} (hY : ∀ p k, IsReal (Y p k)) (hG : IsReal G) (hB : IsReal B) (p : Fin 60000) :
    maxNbr (fun k => max (Y p k * (G * kInv Y) + (B - (kMean Y * G) * kInv Y)) (Ideal.ofBits .f32 0x00000000#32))
      = maxNbr (fun k => max (((Y p k - rMean Y) * rInv Y) * G + B) (Ideal.ofBits .f32 0x00000000#32)) := by
  obtain ⟨y, rfl⟩ := exists_lift hY
  obtain ⟨g, rfl⟩ := hG
  obtain ⟨b, rfl⟩ := hB
  refine congrArg maxNbr (funext fun k => congrArg (fun t => max t (Ideal.ofBits .f32 0x00000000#32)) ?_)
  rw [kInv_coe, rInv_coe, rsqrt_coe_invR, kMean_coe, rMean_coe]
  show ((y p k : ℝ) : EReal) * _ + _ = (((y p k : ℝ) : EReal) - _) * _ * _ + _
  simp only [Cert.IdealReal.mul_coe, Cert.IdealReal.sub_coe, Cert.IdealReal.add_coe]
  exact congrArg (fun t : ℝ => (t : EReal)) (affine_norm (y p k) (meanR y) (invR y) g b).symm

end Law

end Cert.Dense

end
-- ==== Proof.KernelStats.lean ====
/-
  The stretch between the two passes, read channel by channel on the extended reals.

  The per-half accumulator [2, 1, 128] is read as [2, 128] (entry (h, d) is entry (h, 0, d)), summed over the halves
  from the zero word and divided by the row-count word: `meanOf`. The reciprocal standard deviation is
  `rsqrt(max(mean of squares − mean², 0) + ε)`; the scale row's entry (0, d) is `γ d · that`, the shift row's
  `β d − mean d · γ d · that`. The two cuts of the weight matrix are its rows `c` and `c + 3`.
-/
import proofs.«107821_j74440373174612_2_alg».proof.Proof.KernelTerm
import proofs.«107821_j74440373174612_2_alg».proof.Proof.LibSoftLayout
import Idealize.ShloMosaic.Lib.Pipeline.Value
import Idealize.ShloMosaic.Lib.ValueIdx
import Idealize.ShloMosaic.PureOps.Ideal.Laws

noncomputable section

namespace Cert.KernelIdeal.Stats

open Idealize.ShloMosaic Idealize.ShloMosaic.ValueIdx
open Cert.KernelIdeal Cert.KernelIdeal.Facts₀ Cert.KernelIdeal.Facts Cert.KernelIdeal.HostTerm
open scoped BigOperators

/-- The accumulator read as a matrix: entry (h, d) is entry (h, 0, d). -/
theorem flat_apply (acc : FVec Ideal S2x1x128 .f32) (h : Fin 2) (d : Fin 128) :
    shapeCast S2x128 acc shapeCasts_S2x1x128_S2x128 (ix2 h d) = acc (ix3 h (0 : Fin 1) d) := by
  refine shapeCast_apply acc _ (ix2 h d) (ix3 h (0 : Fin 1) d) ?_
  rw [Shape.rowMajor_val_three, Shape.rowMajor_val_two]
  show (h.val * 1 + 0) * 128 + d.val = h.val * 128 + d.val
  omega

/-- The host's sum of a matrix [a, b] along its first axis: the starting value plus the sum over p of entry (p, q). -/
theorem hsum_first_apply {a b : Nat} {u : Shape} (x : FVec Ideal ⟨2, ![a, b]⟩ .f32) (init : u.Idx → Ideal .f32)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduceAdd x init h' hu (ix1 q) = init (Shape.Idx.first hu) + ∑ p : Fin a, x (ix2 p q) := by
  simp only [Host.reduceAdd, Ideal.hostReduceAdd_def]
  rw [Ideal.hostReduceAdd_single h' h]
  refine congrArg (_ + ·) (Finset.sum_congr rfl fun p _ => ?_)
  exact congrArg x (funext fun ax => Fin.ext (by match ax with | ⟨0, _⟩ => rfl | ⟨1, _⟩ => rfl))

/-- The mean of an accumulator at channel d: the two halves added from zero, over the row count. -/
theorem meanOf_entry (acc : FVec Ideal S2x1x128 .f32) (d : Fin 128) :
    meanOf (F := Ideal) acc (ix1 d)
      = Ideal.div (Ideal.ofBits .f32 0x00000000#32 + ∑ h : Fin 2, acc (ix3 h (0 : Fin 1) d)) (Ideal.ofBits .f32 0x496A6000#32) := by
  unfold meanOf
  show Ideal.div (Host.reduceAdd (shapeCast S2x128 acc shapeCasts_S2x1x128_S2x128) (constant S_ .f32 0x00000000#32)
      reducesTo_S2x128_S128_d0 h_S_ (ix1 d)) (Ideal.ofBits .f32 0x496A6000#32) = _
  rw [hsum_first_apply _ _ reducesTo_S2x128_S128_d0 (by decide) h_S_ d]
  refine congrArg (fun z => Ideal.div z _) (congrArg (_ + ·) (Finset.sum_congr rfl fun h _ => ?_))
  exact flat_apply acc h d

/-- The reciprocal standard deviation at channel d. -/
theorem invStd_entry (s1 s2 : FVec Ideal S2x1x128 .f32) (d : Fin 128) :
    invStd (F := Ideal) s1 s2 (ix1 d)
      = Ideal.rsqrt (max (meanOf s2 (ix1 d) - meanOf s1 (ix1 d) * meanOf s1 (ix1 d)) (Ideal.ofBits .f32 0x00000000#32)
          + Ideal.ofBits .f32 0x3727C5AC#32) := rfl

/-- The scale row at channel d. -/
theorem scaleRow_entry (s1 s2 : FVec Ideal S2x1x128 .f32) (gamma : FVec Ideal S128 .f32) (d : Fin 128) :
    scaleRow (F := Ideal) s1 s2 gamma (ix2 (0 : Fin 1) d) = gamma (ix1 d) * invStd s1 s2 (ix1 d) := by
  unfold scaleRow
  rw [SoftLayout.vec_row_cast_apply]
  rfl

/-- The shift row at channel d. -/
theorem shiftRow_entry (s1 s2 : FVec Ideal S2x1x128 .f32) (gamma beta : FVec Ideal S128 .f32) (d : Fin 128) :
    shiftRow (F := Ideal) s1 s2 gamma beta (ix2 (0 : Fin 1) d)
      = beta (ix1 d) - (meanOf s1 (ix1 d) * gamma (ix1 d)) * invStd s1 s2 (ix1 d) := by
  unfold shiftRow
  rw [SoftLayout.vec_row_cast_apply]
  rfl

/-- The first cut of the weight matrix: rows 0, 1, 2. -/
theorem wPos_entry (W : FVec Ideal S67x128 .f32) (c : Fin 3) (d : Fin 128) :
    wPos (F := Ideal) W (ix2 c d) = W (ix2 (⟨c.val, by omega⟩ : Fin 67) d) := by
  unfold wPos
  rw [SoftLayout.rows_apply (hr := by have := c.isLt; omega)]
  refine congrArg W (funext fun ax => Fin.ext ?_)
  match ax with
  | ⟨0, _⟩ => show 0 + c.val = c.val; omega
  | ⟨1, _⟩ => rfl

/-- The second cut: rows 3, …, 66. -/
theorem wFeat_entry (W : FVec Ideal S67x128 .f32) (c : Fin 64) (d : Fin 128) :
    wFeat (F := Ideal) W (ix2 c d) = W (ix2 (⟨c.val + 3, by omega⟩ : Fin 67) d) := by
  unfold wFeat
  rw [SoftLayout.rows_apply (hr := by have := c.isLt; omega)]
  refine congrArg W (funext fun ax => Fin.ext ?_)
  match ax with
  | ⟨0, _⟩ => show 3 + c.val = c.val + 3; omega
  | ⟨1, _⟩ => rfl

end Cert.KernelIdeal.Stats

end
-- ==== Proof.Bridge.lean ====
/-
  The two programs' results agree, entry by entry.

  Fix the relative positions X, the features Fe, the weight matrix W and the per-channel scale γ and shift β, all
  with real entries. One program cuts W into its first 3 and last 64 rows, accumulates per half the sums s1 and the
  sums of squares s2 of the dense layer, forms from them a scale row and a shift row, and pools
  max over the neighbours of max(dense · scale + shift, 0). The other concatenates, multiplies by the whole of W,
  takes mean and variance over all rows, normalises, scales, shifts, clamps and pools. At sample p and channel d
  both are the maximum over the 16 neighbours of a clamped affine image of the same 16 dense values; the two affine
  maps agree by the law of one channel's statistics.
-/
import proofs.«107821_j74440373174612_2_alg».proof.Proof.RefValue
import proofs.«107821_j74440373174612_2_alg».proof.Proof.NormLaw
import proofs.«107821_j74440373174612_2_alg».proof.Proof.KernelStats
import proofs.«107821_j74440373174612_2_alg».proof.Proof.Gen.ReferenceIdeal
import proofs.«107821_j74440373174612_2_alg».proof.Proof.LibRealEntries2

noncomputable section

namespace Cert.Bridge

open Idealize.ShloMosaic Idealize.ShloMosaic.ValueIdx RealEntries2
open Cert.Dense
open Cert.KernelIdeal.HostTerm (wPos wFeat scaleRow shiftRow)
open scoped BigOperators

/-! ## The two cuts of the weight matrix -/

/-- The first cut is the first three rows … -/
theorem wPos_eq (W : FVec Ideal Cert.KernelIdeal.S67x128 .f32) :
    wPos (F := Ideal) W = Cert.ReferenceIdeal.RefValue.WxOf W := by
  funext j
  obtain ⟨c, q, rfl⟩ : ∃ (c : Fin 3) (q : Fin 128), j = ix2 c q := ⟨j 0, j 1, eq_ix2 j⟩
  rw [Cert.KernelIdeal.Stats.wPos_entry]
  rfl

/-- … and the second the remaining 64. -/
theorem wFeat_eq (W : FVec Ideal Cert.KernelIdeal.S67x128 .f32) :
    wFeat (F := Ideal) W = Cert.ReferenceIdeal.RefValue.WfOf W := by
  funext j
  obtain ⟨c, q, rfl⟩ : ∃ (c : Fin 64) (q : Fin 128), j = ix2 c q := ⟨j 0, j 1, eq_ix2 j⟩
  rw [Cert.KernelIdeal.Stats.wFeat_entry]
  rfl

/-! ## One channel's dense values -/

/-- The dense layer's values at channel d, by sample and neighbour. -/
def chanY (X : FVec Ideal SX .f32) (Fe : FVec Ideal SFe .f32) (W : FVec Ideal Cert.KernelIdeal.S67x128 .f32)
    (d : Fin 128) : Fin 60000 → Fin 16 → EReal :=
  fun p k => pre X Fe (wPos (F := Ideal) W) (wFeat (F := Ideal) W) p k d

/-- Sums of products of reals: the dense values are real. -/
theorem chanY_real (X : FVec Ideal SX .f32) (Fe : FVec Ideal SFe .f32) (W : FVec Ideal Cert.KernelIdeal.S67x128 .f32)
    (hX : ∀ i, IsReal (X i)) (hFe : ∀ i, IsReal (Fe i)) (hW : ∀ i, IsReal (W i)) (d : Fin 128)
    (p : Fin 60000) (k : Fin 16) : IsReal (chanY X Fe W d p k) := by
  unfold chanY pre
  rw [wPos_eq, wFeat_eq]
  exact isReal_add (isReal_sum _ _ fun c _ => isReal_mul (hX _) (hW _))
    (isReal_sum _ _ fun c _ => isReal_mul (hFe _) (hW _))

/-! ## The two-pass program's entry in terms of the channel -/

section Kernel

variable (X : FVec Ideal SX .f32) (Fe : FVec Ideal SFe .f32) (W : FVec Ideal Cert.KernelIdeal.S67x128 .f32)
  (gamma beta : FVec Ideal Cert.KernelIdeal.S128 .f32) (s1 s2 : FVec Ideal Cert.KernelIdeal.S2x1x128 .f32)

/-- The accumulated sums give the channel's mean … -/
theorem mean1_eq
    (h1 : ∀ (h : Fin 2) (d : Fin 128), s1 (ix3 h (0 : Fin 1) d)
      = partSum X Fe (wPos (F := Ideal) W) (wFeat (F := Ideal) W) h d) (d : Fin 128) :
    Cert.KernelIdeal.HostTerm.meanOf (F := Ideal) s1 (ix1 d) = kMean (chanY X Fe W d) := by
  rw [Cert.KernelIdeal.Stats.meanOf_entry]
  simp only [h1]
  rfl

/-- … and the accumulated sums of squares its mean of squares. -/
theorem mean2_eq
    (h2 : ∀ (h : Fin 2) (d : Fin 128), s2 (ix3 h (0 : Fin 1) d)
      = partSumSq X Fe (wPos (F := Ideal) W) (wFeat (F := Ideal) W) h d) (d : Fin 128) :
    Cert.KernelIdeal.HostTerm.meanOf (F := Ideal) s2 (ix1 d) = kMeanSq (chanY X Fe W d) := by
  rw [Cert.KernelIdeal.Stats.meanOf_entry]
  simp only [h2]
  rfl

/-- Hence the reciprocal standard deviation. -/
theorem invStd_eq
    (h1 : ∀ (h : Fin 2) (d : Fin 128), s1 (ix3 h (0 : Fin 1) d)
      = partSum X Fe (wPos (F := Ideal) W) (wFeat (F := Ideal) W) h d)
    (h2 : ∀ (h : Fin 2) (d : Fin 128), s2 (ix3 h (0 : Fin 1) d)
      = partSumSq X Fe (wPos (F := Ideal) W) (wFeat (F := Ideal) W) h d) (d : Fin 128) :
    Cert.KernelIdeal.HostTerm.invStd (F := Ideal) s1 s2 (ix1 d) = kInv (chanY X Fe W d) := by
  rw [Cert.KernelIdeal.Stats.invStd_entry, mean1_eq X Fe W s1 h1, mean2_eq X Fe W s2 h2]
  rfl

/-- The pooled entry: the clamped affine image of the channel's values with the block statistics. -/
theorem kernel_form
    (h1 : ∀ (h : Fin 2) (d : Fin 128), s1 (ix3 h (0 : Fin 1) d)
      = partSum X Fe (wPos (F := Ideal) W) (wFeat (F := Ideal) W) h d)
    (h2 : ∀ (h : Fin 2) (d : Fin 128), s2 (ix3 h (0 : Fin 1) d)
      = partSumSq X Fe (wPos (F := Ideal) W) (wFeat (F := Ideal) W) h d)
    (p : Fin 60000) (d : Fin 128) :
    pooled X Fe (wPos (F := Ideal) W) (wFeat (F := Ideal) W) (scaleRow (F := Ideal) s1 s2 gamma)
        (shiftRow (F := Ideal) s1 s2 gamma beta) p d
      = maxNbr fun k =>
          max (chanY X Fe W d p k * (gamma (ix1 d) * kInv (chanY X Fe W d))
              + (beta (ix1 d) - (kMean (chanY X Fe W d) * gamma (ix1 d)) * kInv (chanY X Fe W d)))
            (Ideal.ofBits .f32 0x00000000#32) := by
  unfold pooled
  rw [Cert.KernelIdeal.Stats.scaleRow_entry, Cert.KernelIdeal.Stats.shiftRow_entry,
    invStd_eq X Fe W s1 s2 h1 h2, mean1_eq X Fe W s1 h1]
  rfl

end Kernel

/-! ## The other program's entry in terms of the channel -/

section Reference

variable (X : FVec Ideal SX .f32) (Fe : FVec Ideal SFe .f32) (W : FVec Ideal Cert.KernelIdeal.S67x128 .f32)
  (gamma beta : FVec Ideal Cert.KernelIdeal.S128 .f32)

open Cert.ReferenceIdeal.RefValue

/-- The dense layer's entry is the channel's value. -/
theorem dense_chanY (p : Fin 60000) (k : Fin 16) (d : Fin 128) :
    Cert.ReferenceIdeal.RefTerm.dense X Fe W (ix3 p k d) = chanY X Fe W d p k := by
  rw [dense_entry, ← wPos_eq, ← wFeat_eq]
  rfl

/-- The mean is the channel's. -/
theorem meanOf_chanY (d : Fin 128) :
    Cert.ReferenceIdeal.RefTerm.meanOf (Cert.ReferenceIdeal.RefTerm.dense X Fe W) (ix1 d) = rMean (chanY X Fe W d) := by
  rw [meanOf_entry]
  simp only [dense_chanY]
  rfl

/-- The divisor and its test are the channel law's. -/
theorem varDiv_eq_rDiv : varDiv = rDiv := rfl
theorem varPos_eq : varPos = Ideal.cmp .ogt rDiv (Ideal.ofBits .f32 0x00000000#32) := rfl

/-- The variance is the channel's. -/
theorem varOf_chanY (d : Fin 128) :
    Cert.ReferenceIdeal.RefTerm.varOf (Cert.ReferenceIdeal.RefTerm.dense X Fe W) (ix1 d) = rVar (chanY X Fe W d) := by
  rw [varOf_entry, meanOf_chanY, varPos_eq, varDiv_eq_rDiv]
  simp only [dense_chanY]
  rfl

/-- The reciprocal standard deviation is the channel's. -/
theorem invStdOf_chanY (d : Fin 128) :
    Cert.ReferenceIdeal.RefTerm.invStdOf (Cert.ReferenceIdeal.RefTerm.dense X Fe W) (ix1 d) = rInv (chanY X Fe W d) := by
  rw [invStdOf_entry, varOf_chanY]
  rfl

/-- The result's entry: the clamped normalise-scale-shift image of the channel's values. -/
theorem reference_form (p : Fin 60000) (d : Fin 128) :
    Cert.ReferenceIdeal.RefTerm.tail X Fe W gamma beta (ix2 p d)
      = maxNbr fun k =>
          max (((chanY X Fe W d p k - rMean (chanY X Fe W d)) * rInv (chanY X Fe W d)) * gamma (ix1 d) + beta (ix1 d))
            (Ideal.ofBits .f32 0x00000000#32) := by
  rw [tail_entry, meanOf_chanY, invStdOf_chanY]
  simp only [dense_chanY]

end Reference

/-! ## The agreement -/

/-- With real entries and the accumulators holding the per-half sums and sums of squares, the pooled entry of the
    two-pass program is the other program's result entry. -/
theorem out_eq (X : FVec Ideal SX .f32) (Fe : FVec Ideal SFe .f32) (W : FVec Ideal Cert.KernelIdeal.S67x128 .f32)
    (gamma beta : FVec Ideal Cert.KernelIdeal.S128 .f32) (s1 s2 : FVec Ideal Cert.KernelIdeal.S2x1x128 .f32)
    (hX : ∀ i, IsReal (X i)) (hFe : ∀ i, IsReal (Fe i)) (hW : ∀ i, IsReal (W i))
    (hg : ∀ i, IsReal (gamma i)) (hb : ∀ i, IsReal (beta i))
    (h1 : ∀ (h : Fin 2) (d : Fin 128), s1 (ix3 h (0 : Fin 1) d)
      = partSum X Fe (wPos (F := Ideal) W) (wFeat (F := Ideal) W) h d)
    (h2 : ∀ (h : Fin 2) (d : Fin 128), s2 (ix3 h (0 : Fin 1) d)
      = partSumSq X Fe (wPos (F := Ideal) W) (wFeat (F := Ideal) W) h d)
    (p : Fin 60000) (d : Fin 128) :
    pooled X Fe (wPos (F := Ideal) W) (wFeat (F := Ideal) W) (scaleRow (F := Ideal) s1 s2 gamma)
        (shiftRow (F := Ideal) s1 s2 gamma beta) p d
      = Cert.ReferenceIdeal.RefTerm.tail X Fe W gamma beta (ix2 p d) := by
  rw [kernel_form X Fe W gamma beta s1 s2 h1 h2 p d, reference_form X Fe W gamma beta p d]
  exact norm_law (chanY_real X Fe W hX hFe hW d) (hg _) (hb _) p

end Cert.Bridge

end
-- ==== Proof.Inputs.lean ====
/-
  What the precondition says of the seven argument arrays, decoded.

  The precondition is a conjunction of seven "for all entries" statements, each an `and`-reduction to a single bit that is
  required to be 1. For a float array the entry statement is `|x| < +∞`, which on the extended reals leaves exactly the
  real numbers (`|−∞| = |+∞| = +∞`). For an index array it is `0 ≤ w` and `w < 240000` as signed 32-bit integers: the
  word names a row of the 240000-row tables.
-/
import proofs.«107821_j74440373174612_2_alg».proof.Pre_finite_inputs
import proofs.«107821_j74440373174612_2_alg».proof.Proof.Gen.Pre_finite_inputs
import proofs.«107821_j74440373174612_2_alg».proof.Proof.LibRealEntries2
import Idealize.ShloMosaic.Lib.ReduceAll
import Idealize.ShloMosaic.Lib.ValueIdx
import Idealize.ShloMosaic.PureOps.Ideal.Laws

noncomputable section

namespace Cert.Inputs

open Idealize.ShloMosaic RealEntries2 Cert.Pre_finite_inputs Cert.Pre_finite_inputs.Facts

/-- The scalar shape has one index. -/
instance : Subsingleton S_.Idx := ⟨fun a b => funext fun d => d.elim0⟩

/-- An extended real whose absolute value is below `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : IsReal x := by
  induction x using EReal.rec with
  | bot => exfalso; simp [Ideal.cmpf_def, Ideal.cmp, Ideal.ofBits, Ideal.ieee, Ideal.absf_def] at h
  | top => exfalso; simp [Ideal.cmpf_def, Ideal.cmp, Ideal.ofBits, Ideal.ieee, Ideal.absf_def] at h
  | coe r => exact ⟨r, rfl⟩

/-- A word that names a row of a 240000-row table: in `[0, 240000)` as a signed integer. -/
def IsRow (w : BitVec 32) : Prop := 0 ≤ w.toInt ∧ w.toInt < 240000

/-- The arguments as the precondition leaves them: reals everywhere, indices in range. -/
structure Good (point : FVec Ideal S240000x3 .f32) (feat : FVec Ideal S240000x64 .f32) (W : FVec Ideal S67x128 .f32)
    (gamma beta : FVec Ideal S128 .f32) (sidx : IVec S60000 32) (kidx : IVec S60000x16 32) : Prop where
  point : ∀ i, IsReal (point i)
  feat : ∀ i, IsReal (feat i)
  W : ∀ i, IsReal (W i)
  gamma : ∀ i, IsReal (gamma i)
  beta : ∀ i, IsReal (beta i)
  sidx : ∀ i, IsRow (sidx i)
  kidx : ∀ i, IsRow (kidx i)

theorem isRow_of (w : BitVec 32) (h0 : IntOp.cmpi .sge w 0#32 = 1#1) (h1 : IntOp.cmpi .slt w 240000#32 = 1#1) : IsRow w := by
  have a := IntOp.cmpi_sge.mp h0
  have b := IntOp.cmpi_slt.mp h1
  have e0 : (0#32 : BitVec 32).toInt = 0 := by decide
  have e1 : (240000#32 : BitVec 32).toInt = 240000 := by decide
  rw [e0] at a; rw [e1] at b
  exact ⟨a, b⟩

/-- The precondition, read entry by entry. -/
theorem good_of_pre (a0 : FVec Ideal S240000x3 .f32) (a1 : FVec Ideal S240000x64 .f32) (a2 : FVec Ideal S67x128 .f32)
    (a3 a4 : FVec Ideal S128 .f32) (a5 : IVec S60000 32) (a6 : IVec S60000x16 32)
    (h : Cert.Pre_finite_inputs.fn (F := Ideal) a0 a1 a2 a3 a4 a5 a6 = fun _ => 1#1) : Good a0 a1 a2 a3 a4 a5 a6 := by
  have e := congrFun h ValueIdx.ix0
  dsimp only [fn, fn_part1, fn_part2] at e
  simp only [andi, IntOp.andi_eq_one] at e
  obtain ⟨⟨⟨⟨⟨⟨e0, e1⟩, e2⟩, e3⟩, e4⟩, e5⟩, e6⟩ := e
  refine ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i),
    fun i => real_of_abs_lt _ (Host.reduce_andi_all _ _ _ _ _ e4 i), fun i => ?_, fun i => ?_⟩
  · have t := IntOp.andi_eq_one.mp (Host.reduce_andi_all _ _ _ _ _ e5 i)
    exact isRow_of _ t.1 t.2
  · have t := IntOp.andi_eq_one.mp (Host.reduce_andi_all _ _ _ _ _ e6 i)
    exact isRow_of _ t.1 t.2

end Cert.Inputs

end
-- ==== Proof.Gathered.lean ====
/-
  Under the precondition the gathered arrays hold real numbers.

  An index word in `[0, 240000)` is not negative, so normalising leaves it as it is, and it passes the range test
  `0 ≤ · ≤ 239999`; an `and`-reduction of ones from the initial value one is one. So every row is "in range", the
  selection takes the gathered entry, and a gathered entry is an entry of the table, a real number. Differences of reals
  are real.
-/
import proofs.«107821_j74440373174612_2_alg».proof.Proof.KernelTerm
import proofs.«107821_j74440373174612_2_alg».proof.Proof.Inputs

noncomputable section

namespace Cert.KernelIdeal.Gathered

open Idealize.ShloMosaic RealEntries2 Cert.Inputs
open Cert.KernelIdeal Cert.KernelIdeal.Facts₀ Cert.KernelIdeal.Facts Cert.KernelIdeal.HostTerm

/-- An `and`-reduction of an array of ones, started at one, is one. -/
theorem reduce_andi_of_all {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi (1#1) (1#1) = 1#1 from by decide]
    exact ih

/-- A row word is left alone by the normalisation and passes the range test. -/
theorem norm_ok (w : BitVec 32) (h : IsRow w) :
    IntOp.andi (IntOp.cmpi .sge (Scalar.select (IntOp.cmpi .slt w 0#32) (IntOp.addi w 240000#32) w) 0#32)
      (IntOp.cmpi .sle (Scalar.select (IntOp.cmpi .slt w 0#32) (IntOp.addi w 240000#32) w) 239999#32) = 1#1 := by
  have e0 : (0#32 : BitVec 32).toInt = 0 := by decide
  have e1 : (239999#32 : BitVec 32).toInt = 239999 := by decide
  have hn : IntOp.cmpi .slt w 0#32 = 0#1 := by
    rcases (by decide : ∀ b : BitVec 1, b = 0#1 ∨ b = 1#1) (IntOp.cmpi .slt w 0#32) with h0 | h1
    · exact h0
    · have := IntOp.cmpi_slt.mp h1
      rw [e0] at this
      exact absurd h.1 (not_le.mpr this)
  rw [hn]
  unfold Scalar.select
  rw [if_neg (by decide)]
  refine IntOp.andi_eq_one.mpr ⟨IntOp.cmpi_sge.mpr ?_, IntOp.cmpi_sle.mpr ?_⟩
  · rw [e0]; exact h.1
  · rw [e1]; have := h.2; omega

/-- A selection whose test is one takes its first operand. -/
theorem select_one {α : Type} (a b : α) : Scalar.select (1#1) a b = a := by
  unfold Scalar.select; exact if_pos (by decide)

/-- The range test of the normalised sample indices, at an entry. -/
theorem sample_test (sidx : IVec S60000 32) (hs : ∀ i, IsRow (sidx i)) (i : S60000x1.Idx) :
    andi (cmpi .sge (sampleIdx sidx) (broadcastInDim S60000x1 ![] bcast_S_S60000x1 (constantI S_ 32 0#32)))
      (cmpi .sle (sampleIdx sidx) (broadcastInDim S60000x1 ![0, 1] bcast_S1x1_S60000x1_0_1
        (broadcastInDim S1x1 ![1] bcast_S1_S1x1_1 (constantI S1 32 239999#32)))) i = 1#1 := by
  unfold sampleIdx andi cmpi addi Idealize.ShloMosaic.select broadcastInDim constantI
  exact norm_ok _ (hs _)

/-- Every sample is in range. -/
theorem sampleOk_one (sidx : IVec S60000 32) (hs : ∀ i, IsRow (sidx i)) (j : S60000.Idx) : sampleOk (sampleIdx sidx) j = 1#1 := by
  unfold sampleOk
  exact reduce_andi_of_all _ _ _ _ _ (fun _ => rfl) (sample_test sidx hs)

/-- The range test of the normalised neighbour indices, at an entry. -/
theorem nbr_test (kidx : IVec S60000x16 32) (hk : ∀ i, IsRow (kidx i)) (i : S60000x16x1.Idx) :
    andi (cmpi .sge (nbrIdx kidx) (broadcastInDim S60000x16x1 ![] bcast_S_S60000x16x1 (constantI S_ 32 0#32)))
      (cmpi .sle (nbrIdx kidx) (broadcastInDim S60000x16x1 ![0, 1, 2] bcast_S1x1x1_S60000x16x1_0_1_2
        (broadcastInDim S1x1x1 ![2] bcast_S1_S1x1x1_2 (constantI S1 32 239999#32)))) i = 1#1 := by
  unfold nbrIdx andi cmpi addi Idealize.ShloMosaic.select broadcastInDim constantI
  exact norm_ok _ (hk _)

/-- Every neighbour is in range. -/
theorem nbrOk_one (kidx : IVec S60000x16 32) (hk : ∀ i, IsRow (kidx i)) (j : S60000x16.Idx) : nbrOk (nbrIdx kidx) j = 1#1 := by
  unfold nbrOk
  exact reduce_andi_of_all _ _ _ _ _ (fun _ => rfl) (nbr_test kidx hk)

/-- A broadcast of an array of ones is an array of ones. -/
theorem bcast_one {s t : Shape} (dims : Fin s.rank → Fin t.rank) (h : s.BroadcastsInDim t dims) (x : s.Idx → BitVec 1)
    (hx : ∀ i, x i = 1#1) (j : t.Idx) : broadcastInDim t dims h x j = 1#1 := by
  unfold broadcastInDim; exact hx _

/-- A broadcast of an array of reals is an array of reals. -/
theorem bcast_real {s t : Shape} (dims : Fin s.rank → Fin t.rank) (h : s.BroadcastsInDim t dims) (x : s.Idx → EReal)
    (hx : ∀ i, IsReal (x i)) (j : t.Idx) : IsReal (broadcastInDim t dims h x j) := by
  unfold broadcastInDim; exact hx _

/-- A selection under a mask of ones takes its first operand's entries. -/
theorem select_real {s : Shape} (c : IVec s 1) (a b : s.Idx → EReal) (hc : ∀ j, c j = 1#1) (ha : ∀ j, IsReal (a j)) (j : s.Idx) :
    IsReal (Idealize.ShloMosaic.select c a b j) := by
  unfold Idealize.ShloMosaic.select
  rw [hc j, select_one]
  exact ha j

/-- A difference of reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- An entrywise difference of arrays of reals is an array of reals. -/
theorem subf_real {s : Shape} (a b : FVec Ideal s .f32) (ha : ∀ j, IsReal (a j)) (hb : ∀ j, IsReal (b j)) (j : s.Idx) :
    IsReal (subf a b j) := by
  unfold subf
  exact isReal_sub (ha j) (hb j)

/-- The samples' rows are real. -/
theorem takeRows_real (point : FVec Ideal S240000x3 .f32) (sidx : IVec S60000 32) (hp : ∀ i, IsReal (point i))
    (hs : ∀ i, IsRow (sidx i)) (j : S60000x3.Idx) : IsReal (takeRows point sidx j) := by
  unfold takeRows
  exact select_real _ _ _ (bcast_one _ _ _ (sampleOk_one sidx hs)) (fun j => gather_real _ _ _ hp j) j

/-- The neighbours' rows are real. -/
theorem takeNbrPos_real (point : FVec Ideal S240000x3 .f32) (kidx : IVec S60000x16 32) (hp : ∀ i, IsReal (point i))
    (hk : ∀ i, IsRow (kidx i)) (j : S60000x16x3.Idx) : IsReal (takeNbrPos point kidx j) := by
  unfold takeNbrPos
  exact select_real _ _ _ (bcast_one _ _ _ (nbrOk_one kidx hk)) (fun j => gather_real _ _ _ hp j) j

/-- The neighbours' features are real. -/
theorem nbrFeat_real (feat : FVec Ideal S240000x64 .f32) (kidx : IVec S60000x16 32) (hf : ∀ i, IsReal (feat i))
    (hk : ∀ i, IsRow (kidx i)) (j : S60000x16x64.Idx) : IsReal (nbrFeat feat kidx j) := by
  unfold nbrFeat
  exact select_real _ _ _ (bcast_one _ _ _ (nbrOk_one kidx hk)) (fun j => gather_real _ _ _ hf j) j

/-- The relative positions are real. -/
theorem relPos_real (point : FVec Ideal S240000x3 .f32) (sidx : IVec S60000 32) (kidx : IVec S60000x16 32)
    (hp : ∀ i, IsReal (point i)) (hs : ∀ i, IsRow (sidx i)) (hk : ∀ i, IsRow (kidx i)) (j : S60000x16x3.Idx) :
    IsReal (relPos point sidx kidx j) := by
  unfold relPos
  exact subf_real _ _ (takeNbrPos_real point kidx hp hk)
    (bcast_real _ _ _ (bcast_real _ _ _ (takeRows_real point sidx hp hs))) j

end Cert.KernelIdeal.Gathered

end
-- ==== Proof.lean ====
/-
  The certificate of the two-pass "gather – dense – batch normalisation – ReLU – max over neighbours" program against its
  plain reference, on the extended reals.

  Both programs gather the same rows (the samples' positions, the neighbours' positions and features) by the same host
  operations, so they start from the same arrays; under the precondition (every float entry finite, every index a row of
  the tables) those arrays hold real numbers. The reference multiplies the concatenated 67-vectors by the weight matrix,
  the two-pass program splits the product into the first 3 and the last 64 rows of the matrix: the same sum. The first
  pass accumulates, per half of the samples, the channel sums and sums of squares; the mean of squares minus the squared
  mean is the mean squared deviation the reference computes, and is not negative, so the clamp at zero is idle. The second
  pass applies `y·(γ·r) + (β − μ·γ·r)`, the reference `(y − μ)·r·γ + β`: one affine map. Clamping at zero and the maximum
  over the 16 neighbours are the same on both sides.

  The three frames: the two kernels' are the generated frame certificates; the reference's is its run with the results
  dropped. The idealization rewrote nothing, so `preserves` asks nothing.
-/
import proofs.«107821_j74440373174612_2_alg».proof.Defs
import proofs.«107821_j74440373174612_2_alg».proof.Proof.Gen.Kernel
import proofs.«107821_j74440373174612_2_alg».proof.Proof.Gen.Kernel.Frame
import proofs.«107821_j74440373174612_2_alg».proof.Proof.Gen.KernelIdeal
import proofs.«107821_j74440373174612_2_alg».proof.Proof.Gen.KernelIdeal.Frame
import proofs.«107821_j74440373174612_2_alg».proof.Proof.Gen.ReferenceIdeal
import proofs.«107821_j74440373174612_2_alg».proof.Proof.Gen.Pre_finite_inputs
import proofs.«107821_j74440373174612_2_alg».proof.Proof.KernelValue
import proofs.«107821_j74440373174612_2_alg».proof.Proof.RefRun
import proofs.«107821_j74440373174612_2_alg».proof.Proof.Bridge
import proofs.«107821_j74440373174612_2_alg».proof.Proof.Inputs
import proofs.«107821_j74440373174612_2_alg».proof.Proof.Gathered
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RefRun.run m ρ)

/-- The two gathers and the relative positions are the same host terms in both programs. -/
theorem rows_same (point : FVec Ideal Cert.KernelIdeal.S240000x3 .f32) (sidx : IVec Cert.KernelIdeal.S60000 32) :
    Cert.KernelIdeal.HostTerm.takeRows (F := Ideal) point sidx = Cert.ReferenceIdeal.RefTerm.takeRows point sidx := rfl
theorem relPos_same (point : FVec Ideal Cert.KernelIdeal.S240000x3 .f32) (sidx : IVec Cert.KernelIdeal.S60000 32) (kidx : IVec Cert.KernelIdeal.S60000x16 32) :
    Cert.KernelIdeal.HostTerm.relPos (F := Ideal) point sidx kidx = Cert.ReferenceIdeal.RefTerm.relPos point sidx kidx := rfl
theorem nbrFeat_same (feat : FVec Ideal Cert.KernelIdeal.S240000x64 .f32) (kidx : IVec Cert.KernelIdeal.S60000x16 32) :
    Cert.KernelIdeal.HostTerm.nbrFeat (F := Ideal) feat kidx = Cert.ReferenceIdeal.RefTerm.nbrFeat feat kidx := rfl

theorem algebraic : Cert.algebraic_KernelIdeal_ReferenceIdeal := by
  intro m ρ m' ρ' hpre hagree
  refine ⟨fun c => Cert.KernelIdeal.Gen.W8 m ρ c (Proc.devRef .tc Cert.KernelIdeal.main_v0),
    fun c => Cert.KernelIdeal.Gen.W8 m ρ c (Proc.devRef .tc Cert.KernelIdeal.main_v30),
    Cert.KernelIdeal.RunValues.run m ρ, ?_⟩
  refine (θ_run Cert.ReferenceIdeal.defs _ _).mono (fun r h c => ?_) (Cert.ReferenceIdeal.RefRun.run m' ρ')
  obtain ⟨h0, h1, hargs⟩ := h c
  obtain ⟨a0, a1, a2, a3, a4, a5, a6⟩ := hagree c
  have good := Cert.Inputs.good_of_pre _ _ _ _ _ _ _ (hpre c)
  refine ⟨h0.trans ?_, h1.trans ?_, hargs⟩
  · rw [a0, a5]
    exact ((Cert.KernelIdeal.ResultValue.result0 m ρ c).trans (rows_same _ _)).symm
  · rw [a0, a1, a2, a3, a4, a5, a6]
    funext j
    obtain ⟨p, d, rfl⟩ : ∃ (p : Fin 60000) (d : Fin 128), j = ix2 p d := ⟨j 0, j 1, eq_ix2 j⟩
    refine Eq.trans ?_ (Cert.KernelIdeal.ResultValue.result1_entry m ρ c p d).symm
    unfold Cert.ReferenceIdeal.RefTerm.result
    rw [← relPos_same, ← nbrFeat_same]
    exact (Cert.Bridge.out_eq _ _ _ _ _ _ _
      (Cert.KernelIdeal.Gathered.relPos_real _ _ _ good.point good.sidx good.kidx)
      (Cert.KernelIdeal.Gathered.nbrFeat_real _ _ good.feat good.kidx) good.W good.gamma good.beta
      (Cert.KernelIdeal.ResultValue.acc1_entry m ρ c) (Cert.KernelIdeal.ResultValue.acc2_entry m ρ c) p d).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
